-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_arg6 : FVec F S256x1 .f32) (main_arg7 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x256 .f32) (main_arg1 : IVec S8192x8192 32) (main_arg2 : FVec F S256x256 .f32) (main_arg3 : FVec F S256 .f32) (main_arg4 : FVec F S256x1 .f32) (main_arg5 : FVec F S1 .f32) (main_arg6 : FVec F S256x1 .f32) (main_arg7 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_arg6 main_arg7 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S256x1 : Shape := ⟨2, ![256, 1]⟩
abbrev S1 : Shape := ⟨1, ![1]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S1x256 : Shape := ⟨2, ![1, 256]⟩
abbrev S1x1 : Shape := ⟨2, ![1, 1]⟩
abbrev S1024x1024 : Shape := ⟨2, ![1024, 1024]⟩
abbrev S1024 : Shape := ⟨1, ![1024]⟩

abbrev nBuf : Space → Nat
  | .hbm => 12
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S256x1, .f32⟩
  | .hbm, ⟨7, _⟩ => ⟨S1, .f32⟩
  | .hbm, ⟨8, _⟩ => ⟨S8192x256, .bf16⟩
  | .hbm, ⟨9, _⟩ => ⟨S8192x1, .f32⟩
  | .hbm, ⟨10, _⟩ => ⟨S1x8192, .f32⟩
  | .hbm, ⟨11, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256, .f32⟩
  | .local _ .vmem, ⟨4, _⟩ => ⟨S256x1, .f32⟩
  | .local _ .vmem, ⟨5, _⟩ => ⟨S1, .f32⟩
  | .local _ .vmem, ⟨6, _⟩ => ⟨S256x1, .f32⟩
  | .local _ .vmem, ⟨7, _⟩ => ⟨S1, .f32⟩
  | .local _ .vmem, ⟨8, _⟩ => ⟨S1024x256, .bf16⟩
  | .local _ .vmem, ⟨9, _⟩ => ⟨S1024x256, .bf16⟩
  | .local _ .vmem, ⟨10, _⟩ => ⟨S1024x1, .f32⟩
  | .local _ .vmem, ⟨11, _⟩ => ⟨S1024x1, .f32⟩
  | .local _ .vmem, ⟨12, _⟩ => ⟨S1x1024, .f32⟩
  | .local _ .vmem, ⟨13, _⟩ => ⟨S1x1024, .f32⟩
  | .local _ .vmem, ⟨14, _⟩ => ⟨S1024x1024, .i32⟩
  | .local _ .vmem, ⟨15, _⟩ => ⟨S1024x1024, .i32⟩
  | .local _ .vmem, ⟨16, _⟩ => ⟨S1024x1, .f32⟩
  | .local _ .vmem, ⟨17, _⟩ => ⟨S1024x1, .f32⟩
  | .local _ .vmem, ⟨18, _⟩ => ⟨S1x1024, .f32⟩
  | .local _ .vmem, ⟨19, _⟩ => ⟨S1x1024, .f32⟩
  | .local _ .vmem, ⟨20, _⟩ => ⟨S8192x256, .bf16⟩
  | .local _ .vmem, ⟨21, _⟩ => ⟨S1024x256, .f32⟩
  | .local _ .vmem, ⟨22, _⟩ => ⟨S1024x256, .f32⟩
  | .local _ .vmem, ⟨23, _⟩ => ⟨S1024x1, .f32⟩
  | .local _ .vmem, ⟨24, _⟩ => ⟨S1024x1, .f32⟩
  | .local _ .vmem, ⟨25, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v37 : BitVec 32 := Scalar.muli arg1 c1024_i32
  v37
def k1_off1 (i : grid1.Coords) : Fin 2 → Nat :=
  let arg1 : BitVec 32 := BitVec.ofNat 32 (i 1).val
  let c1024_i32 : BitVec 32 := 1024#32
  let v37 : BitVec 32 := Scalar.muli arg1 c1024_i32
  let v38 : BitVec 32 := v37
  let v39 : Index := Scalar.indexCast v38
  let c0_17 : Index := 0#32
  ![v39.toNat, 0]
def k1_cond2 (i : grid1.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_25 : BitVec 32 := 0#32
  let v56 : BitVec 1 := Scalar.cmpi .ne v55 c0_i32_25
  v56

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S8192x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  broadcasts_S1x1_S1x1024 : S1x1.Broadcasts S1x1024
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  inb_S1x1024_S1x1024_0_0 : ∀ a, (![0, 0] : Fin 2 → Nat) a + S1x1024.size a ≤ S1x1024.size a
  h_S1x1024 : 0 < S1x1024.numel
  shapeCasts_S1024x1_S1024x1 : S1024x1.ShapeCasts S1024x1
  shapeCasts_S1024x256_S1024x256 : S1024x256.ShapeCasts S1024x256
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x256 : S1024x1.Broadcasts S1024x256
  dot_S1024x256_S256x256_S1024x256_1_1_0_0_n_n_wf : DotDims.WF S1024x256 S256x256 S1024x256 [1] [1] [0] [0] [] []
  dot_S1024x256_S256x1_S1024x1_1_0_0_1_n_n_wf : DotDims.WF S1024x256 S256x1 S1024x1 [1] [0] [0] [1] [] []
  dot_S256x1_S1024x256_S1x1024_0_1_1_0_n_n_wf : DotDims.WF S256x1 S1024x256 S1x1024 [0] [1] [1] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x256.size a
  hwx0_7 : ∀ i : grid0.Coords, EltTy.bits .bf16 = 32 ∨ (Rect.block (s := S8192x256) S1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S8192x1.size a
  hwx0_8 : ∀ i : grid0.Coords, EltTy.bits .f32 = 32 ∨ (Rect.block (s := S8192x1) S1024x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x8192.size a
  hwx0_9 : ∀ i : grid0.Coords, EltTy.bits .f32 = 32 ∨ (Rect.block (s := S1x8192) S1x1024.size (cc0_transform_9 i) (hinb0_9 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .i32 = 32 ∨ (Rect.block (s := S8192x8192) S1024x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S8192x256.size a
  hwx1_3 : ∀ i : grid1.Coords, EltTy.bits .bf16 = 32 ∨ (Rect.block (s := S8192x256) S8192x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S256x1_S1024x256_S1x1024_0_1_1_0_n_n : DotDims S256x1 S1024x256 S1x1024 where
  lhsContracting := [0]
  rhsContracting := [1]
  lhsNonContracting := [1]
  rhsNonContracting := [0]
  lhsBatch := []
  rhsBatch := []
  wf := dot_S256x1_S1024x256_S1x1024_0_1_1_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1024x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S8192x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S8192x1 : Shape := ⟨2, ![8192, 1]⟩
abbrev S1x1 : Shape := ⟨2, ![1, 1]⟩
abbrev S1x8192 : Shape := ⟨2, ![1, 8192]⟩
abbrev S_ : Shape := ⟨0, ![]⟩
abbrev S8192 : Shape := ⟨1, ![8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S256x1, .f32⟩
  | .hbm, ⟨7, _⟩ => ⟨S1, .f32⟩
  | .hbm, ⟨8, _⟩ => ⟨S256x256, .f32⟩
  | .hbm, ⟨9, _⟩ => ⟨S8192x256, .f32⟩
  | .hbm, ⟨10, _⟩ => ⟨S1x256, .f32⟩
  | .hbm, ⟨11, _⟩ => ⟨S8192x256, .f32⟩
  | .hbm, ⟨12, _⟩ => ⟨S8192x256, .f32⟩
  | .hbm, ⟨13, _⟩ => ⟨S8192x1, .f32⟩
  | .hbm, ⟨14, _⟩ => ⟨S1x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S1x1, .f32⟩
  | .hbm, ⟨19, _⟩ => ⟨S8192x1, .f32⟩
  | .hbm, ⟨20, _⟩ => ⟨S8192x1, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x8192, .f32⟩
  | .hbm, ⟨52, _⟩ => ⟨S8192x8192, .f32⟩
  | .hbm, ⟨53, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Prep.lean ====
/-
  The projection kernel (the first of the program's two kernels), one grid point at a time.

  At each of its 8 grid points the kernel reads a block of 1024 rows of X and the whole of W, b, we1, be1, we2, be2, and
  writes three blocks: 1024 rows of h = X Wᵀ + b, the matching 1024 entries of the column e1 = h we1 + be1, and the
  matching 1024 entries of the row e2ᵀ = (h we2 + be2)ᵀ. This module states what the body leaves in its three output
  buffers as functions of the seven input blocks, proves the body's triple, and packages both as the pipeline's proof
  data and body obligation, at any contents `V` of the TensorCore's buffers when the kernel is entered. Generic in the
  float instance.
-/
import proofs.«166967_j31688268710357_2_alg».proof.Proof.Gen.Kernel.Launch
import proofs.«166967_j31688268710357_2_alg».proof.Proof.Gen.Kernel.Skeleton
import proofs.«166967_j31688268710357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def prepBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there: an unfetched
    input's block index has not moved, so the buffer still holds this point's block. -/
theorem prepBefore0_of {c : Dev nD} (dat : Dat τ (Elt F) Unit ℕ (UR sig nD τ) ℕ cfg0 c) (hA : dat.A 0 = V c (Pipeline.arrRef spec0 0))
    (hafter : ∀ t, dat.after 0 t = prepBlk V c 0 t) (t : Fin cfg0.N) (d) : dat.before 0 t d = prepBlk V c 0 t :=
  (dat.before_in_eq_fetched 0 rfl (fun _ => rfl) (fun _ _ _ => rfl) (fun t => by rw [hafter]; unfold Dat.blockOf prepBlk; rw [hA]; try rfl) t d).trans
    (by unfold Dat.fetched Dat.blockOf prepBlk; rw [hA]; try rfl)

/-- Input window 1's staging buffer holds its block at every point, whether or not it was fetched there: an unfetched
    input's block index has not moved, so the buffer still holds this point's block. -/
theorem prepBefore1_of {c : Dev nD} (dat : Dat τ (Elt F) Unit ℕ (UR sig nD τ) ℕ cfg0 c) (hA : dat.A 1 = V c (Pipeline.arrRef spec0 1))
    (hafter : ∀ t, dat.after 1 t = prepBlk V c 1 t) (t : Fin cfg0.N) (d) : dat.before 1 t d = prepBlk V c 1 t :=
  (dat.before_in_eq_fetched 1 rfl (fun _ => rfl) (fun _ _ _ => rfl) (fun t => by rw [hafter]; unfold Dat.blockOf prepBlk; rw [hA]; try rfl) t d).trans
    (by unfold Dat.fetched Dat.blockOf prepBlk; rw [hA]; try rfl)

/-- Input window 2's staging buffer holds its block at every point, whether or not it was fetched there: an unfetched
    input's block index has not moved, so the buffer still holds this point's block. -/
theorem prepBefore2_of {c : Dev nD} (dat : Dat τ (Elt F) Unit ℕ (UR sig nD τ) ℕ cfg0 c) (hA : dat.A 2 = V c (Pipeline.arrRef spec0 2))
    (hafter : ∀ t, dat.after 2 t = prepBlk V c 2 t) (t : Fin cfg0.N) (d) : dat.before 2 t d = prepBlk V c 2 t :=
  (dat.before_in_eq_fetched 2 rfl (fun _ => rfl) (fun _ _ _ => rfl) (fun t => by rw [hafter]; unfold Dat.blockOf prepBlk; rw [hA]; try rfl) t d).trans
    (by unfold Dat.fetched Dat.blockOf prepBlk; rw [hA]; try rfl)

/-- Input window 3's staging buffer holds its block at every point, whether or not it was fetched there: an unfetched
    input's block index has not moved, so the buffer still holds this point's block. -/
theorem prepBefore3_of {c : Dev nD} (dat : Dat τ (Elt F) Unit ℕ (UR sig nD τ) ℕ cfg0 c) (hA : dat.A 3 = V c (Pipeline.arrRef spec0 3))
    (hafter : ∀ t, dat.after 3 t = prepBlk V c 3 t) (t : Fin cfg0.N) (d) : dat.before 3 t d = prepBlk V c 3 t :=
  (dat.before_in_eq_fetched 3 rfl (fun _ => rfl) (fun _ _ _ => rfl) (fun t => by rw [hafter]; unfold Dat.blockOf prepBlk; rw [hA]; try rfl) t d).trans
    (by unfold Dat.fetched Dat.blockOf prepBlk; rw [hA]; try rfl)

/-- Input window 4's staging buffer holds its block at every point, whether or not it was fetched there: an unfetched
    input's block index has not moved, so the buffer still holds this point's block. -/
theorem prepBefore4_of {c : Dev nD} (dat : Dat τ (Elt F) Unit ℕ (UR sig nD τ) ℕ cfg0 c) (hA : dat.A 4 = V c (Pipeline.arrRef spec0 4))
    (hafter : ∀ t, dat.after 4 t = prepBlk V c 4 t) (t : Fin cfg0.N) (d) : dat.before 4 t d = prepBlk V c 4 t :=
  (dat.before_in_eq_fetched 4 rfl (fun _ => rfl) (fun _ _ _ => rfl) (fun t => by rw [hafter]; unfold Dat.blockOf prepBlk; rw [hA]; try rfl) t d).trans
    (by unfold Dat.fetched Dat.blockOf prepBlk; rw [hA]; try rfl)

/-- Input window 5's staging buffer holds its block at every point, whether or not it was fetched there: an unfetched
    input's block index has not moved, so the buffer still holds this point's block. -/
theorem prepBefore5_of {c : Dev nD} (dat : Dat τ (Elt F) Unit ℕ (UR sig nD τ) ℕ cfg0 c) (hA : dat.A 5 = V c (Pipeline.arrRef spec0 5))
    (hafter : ∀ t, dat.after 5 t = prepBlk V c 5 t) (t : Fin cfg0.N) (d) : dat.before 5 t d = prepBlk V c 5 t :=
  (dat.before_in_eq_fetched 5 rfl (fun _ => rfl) (fun _ _ _ => rfl) (fun t => by rw [hafter]; unfold Dat.blockOf prepBlk; rw [hA]; try rfl) t d).trans
    (by unfold Dat.fetched Dat.blockOf prepBlk; rw [hA]; try rfl)

/-- Input window 6's staging buffer holds its block at every point, whether or not it was fetched there: an unfetched
    input's block index has not moved, so the buffer still holds this point's block. -/
theorem prepBefore6_of {c : Dev nD} (dat : Dat τ (Elt F) Unit ℕ (UR sig nD τ) ℕ cfg0 c) (hA : dat.A 6 = V c (Pipeline.arrRef spec0 6))
    (hafter : ∀ t, dat.after 6 t = prepBlk V c 6 t) (t : Fin cfg0.N) (d) : dat.before 6 t d = prepBlk V c 6 t :=
  (dat.before_in_eq_fetched 6 rfl (fun _ => rfl) (fun _ _ _ => rfl) (fun t => by rw [hafter]; unfold Dat.blockOf prepBlk; rw [hA]; try rfl) t d).trans
    (by unfold Dat.fetched Dat.blockOf prepBlk; rw [hA]; try rfl)

/-! ## The body's whole-buffer rectangles -/

abbrev rX : Rect S1024x256 := Rect.unit (s := S1024x256) ![0, 0] S1024x256.size inb_S1024x256_S1024x256_0_0
abbrev rW : Rect S256x256 := Rect.unit (s := S256x256) ![0, 0] S256x256.size inb_S256x256_S256x256_0_0
abbrev rB : Rect S256 := Rect.unit (s := S256) ![0] S256.size inb_S256_S256_0
abbrev rCol : Rect S256x1 := Rect.unit (s := S256x1) ![0, 0] S256x1.size inb_S256x1_S256x1_0_0
abbrev rOne : Rect S1 := Rect.unit (s := S1) ![0] S1.size inb_S1_S1_0
abbrev rE1 : Rect S1024x1 := Rect.unit (s := S1024x1) ![0, 0] S1024x1.size inb_S1024x1_S1024x1_0_0
abbrev rE2 : Rect S1x1024 := Rect.unit (s := S1x1024) ![0, 0] S1x1024.size inb_S1x1024_S1x1024_0_0

/-! ## What the body leaves in each output buffer -/

/-- The block of h: the projected rows, stored whole. -/
def prepOutH (x0 : Vec F S1024x256 .f32) (x1 : Vec F S256x256 .f32) (x2 : Vec F S256 .f32) : Vec F S1024x256 .bf16 :=
  View.canon [⟨rX, k0_pay4 (View.ld x0 rX) (View.ld x1 rW) (View.ld x2 rB)⟩]

/-- The block of the column e1. -/
def prepOutE1 (x0 : Vec F S1024x256 .f32) (x1 : Vec F S256x256 .f32) (x2 : Vec F S256 .f32) (x3 : Vec F S256x1 .f32) (x4 : Vec F S1 .f32) : Vec F S1024x1 .f32 :=
  View.canon [⟨rE1, k0_pay2 (View.ld x0 rX) (View.ld x1 rW) (View.ld x2 rB) (View.ld x3 rCol) (View.ld x4 rOne)⟩]

/-- The block of the row e2ᵀ. -/
def prepOutE2 (x0 : Vec F S1024x256 .f32) (x1 : Vec F S256x256 .f32) (x2 : Vec F S256 .f32) (x5 : Vec F S256x1 .f32) (x6 : Vec F S1 .f32) : Vec F S1x1024 .f32 :=
  View.canon [⟨rE2, k0_pay3 (View.ld x0 rX) (View.ld x1 rW) (View.ld x2 rB) (View.ld x5 rCol) (View.ld x6 rOne)⟩]

/-- One whole-buffer store covers the buffer. -/
theorem prepCoverH (p0 : Vec F S1024x256 .bf16) (y : S1024x256.Idx) :
    ∃ pc ∈ ([⟨rX, p0⟩] : List (View.Piece (Elt F) S1024x256 .bf16)), y ∈ pc.1.set :=
  View.cover_of_tiled [⟨rX, p0⟩] S1024x256.size (by rfl) y
theorem prepCoverE1 (p0 : Vec F S1024x1 .f32) (y : S1024x1.Idx) :
    ∃ pc ∈ ([⟨rE1, p0⟩] : List (View.Piece (Elt F) S1024x1 .f32)), y ∈ pc.1.set :=
  View.cover_of_tiled [⟨rE1, p0⟩] S1024x1.size (by rfl) y
theorem prepCoverE2 (p0 : Vec F S1x1024 .f32) (y : S1x1024.Idx) :
    ∃ pc ∈ ([⟨rE2, p0⟩] : List (View.Piece (Elt F) S1x1024 .f32)), y ∈ pc.1.set :=
  View.cover_of_tiled [⟨rE2, p0⟩] S1x1024.size (by rfl) y

/-! ## The body's triple -/

set_option maxHeartbeats 1000000 in
/-- The body on whole staging buffers, the seven inputs at read contents `x0 … x6` and the three outputs at anything, runs
    to the continuation holding the inputs as they were and each output at its function of the inputs. -/
theorem prepSound (c : Dev nD) (E : Set ℕ) (i : grid0.Coords)
    (arg1 : Memref sig .tc .vmem S1024x256 .f32) (harg1 : arg1.IsWhole)
    (arg2 : Memref sig .tc .vmem S256x256 .f32) (harg2 : arg2.IsWhole)
    (arg3 : Memref sig .tc .vmem S256 .f32) (harg3 : arg3.IsWhole)
    (arg4 : Memref sig .tc .vmem S256x1 .f32) (harg4 : arg4.IsWhole)
    (arg5 : Memref sig .tc .vmem S1 .f32) (harg5 : arg5.IsWhole)
    (arg6 : Memref sig .tc .vmem S256x1 .f32) (harg6 : arg6.IsWhole)
    (arg7 : Memref sig .tc .vmem S1 .f32) (harg7 : arg7.IsWhole)
    (arg8 : Memref sig .tc .vmem S1024x256 .bf16) (harg8 : arg8.IsWhole)
    (arg9 : Memref sig .tc .vmem S1024x1 .f32) (harg9 : arg9.IsWhole)
    (arg10 : Memref sig .tc .vmem S1x1024 .f32) (harg10 : arg10.IsWhole)
    (x0 : Vec F S1024x256 .f32) (x1 : Vec F S256x256 .f32) (x2 : Vec F S256 .f32) (x3 : Vec F S256x1 .f32) (x4 : Vec F S1 .f32) (x5 : Vec F S256x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (prepOutH x0 x1 x2)
            ∗ owns (c : Thread nD τ) arg9 fullShare (prepOutE1 x0 x1 x2 x3 x4)
            ∗ owns (c : Thread nD τ) arg10 fullShare (prepOutE2 x0 x1 x2 x5 x6)) -∗ K ⟨⟩))
      ⊢ wp frame (wpE (defs₀ (F := F)) Variants.none c none) E
          (cc0__prep_kernel i arg1 harg1 arg2 harg2 arg3 harg3 arg4 harg4 arg5 harg5 arg6 harg6 arg7 harg7 arg8 harg8 arg9 harg9 arg10 harg10) K := by
  simp only [cc0__prep_kernel_eq_skeleton]; unfold cc0__prep_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (prepCoverH _)
  isplitl [H8]
  · iexists _; isplitr
    swap; · iexact H8
    ipureintro
    exact View.read_writes_eq_canon _ _ _ (prepCoverE1 _)
  iexists _; isplitr
  swap; · iexact H9
  ipureintro
  exact View.read_writes_eq_canon _ _ _ (prepCoverE2 _)

/-! ## The pipeline's proof data -/

/-- The proof data of the projection kernel on core `c`: the arrays as the kernel finds them; after the body at point `t`
    each input's buffer at its block and each output's at its function of the input blocks; the invariant is the plain one
    (the scoped buffers no window stages and the generator register, untouched); nothing owed; full shares. -/
def prepDat (c : Dev nD) : Dat τ (Elt F) Unit ℕ (UR sig nD τ) ℕ cfg0 c where
  A w := V c (Pipeline.arrRef spec0 w)
  after w t := match w with
    | ⟨0, _⟩ => prepBlk V c 0 t
    | ⟨1, _⟩ => prepBlk V c 1 t
    | ⟨2, _⟩ => prepBlk V c 2 t
    | ⟨3, _⟩ => prepBlk V c 3 t
    | ⟨4, _⟩ => prepBlk V c 4 t
    | ⟨5, _⟩ => prepBlk V c 5 t
    | ⟨6, _⟩ => prepBlk V c 6 t
    | ⟨7, _⟩ => prepOutH (prepBlk V c 0 t) (prepBlk V c 1 t) (prepBlk V c 2 t)
    | ⟨8, _⟩ => prepOutE1 (prepBlk V c 0 t) (prepBlk V c 1 t) (prepBlk V c 2 t) (prepBlk V c 3 t) (prepBlk V c 4 t)
    | ⟨9, _⟩ => prepOutE2 (prepBlk V c 0 t) (prepBlk V c 1 t) (prepBlk V c 2 t) (prepBlk V c 5 t) (prepBlk V c 6 t)
  Φ _ := Pipeline.ΦA spec0 c
  q _ := fullShare
  owed _ := 0

theorem prepA_eq (c : Dev nD) (w : Fin cfg0.W) : (prepDat V c).A w = V c (Pipeline.arrRef spec0 w) := by
  dsimp only [prepDat]

theorem prepAfter0 (c : Dev nD) (t : Fin cfg0.N) : (prepDat V c).after 0 t = prepBlk V c 0 t := by dsimp only [prepDat]
theorem prepAfter1 (c : Dev nD) (t : Fin cfg0.N) : (prepDat V c).after 1 t = prepBlk V c 1 t := by dsimp only [prepDat]
theorem prepAfter2 (c : Dev nD) (t : Fin cfg0.N) : (prepDat V c).after 2 t = prepBlk V c 2 t := by dsimp only [prepDat]
theorem prepAfter3 (c : Dev nD) (t : Fin cfg0.N) : (prepDat V c).after 3 t = prepBlk V c 3 t := by dsimp only [prepDat]
theorem prepAfter4 (c : Dev nD) (t : Fin cfg0.N) : (prepDat V c).after 4 t = prepBlk V c 4 t := by dsimp only [prepDat]
theorem prepAfter5 (c : Dev nD) (t : Fin cfg0.N) : (prepDat V c).after 5 t = prepBlk V c 5 t := by dsimp only [prepDat]
theorem prepAfter6 (c : Dev nD) (t : Fin cfg0.N) : (prepDat V c).after 6 t = prepBlk V c 6 t := by dsimp only [prepDat]
theorem prepAfter7 (c : Dev nD) (t : Fin cfg0.N) : (prepDat V c).after 7 t = prepOutH (prepBlk V c 0 t) (prepBlk V c 1 t) (prepBlk V c 2 t) := by dsimp only [prepDat]
theorem prepAfter8 (c : Dev nD) (t : Fin cfg0.N) : (prepDat V c).after 8 t = prepOutE1 (prepBlk V c 0 t) (prepBlk V c 1 t) (prepBlk V c 2 t) (prepBlk V c 3 t) (prepBlk V c 4 t) := by dsimp only [prepDat]
theorem prepAfter9 (c : Dev nD) (t : Fin cfg0.N) : (prepDat V c).after 9 t = prepOutE2 (prepBlk V c 0 t) (prepBlk V c 1 t) (prepBlk V c 2 t) (prepBlk V c 5 t) (prepBlk V c 6 t) := by dsimp only [prepDat]

theorem prepBefore0 (c : Dev nD) (t : Fin cfg0.N) (d) : (prepDat V c).before 0 t d = prepBlk V c 0 t :=
  prepBefore0_of V (prepDat V c) (prepA_eq V c 0) (prepAfter0 V c) t d
theorem prepBefore1 (c : Dev nD) (t : Fin cfg0.N) (d) : (prepDat V c).before 1 t d = prepBlk V c 1 t :=
  prepBefore1_of V (prepDat V c) (prepA_eq V c 1) (prepAfter1 V c) t d
theorem prepBefore2 (c : Dev nD) (t : Fin cfg0.N) (d) : (prepDat V c).before 2 t d = prepBlk V c 2 t :=
  prepBefore2_of V (prepDat V c) (prepA_eq V c 2) (prepAfter2 V c) t d
theorem prepBefore3 (c : Dev nD) (t : Fin cfg0.N) (d) : (prepDat V c).before 3 t d = prepBlk V c 3 t :=
  prepBefore3_of V (prepDat V c) (prepA_eq V c 3) (prepAfter3 V c) t d
theorem prepBefore4 (c : Dev nD) (t : Fin cfg0.N) (d) : (prepDat V c).before 4 t d = prepBlk V c 4 t :=
  prepBefore4_of V (prepDat V c) (prepA_eq V c 4) (prepAfter4 V c) t d
theorem prepBefore5 (c : Dev nD) (t : Fin cfg0.N) (d) : (prepDat V c).before 5 t d = prepBlk V c 5 t :=
  prepBefore5_of V (prepDat V c) (prepA_eq V c 5) (prepAfter5 V c) t d
theorem prepBefore6 (c : Dev nD) (t : Fin cfg0.N) (d) : (prepDat V c).before 6 t d = prepBlk V c 6 t :=
  prepBefore6_of V (prepDat V c) (prepA_eq V c 6) (prepAfter6 V c) t d

/-! ## The body obligation, at a generic point -/

/-- What the body is called with at point `t`, the windows one by one, -/
def prepBodyPre (c : Dev nD) (t : Fin cfg0.N) : sProp 𝕄 :=
  iprop((prepDat V c).Φ t.castSucc ∗ (prepDat V c).owesAt () t.castSucc
    ∗ (∃ d, owns (c : Thread nD τ) (st0_0 t) fullShare ((prepDat V c).before 0 t d))
    ∗ (∃ d, owns (c : Thread nD τ) (st0_1 t) fullShare ((prepDat V c).before 1 t d))
    ∗ (∃ d, owns (c : Thread nD τ) (st0_2 t) fullShare ((prepDat V c).before 2 t d))
    ∗ (∃ d, owns (c : Thread nD τ) (st0_3 t) fullShare ((prepDat V c).before 3 t d))
    ∗ (∃ d, owns (c : Thread nD τ) (st0_4 t) fullShare ((prepDat V c).before 4 t d))
    ∗ (∃ d, owns (c : Thread nD τ) (st0_5 t) fullShare ((prepDat V c).before 5 t d))
    ∗ (∃ d, owns (c : Thread nD τ) (st0_6 t) fullShare ((prepDat V c).before 6 t d))
    ∗ (∃ d, owns (c : Thread nD τ) (st0_7 t) fullShare ((prepDat V c).before 7 t d))
    ∗ (∃ d, owns (c : Thread nD τ) (st0_8 t) fullShare ((prepDat V c).before 8 t d))
    ∗ (∃ d, owns (c : Thread nD τ) (st0_9 t) fullShare ((prepDat V c).before 9 t d)))

/-- and what it returns. -/
def prepBodyPost (c : Dev nD) (t : Fin cfg0.N) : sProp 𝕄 :=
  iprop((prepDat V c).Φ t.succ ∗ (prepDat V c).owesAt () t.succ
    ∗ owns (c : Thread nD τ) (st0_0 t) fullShare ((prepDat V c).after 0 t)
    ∗ owns (c : Thread nD τ) (st0_1 t) fullShare ((prepDat V c).after 1 t)
    ∗ owns (c : Thread nD τ) (st0_2 t) fullShare ((prepDat V c).after 2 t)
    ∗ owns (c : Thread nD τ) (st0_3 t) fullShare ((prepDat V c).after 3 t)
    ∗ owns (c : Thread nD τ) (st0_4 t) fullShare ((prepDat V c).after 4 t)
    ∗ owns (c : Thread nD τ) (st0_5 t) fullShare ((prepDat V c).after 5 t)
    ∗ owns (c : Thread nD τ) (st0_6 t) fullShare ((prepDat V c).after 6 t)
    ∗ owns (c : Thread nD τ) (st0_7 t) fullShare ((prepDat V c).after 7 t)
    ∗ owns (c : Thread nD τ) (st0_8 t) fullShare ((prepDat V c).after 8 t)
    ∗ owns (c : Thread nD τ) (st0_9 t) fullShare ((prepDat V c).after 9 t))

/-- The body at any point: the inputs' buffers hold their blocks, so the body's triple applies; the invariant and the core's
    dues pass through unread. -/
theorem prepSoundBody (c : Dev nD) (t : Fin cfg0.N) :
    prepBodyPre V c t ⊢ wp frame (wpE (defs₀ (F := F)) Variants.none c none) Set.univ (bodyAt0 t) (fun _ => prepBodyPost V c t) := by
  unfold prepBodyPre prepBodyPost bodyAt0
  simp only [prepBefore0, prepBefore1, prepBefore2, prepBefore3, prepBefore4, prepBefore5, prepBefore6]
  rw [show (prepDat V c).Φ t.succ = (prepDat V c).Φ t.castSucc from rfl,
    show (prepDat V c).owesAt () t.succ = (prepDat V c).owesAt () t.castSucc from rfl,
    prepAfter0, prepAfter1, prepAfter2, prepAfter3, prepAfter4, prepAfter5, prepAfter6, prepAfter7, prepAfter8, prepAfter9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (prepSound c Set.univ _ _ _ _ _ _ _ _ _ _ _ _ _ _ _ _ _ _ _ _ _
    (prepBlk V c 0 t) (prepBlk V c 1 t) (prepBlk V c 2 t) (prepBlk V c 3 t) (prepBlk V c 4 t) (prepBlk V c 5 t) (prepBlk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem prepObligation (c : Dev nD) : BodyObligation (prepDat (F := F) V c) (defs₀ (F := F)) Variants.none () Set.univ := fun t => by
  rw [bigSep_W0, bigSep_W0]
  exact prepSoundBody V c t

end Cert.Kernel.Hand

end
-- ==== Proof.K.AttnShared.lean ====
/-
  The attention kernel (the second of the program's two kernels): what its per-case runs and its invariant are stated over.

  Its grid is 8 query tiles by 8 key tiles, walked key tile fastest. The body branches on the key-tile coordinate alone: at
  the first key tile it resets the running maximum, denominator and accumulator; at the last it divides and stores the
  output tile. The three running quantities live in scratch buffers the kernel carries from one grid point to the next.
  Here: the two conditions in closed form over the 64 points, where the output window is left idle, the memrefs the body is
  called with, and the plain region invariant spelled with the three scratch buffers as owned memrefs.
-/
import proofs.«166967_j31688268710357_2_alg».proof.Proof.Gen.Kernel.Launch
import proofs.«166967_j31688268710357_2_alg».proof.Proof.Gen.Kernel.Skeleton
import proofs.«166967_j31688268710357_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

/-- Input window 1's staging buffer holds its block at every point, fetched there or not. -/
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

/-- Input window 2's staging buffer holds its block at every point, fetched there or not. -/
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- Input window 3's staging buffer holds its block at every point, fetched there or not. -/
theorem attnBefore3_of {c : Dev nD} (dat : Dat τ (Elt F) Unit ℕ (UR sig nD τ) ℕ cfg1 c) (hA : dat.A 3 = V c (Pipeline.arrRef spec1 3))
    (hafter : ∀ t, dat.after 3 t = attnBlk V c 3 t) (t : Fin cfg1.N) (d) : dat.before 3 t d = attnBlk V c 3 t :=
  (dat.before_in_eq_fetched 3 rfl (fun _ => rfl) (fun _ _ _ => rfl) (fun t => by rw [hafter]; unfold Dat.blockOf attnBlk; rw [hA]; try rfl) t d).trans
    (by unfold Dat.fetched Dat.blockOf attnBlk; rw [hA]; try rfl)

/-! ## The body's two conditions, in closed form -/

/-- "This is the first key tile": the body's first conditional, from the grid coordinates. -/
abbrev attnFirst (i : grid1.Coords) : Prop := (Scalar.cmpi .ne (Scalar.extui (Scalar.cmpi .eq (BitVec.ofNat 32 (i 1).val) 0#32)) 0#32) = 1#1
/-- It holds at the points whose position is a multiple of 8 — decided over the grid. -/
theorem attnFirst_iff : ∀ t : Fin cfg1.N, attnFirst (grid1.coords t) ↔ t.val % 8 = 0 :=
  (by decide +kernel : ∀ t : Fin grid1.N, attnFirst (grid1.coords t) ↔ t.val % 8 = 0)

/-- "This is the last key tile": the body's second conditional. -/
abbrev attnLast (i : grid1.Coords) : Prop := k1_cond2 i = 1#1
/-- It holds at the points whose position is 7 modulo 8 — decided over the grid. -/
theorem attnLast_iff : ∀ t : Fin cfg1.N, attnLast (grid1.coords t) ↔ t.val % 8 = 7 :=
  (by decide +kernel : ∀ t : Fin grid1.N, attnLast (grid1.coords t) ↔ t.val % 8 = 7)

/-! ## Where the output window is idle -/

/-- Away from the last key tile the output window is idle: the body stores nothing into it, -/
theorem attnIdleOut : ∀ t : Fin cfg1.N, ¬attnLast (grid1.coords t) → cfg1.idle 4 (grid1.coords t) = true := by decide +kernel
/-- and the pipeline does not write its block back. -/
theorem attnNoFlush : ∀ t : Fin cfg1.N, ¬attnLast (grid1.coords t) → (cfg1.win 4).flush t = false := by decide +kernel
/-- At the last key tile it is live. -/
theorem attnLiveOut : ∀ t : Fin cfg1.N, attnLast (grid1.coords t) → cfg1.idle 4 (grid1.coords t) = false := by decide +kernel
/-- The input windows are never idle. -/
theorem attnLive0 : ∀ t : Fin cfg1.N, cfg1.idle 0 (grid1.coords t) = false := fun _ => rfl
theorem attnLive1 : ∀ t : Fin cfg1.N, cfg1.idle 1 (grid1.coords t) = false := fun _ => rfl
theorem attnLive2 : ∀ t : Fin cfg1.N, cfg1.idle 2 (grid1.coords t) = false := fun _ => rfl
theorem attnLive3 : ∀ t : Fin cfg1.N, cfg1.idle 3 (grid1.coords t) = false := fun _ => rfl

/-! ## The memrefs the body is called with -/

/-- One staging buffer of the output window, through which its contents are stated. -/
abbrev attnVO : View sig .tc .vmem S1024x256 .f32 := (Memref.whole cc1_stg4_0 : Memref sig .tc .vmem S1024x256 .f32).view
abbrev attnM0 (t : Fin cfg1.N) : Memref sig .tc .vmem S1024x1024 .i32 := win1_0.stage (cfg1.slots t 0)
abbrev attnH0 (t : Fin cfg1.N) : (attnM0 t).IsWhole := hstage1_0 ((cfg1.slots t 0).cast nbuf1_0)
abbrev attnM1 (t : Fin cfg1.N) : Memref sig .tc .vmem S1024x1 .f32 := win1_1.stage (cfg1.slots t 1)
abbrev attnH1 (t : Fin cfg1.N) : (attnM1 t).IsWhole := hstage1_1 ((cfg1.slots t 1).cast nbuf1_1)
abbrev attnM2 (t : Fin cfg1.N) : Memref sig .tc .vmem S1x1024 .f32 := win1_2.stage (cfg1.slots t 2)
abbrev attnH2 (t : Fin cfg1.N) : (attnM2 t).IsWhole := hstage1_2 ((cfg1.slots t 2).cast nbuf1_2)
abbrev attnM3 (t : Fin cfg1.N) : Memref sig .tc .vmem S8192x256 .bf16 := win1_3.stage (cfg1.slots t 3)
abbrev attnH3 (t : Fin cfg1.N) : (attnM3 t).IsWhole := hstage1_3 ((cfg1.slots t 3).cast nbuf1_3)
abbrev attnM4 (t : Fin cfg1.N) : Memref sig .tc .vmem S1024x256 .f32 := win1_4.stage (cfg1.slots t 4)
abbrev attnH4 (t : Fin cfg1.N) : (attnM4 t).IsWhole := hstage1_4 ((cfg1.slots t 4).cast nbuf1_4)
/-- The three scratch buffers: the running maximum, the running denominator, the running accumulator. -/
abbrev scMax : Memref sig .tc .vmem S1024x1 .f32 := Memref.whole cc1_scratch0
abbrev scDen : Memref sig .tc .vmem S1024x1 .f32 := Memref.whole cc1_scratch1
abbrev scAcc : Memref sig .tc .vmem S1024x256 .f32 := Memref.whole cc1_scratch2
abbrev vsMax : View sig .tc .vmem S1024x1 .f32 := scMax.view
abbrev vsDen : View sig .tc .vmem S1024x1 .f32 := scDen.view
abbrev vsAcc : View sig .tc .vmem S1024x256 .f32 := scAcc.view

/-! ## The region invariant's shape -/

/-- The scoped buffers of the core that are no staging buffer of this kernel — the projection kernel's fourteen staging
    buffers at anything, and the three scratch buffers at the given states — beside the generator register at some state. -/
def attnInv (c : Dev nD) (P0 P1 P2 : sProp 𝕄) : sProp 𝕄 :=
  iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f)
    ∗ P0 ∗ P1 ∗ P2) ∗ (∃ r, prngReg c r))

/-- The plain invariant is that shape with each scratch buffer at anything. -/
theorem attnInv_plain (c : Dev nD) :
    (Pipeline.ΦA spec1 c : sProp 𝕄)
      = attnInv c iprop(∃ d, owns (c : Thread nD τ) scMax fullShare d) iprop(∃ d, owns (c : Thread nD τ) scDen fullShare d)
          iprop(∃ d, owns (c : Thread nD τ) scAcc fullShare d) := by
  unfold Pipeline.ΦA attnInv; rw [scopedRest1_eq]; simp only [scMax, scDen, scAcc, owns_whole]; try rfl

end Cert.Kernel.Hand

end
-- ==== Proof.K.AttnRunA.lean ====
/-
  The attention body at the first key tile of a query tile (the running quantities are reset first; the output window is left idle): what its stores leave in the output buffer and in the three scratch buffers, as lists
  of stored pieces (last first), with the proof that on whole memrefs the body runs to a continuation holding the inputs
  as they were and those pieces written. The piece lists are whatever the symbolic run of the body finds.
-/
import proofs.«166967_j31688268710357_2_alg».proof.Proof.K.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case. The inputs are owned at their contents, the idle output at contents handed back untouched, the scratch buffers at anything. -/
noncomputable def attnRunA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) :
    Σ' (L4 : List (View.Piece (Elt F) S1024x256 .f32)) (LS0 : List (View.Piece (Elt F) S1024x1 .f32)) (LS1 : List (View.Piece (Elt F) S1024x1 .f32)),
      { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.AttnRunB.lean ====
/-
  The attention body at a key tile that is neither first nor last (the running quantities are updated; the output window is left idle): what its stores leave in the output buffer and in the three scratch buffers, as lists
  of stored pieces (last first), with the proof that on whole memrefs the body runs to a continuation holding the inputs
  as they were and those pieces written. The piece lists are whatever the symbolic run of the body finds.
-/
import proofs.«166967_j31688268710357_2_alg».proof.Proof.K.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case. The inputs are owned at their contents, the idle output at contents handed back untouched, the scratch buffers at what the point before left. -/
noncomputable def attnRunB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)),
      { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.AttnRunC.lean ====
/-
  The attention body at the last key tile of a query tile (the running quantities are updated, then the accumulator is divided by the denominator and stored as the output tile): what its stores leave in the output buffer and in the three scratch buffers, as lists
  of stored pieces (last first), with the proof that on whole memrefs the body runs to a continuation holding the inputs
  as they were and those pieces written. The piece lists are whatever the symbolic run of the body finds.
-/
import proofs.«166967_j31688268710357_2_alg».proof.Proof.K.AttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case. The inputs are owned at their contents, the output at anything, the scratch buffers at what the point before left. -/
noncomputable def attnRunC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)),
      { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K.Attn.lean ====
/-
  The attention kernel point by point: what the output buffer and the three scratch buffers hold after the body at each
  of the 64 grid points (a recursion over the position: each point's case run over what the point before left in the
  scratch buffers), the region invariant that carries the scratch contents from one point to the next, the pipeline's
  proof data, and the body obligation at a generic point.
-/
import proofs.«166967_j31688268710357_2_alg».proof.Proof.K.AttnRunA
import proofs.«166967_j31688268710357_2_alg».proof.Proof.K.AttnRunB
import proofs.«166967_j31688268710357_2_alg».proof.Proof.K.AttnRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in each buffer -/

/-- What this case leaves in the output tile's buffer: its pieces read back (none: a placeholder that nothing consults, the window being idle there). -/
def attnOutA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) : Vec F S1024x256 .f32 :=
  attnVO.read (Elt F) (attnVO.writes (Elt F) attnVO.junk (attnRunA c i arg2 harg2 arg3 harg3 arg4 harg4 arg5 harg5 arg6 harg6 arg7 harg7 arg8 harg8 arg9 harg9 hc0 hc1 x0 x1 x2 x3).1)

/-- The pieces this case stores into the running maximum's buffer tile it, so they cover it. -/
theorem attnCoverMaxA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) (y : S1024x1.Idx) :
    ∃ pc ∈ (attnRunA c i arg2 harg2 arg3 harg3 arg4 harg4 arg5 harg5 arg6 harg6 arg7 harg7 arg8 harg8 arg9 harg9 hc0 hc1 x0 x1 x2 x3).2.1, y ∈ pc.1.set :=
  View.cover_of_tiledL (attnRunA c i arg2 harg2 arg3 harg3 arg4 harg4 arg5 harg5 arg6 harg6 arg7 harg7 arg8 harg8 arg9 harg9 hc0 hc1 x0 x1 x2 x3).2.1 S1024x1.size (by sl_kernel_rfl) y

/-- What this case leaves in the running maximum's buffer: its pieces read back. -/
def attnMaxA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) : Vec F S1024x1 .f32 :=
  vsMax.read (Elt F) (vsMax.writes (Elt F) vsMax.junk (attnRunA c i arg2 harg2 arg3 harg3 arg4 harg4 arg5 harg5 arg6 harg6 arg7 harg7 arg8 harg8 arg9 harg9 hc0 hc1 x0 x1 x2 x3).2.1)

/-- The pieces this case stores into the running denominator's buffer tile it, so they cover it. -/
theorem attnCoverDenA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) (y : S1024x1.Idx) :
    ∃ pc ∈ (attnRunA c i arg2 harg2 arg3 harg3 arg4 harg4 arg5 harg5 arg6 harg6 arg7 harg7 arg8 harg8 arg9 harg9 hc0 hc1 x0 x1 x2 x3).2.2.1, y ∈ pc.1.set :=
  View.cover_of_tiledL (attnRunA c i arg2 harg2 arg3 harg3 arg4 harg4 arg5 harg5 arg6 harg6 arg7 harg7 arg8 harg8 arg9 harg9 hc0 hc1 x0 x1 x2 x3).2.2.1 S1024x1.size (by sl_kernel_rfl) y

/-- What this case leaves in the running denominator's buffer: its pieces read back. -/
def attnDenA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) : Vec F S1024x1 .f32 :=
  vsDen.read (Elt F) (vsDen.writes (Elt F) vsDen.junk (attnRunA c i arg2 harg2 arg3 harg3 arg4 harg4 arg5 harg5 arg6 harg6 arg7 harg7 arg8 harg8 arg9 harg9 hc0 hc1 x0 x1 x2 x3).2.2.1)

/-- The pieces this case stores into the running accumulator's buffer tile it, so they cover it. -/
theorem attnCoverAccA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) (y : S1024x256.Idx) :
    ∃ pc ∈ (attnRunA c i arg2 harg2 arg3 harg3 arg4 harg4 arg5 harg5 arg6 harg6 arg7 harg7 arg8 harg8 arg9 harg9 hc0 hc1 x0 x1 x2 x3).2.2.2.1, y ∈ pc.1.set :=
  View.cover_of_tiledL (attnRunA c i arg2 harg2 arg3 harg3 arg4 harg4 arg5 harg5 arg6 harg6 arg7 harg7 arg8 harg8 arg9 harg9 hc0 hc1 x0 x1 x2 x3).2.2.2.1 S1024x256.size (by sl_kernel_rfl) y

/-- What this case leaves in the running accumulator's buffer: its pieces read back. -/
def attnAccA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) : Vec F S1024x256 .f32 :=
  vsAcc.read (Elt F) (vsAcc.writes (Elt F) vsAcc.junk (attnRunA c i arg2 harg2 arg3 harg3 arg4 harg4 arg5 harg5 arg6 harg6 arg7 harg7 arg8 harg8 arg9 harg9 hc0 hc1 x0 x1 x2 x3).2.2.2.1)

/-- What this case leaves in the output tile's buffer: its pieces read back (none: a placeholder that nothing consults, the window being idle there). -/
def attnOutB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x256 .f32 :=
  attnVO.read (Elt F) (attnVO.writes (Elt F) attnVO.junk (attnRunB c i arg2 harg2 arg3 harg3 arg4 harg4 arg5 harg5 arg6 harg6 arg7 harg7 arg8 harg8 arg9 harg9 hc0 hc1 x0 x1 x2 x3 xs0 xs1 xs2).1)

/-- The pieces this case stores into the running maximum's buffer tile it, so they cover it. -/
theorem attnCoverMaxB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x1.Idx) :
    ∃ pc ∈ (attnRunB c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (attnRunB c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What this case leaves in the running maximum's buffer: its pieces read back. -/
def attnMaxB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x1 .f32 :=
  vsMax.read (Elt F) (vsMax.writes (Elt F) vsMax.junk (attnRunB c i arg2 harg2 arg3 harg3 arg4 harg4 arg5 harg5 arg6 harg6 arg7 harg7 arg8 harg8 arg9 harg9 hc0 hc1 x0 x1 x2 x3 xs0 xs1 xs2).2.1)

/-- The pieces this case stores into the running denominator's buffer tile it, so they cover it. -/
theorem attnCoverDenB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x1.Idx) :
    ∃ pc ∈ (attnRunB c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (attnRunB c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What this case leaves in the running denominator's buffer: its pieces read back. -/
def attnDenB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x1 .f32 :=
  vsDen.read (Elt F) (vsDen.writes (Elt F) vsDen.junk (attnRunB c i arg2 harg2 arg3 harg3 arg4 harg4 arg5 harg5 arg6 harg6 arg7 harg7 arg8 harg8 arg9 harg9 hc0 hc1 x0 x1 x2 x3 xs0 xs1 xs2).2.2.1)

/-- The pieces this case stores into the running accumulator's buffer tile it, so they cover it. -/
theorem attnCoverAccB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x256.Idx) :
    ∃ pc ∈ (attnRunB c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (attnRunB c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What this case leaves in the running accumulator's buffer: its pieces read back. -/
def attnAccB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x256 .f32 :=
  vsAcc.read (Elt F) (vsAcc.writes (Elt F) vsAcc.junk (attnRunB c i arg2 harg2 arg3 harg3 arg4 harg4 arg5 harg5 arg6 harg6 arg7 harg7 arg8 harg8 arg9 harg9 hc0 hc1 x0 x1 x2 x3 xs0 xs1 xs2).2.2.2.1)

/-- The pieces this case stores into the output tile's buffer tile it, so they cover it. -/
theorem attnCoverOutC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x256.Idx) :
    ∃ pc ∈ (attnRunC c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (attnRunC c i arg2 harg2 arg3 harg3 arg4 harg4 arg5 harg5 arg6 harg6 arg7 harg7 arg8 harg8 arg9 harg9 hc0 hc1 x0 x1 x2 x3 xs0 xs1 xs2).1 S1024x256.size (by sl_kernel_rfl) y

/-- What this case leaves in the output tile's buffer: its pieces read back. -/
def attnOutC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x256 .f32 :=
  attnVO.read (Elt F) (attnVO.writes (Elt F) attnVO.junk (attnRunC c i arg2 harg2 arg3 harg3 arg4 harg4 arg5 harg5 arg6 harg6 arg7 harg7 arg8 harg8 arg9 harg9 hc0 hc1 x0 x1 x2 x3 xs0 xs1 xs2).1)

/-- The pieces this case stores into the running maximum's buffer tile it, so they cover it. -/
theorem attnCoverMaxC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x1.Idx) :
    ∃ pc ∈ (attnRunC c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (attnRunC c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What this case leaves in the running maximum's buffer: its pieces read back. -/
def attnMaxC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x1 .f32 :=
  vsMax.read (Elt F) (vsMax.writes (Elt F) vsMax.junk (attnRunC c i arg2 harg2 arg3 harg3 arg4 harg4 arg5 harg5 arg6 harg6 arg7 harg7 arg8 harg8 arg9 harg9 hc0 hc1 x0 x1 x2 x3 xs0 xs1 xs2).2.1)

/-- The pieces this case stores into the running denominator's buffer tile it, so they cover it. -/
theorem attnCoverDenC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x1.Idx) :
    ∃ pc ∈ (attnRunC c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (attnRunC c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What this case leaves in the running denominator's buffer: its pieces read back. -/
def attnDenC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x1 .f32 :=
  vsDen.read (Elt F) (vsDen.writes (Elt F) vsDen.junk (attnRunC c i arg2 harg2 arg3 harg3 arg4 harg4 arg5 harg5 arg6 harg6 arg7 harg7 arg8 harg8 arg9 harg9 hc0 hc1 x0 x1 x2 x3 xs0 xs1 xs2).2.2.1)

/-- The pieces this case stores into the running accumulator's buffer tile it, so they cover it. -/
theorem attnCoverAccC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x256.Idx) :
    ∃ pc ∈ (attnRunC c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (attnRunC c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What this case leaves in the running accumulator's buffer: its pieces read back. -/
def attnAccC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x256 .f32 :=
  vsAcc.read (Elt F) (vsAcc.writes (Elt F) vsAcc.junk (attnRunC c i arg2 harg2 arg3 harg3 arg4 harg4 arg5 harg5 arg6 harg6 arg7 harg7 arg8 harg8 arg9 harg9 hc0 hc1 x0 x1 x2 x3 xs0 xs1 xs2).2.2.2.1)

/-! ## What the buffers hold after each point -/

/-- The four buffers after the body at point `t`, when `t` is a first key tile. -/
def attnAtA (c : Dev nD) (t : Fin cfg1.N) (h0 : attnFirst (grid1.coords t)) (h1 : ¬attnLast (grid1.coords t)) : Vec F S1024x256 .f32 × Vec F S1024x1 .f32 × Vec F S1024x1 .f32 × Vec F S1024x256 .f32 :=
  (attnOutA c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t), attnMaxA c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t), attnDenA c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t), attnAccA c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t))

/-- The four buffers after the body at point `t`, when `t` is a middle key tile (over what the point before left in the scratch buffers). -/
def attnAtB (c : Dev nD) (t : Fin cfg1.N) (h0 : ¬attnFirst (grid1.coords t)) (h1 : ¬attnLast (grid1.coords t)) (p : Vec F S1024x256 .f32 × Vec F S1024x1 .f32 × Vec F S1024x1 .f32 × Vec F S1024x256 .f32) : Vec F S1024x256 .f32 × Vec F S1024x1 .f32 × Vec F S1024x1 .f32 × Vec F S1024x256 .f32 :=
  (attnOutB c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnMaxB c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnDenB c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnAccB c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2)

/-- The four buffers after the body at point `t`, when `t` is a last key tile (over what the point before left in the scratch buffers). -/
def attnAtC (c : Dev nD) (t : Fin cfg1.N) (h0 : ¬attnFirst (grid1.coords t)) (h1 : attnLast (grid1.coords t)) (p : Vec F S1024x256 .f32 × Vec F S1024x1 .f32 × Vec F S1024x1 .f32 × Vec F S1024x256 .f32) : Vec F S1024x256 .f32 × Vec F S1024x1 .f32 × Vec F S1024x1 .f32 × Vec F S1024x256 .f32 :=
  (attnOutC c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnMaxC c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnDenC c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnAccC c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2)

/-- THE ACCUMULATION. The output buffer and the three scratch buffers after the body at position `n`: the case the closed
    forms select at `n`, over the scratch contents position `n - 1` left. (First and last at once is no point of an 8-wide
    key axis.) -/
def attnOuts (c : Dev nD) : (n : ℕ) → n < cfg1.N → Vec F S1024x256 .f32 × Vec F S1024x1 .f32 × Vec F S1024x1 .f32 × Vec F S1024x256 .f32
  | 0, hn => attnAtA V c ⟨0, hn⟩ ((attnFirst_iff ⟨0, hn⟩).mpr (Nat.zero_mod _)) (fun h => (fun h => by (try dsimp only at h); omega) ((attnLast_iff ⟨0, hn⟩).mp h))
  | n + 1, hn =>
    if h0 : (n + 1) % 8 = 0 then
      if h1 : (n + 1) % 8 = 7 then
        False.elim (by omega)
      else
        attnAtA V c ⟨n + 1, hn⟩ ((attnFirst_iff ⟨n + 1, hn⟩).mpr h0) (fun h => h1 ((attnLast_iff ⟨n + 1, hn⟩).mp h))
    else
      if h1 : (n + 1) % 8 = 7 then
        attnAtC V c ⟨n + 1, hn⟩ (fun h => h0 ((attnFirst_iff ⟨n + 1, hn⟩).mp h)) ((attnLast_iff ⟨n + 1, hn⟩).mpr h1) (attnOuts c n (Nat.lt_of_succ_lt hn))
      else
        attnAtB V c ⟨n + 1, hn⟩ (fun h => h0 ((attnFirst_iff ⟨n + 1, hn⟩).mp h)) (fun h => h1 ((attnLast_iff ⟨n + 1, hn⟩).mp h)) (attnOuts c n (Nat.lt_of_succ_lt hn))

theorem attnOuts_first (c : Dev nD) (t : Fin cfg1.N) (h0 : t.val % 8 = 0) (h1 : ¬t.val % 8 = 7) :
    attnOuts V c t.val t.isLt = attnAtA V c t ((attnFirst_iff t).mpr h0) (fun h => h1 ((attnLast_iff t).mp h)) := by
  obtain ⟨n, hn⟩ := t
  cases n with
  | zero => exact rfl
  | succ n => exact (dif_pos h0).trans ((dif_neg h1).trans rfl)

theorem attnOuts_middle (c : Dev nD) (t : Fin cfg1.N) (h0 : ¬t.val % 8 = 0) (h1 : ¬t.val % 8 = 7) :
    attnOuts V c t.val t.isLt = attnAtB V c t (fun h => h0 ((attnFirst_iff t).mp h)) (fun h => h1 ((attnLast_iff t).mp h))
      (attnOuts V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem attnOuts_last (c : Dev nD) (t : Fin cfg1.N) (h0 : ¬t.val % 8 = 0) (h1 : t.val % 8 = 7) :
    attnOuts V c t.val t.isLt = attnAtC V c t (fun h => h0 ((attnFirst_iff t).mp h)) ((attnLast_iff t).mpr h1)
      (attnOuts V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the plain invariant (every scratch buffer at anything); afterwards each
    scratch buffer at what the point before left in it. -/
def attnPhi (c : Dev nD) : (n : ℕ) → n ≤ cfg1.N → sProp 𝕄
  | 0, _ => Pipeline.ΦA spec1 c
  | n + 1, hn => attnInv c (owns (c : Thread nD τ) scMax fullShare (attnOuts V c n hn).2.1)
      (owns (c : Thread nD τ) scDen fullShare (attnOuts V c n hn).2.2.1) (owns (c : Thread nD τ) scAcc fullShare (attnOuts V c n hn).2.2.2)

theorem attnPhi_zero (c : Dev nD) (n : ℕ) (h : n ≤ cfg1.N) (hz : n = 0) : attnPhi V c n h = Pipeline.ΦA spec1 c := by
  subst hz; rfl

theorem attnPhi_succ (c : Dev nD) (n : ℕ) (hn : n < cfg1.N) :
    attnPhi V c (n + 1) hn = attnInv c (owns (c : Thread nD τ) scMax fullShare (attnOuts V c n hn).2.1)
      (owns (c : Thread nD τ) scDen fullShare (attnOuts V c n hn).2.2.1) (owns (c : Thread nD τ) scAcc fullShare (attnOuts V c n hn).2.2.2) := rfl

theorem attnPhi_pos (c : Dev nD) (n : ℕ) (h : n ≤ cfg1.N) (hz : n ≠ 0) :
    attnPhi V c n h = attnInv c (owns (c : Thread nD τ) scMax fullShare (attnOuts V c (n - 1) (by omega)).2.1)
      (owns (c : Thread nD τ) scDen fullShare (attnOuts V c (n - 1) (by omega)).2.2.1) (owns (c : Thread nD τ) scAcc fullShare (attnOuts V c (n - 1) (by omega)).2.2.2) := by
  cases n with
  | zero => exact absurd rfl hz
  | succ n => rfl

/-! ## The pipeline's proof data -/

/-- The proof data of the attention kernel on core `c`: the arrays as the kernel finds them; after the body at point `t` each
    input's buffer at its block and the output's at the accumulation's first component; the invariant carries the scratch;
    nothing owed; full shares. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnBlk V c 3 t
    | ⟨4, _⟩ => (attnOuts V c t.val t.isLt).1
  Φ t := attnPhi V c t.val (Nat.le_of_lt_succ t.isLt)
  q _ := fullShare
  owed _ := 0

theorem attnA_eq (c : Dev nD) (w : Fin cfg1.W) : (attnDat V c).A w = V c (Pipeline.arrRef spec1 w) := by
  dsimp only [attnDat]

theorem attnPhi_castSucc (c : Dev nD) (t : Fin cfg1.N) :
    (attnDat V c).Φ t.castSucc = attnPhi V c t.val (Nat.le_of_lt t.isLt) := by
  dsimp only [attnDat]; simp only [Fin.coe_castSucc]

theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) : (attnDat V c).after 3 t = attnBlk V c 3 t := by dsimp only [attnDat]
theorem attnAfter4 (c : Dev nD) (t : Fin cfg1.N) : (attnDat V c).after 4 t = (attnOuts V c t.val t.isLt).1 := by dsimp only [attnDat]

theorem attnBefore0 (c : Dev nD) (t : Fin cfg1.N) (d) : (attnDat V c).before 0 t d = attnBlk V c 0 t :=
  attnBefore0_of V (attnDat V c) (attnA_eq V c 0) (attnAfter0 V c) t d
theorem attnBefore1 (c : Dev nD) (t : Fin cfg1.N) (d) : (attnDat V c).before 1 t d = attnBlk V c 1 t :=
  attnBefore1_of V (attnDat V c) (attnA_eq V c 1) (attnAfter1 V c) t d
theorem attnBefore2 (c : Dev nD) (t : Fin cfg1.N) (d) : (attnDat V c).before 2 t d = attnBlk V c 2 t :=
  attnBefore2_of V (attnDat V c) (attnA_eq V c 2) (attnAfter2 V c) t d
theorem attnBefore3 (c : Dev nD) (t : Fin cfg1.N) (d) : (attnDat V c).before 3 t d = attnBlk V c 3 t :=
  attnBefore3_of V (attnDat V c) (attnA_eq V c 3) (attnAfter3 V c) t d

end Cert.Kernel.Hand

end
-- ==== Proof.K.AttnBody.lean ====
/-
  The attention kernel's body obligation: at a generic grid point the closed forms of the two conditions say which case the
  point is in; the inputs' buffers hold their blocks; the invariant hands the body the scratch buffers at what the point
  before left (at anything before the first point) and takes them back at this point's contents; the output window is
  handed back untouched where it is idle and at the stored tile at a last key tile.
-/
import proofs.«166967_j31688268710357_2_alg».proof.Proof.K.Attn

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def attnBodyPre (c : Dev nD) (t : Fin cfg1.N) : sProp 𝕄 :=
  iprop((attnDat V c).Φ t.castSucc ∗ (attnDat V c).owesAt () t.castSucc
    ∗ (∃ d, owns (c : Thread nD τ) (attnM0 t) fullShare ((attnDat V c).before 0 t d))
    ∗ (∃ d, owns (c : Thread nD τ) (attnM1 t) fullShare ((attnDat V c).before 1 t d))
    ∗ (∃ d, owns (c : Thread nD τ) (attnM2 t) fullShare ((attnDat V c).before 2 t d))
    ∗ (∃ d, owns (c : Thread nD τ) (attnM3 t) fullShare ((attnDat V c).before 3 t d))
    ∗ (∃ d, owns (c : Thread nD τ) (attnM4 t) fullShare ((attnDat V c).before 4 t d)))

/-- and what it returns. -/
def attnBodyPost (c : Dev nD) (t : Fin cfg1.N) : sProp 𝕄 :=
  iprop((attnDat V c).Φ t.succ ∗ (attnDat V c).owesAt () t.succ
    ∗ (attnDat V c).leavesExact 0 t
    ∗ (attnDat V c).leavesExact 1 t
    ∗ (attnDat V c).leavesExact 2 t
    ∗ (attnDat V c).leavesExact 3 t
    ∗ (attnDat V c).leavesExact 4 t)

set_option maxHeartbeats 8000000 in
theorem attnSoundBody (c : Dev nD) (t : Fin cfg1.N) :
    attnBodyPre V c t ⊢ wp frame (wpE (defs₀ (F := F)) Variants.none c none) Set.univ (bodyAt1 t) (fun _ => attnBodyPost V c t) := by
  unfold attnBodyPre attnBodyPost bodyAt1
  simp only [attnBefore0, attnBefore1, attnBefore2, attnBefore3]
  rw [show (attnDat V c).owesAt () t.succ = (attnDat V c).owesAt () t.castSucc from rfl]
  rw [show (attnDat V c).Φ t.succ = attnPhi V c (t.val + 1) t.isLt from rfl, attnPhi_succ]
  have hN : t.val < 64 := lt_of_lt_of_eq t.isLt (show cfg1.N = 64 from N_1)
  rw [show (attnDat V c).leavesExact 0 t = owns (c : Thread nD τ) (attnM0 t) fullShare ((attnDat V c).after 0 t) from by
    unfold Dat.leavesExact; rw [attnLive0 t], attnAfter0]
  rw [show (attnDat V c).leavesExact 1 t = owns (c : Thread nD τ) (attnM1 t) fullShare ((attnDat V c).after 1 t) from by
    unfold Dat.leavesExact; rw [attnLive1 t], attnAfter1]
  rw [show (attnDat V c).leavesExact 2 t = owns (c : Thread nD τ) (attnM2 t) fullShare ((attnDat V c).after 2 t) from by
    unfold Dat.leavesExact; rw [attnLive2 t], attnAfter2]
  rw [show (attnDat V c).leavesExact 3 t = owns (c : Thread nD τ) (attnM3 t) fullShare ((attnDat V c).after 3 t) from by
    unfold Dat.leavesExact; rw [attnLive3 t], attnAfter3]
  by_cases h0 : t.val % 8 = 0
  · have h1 : ¬t.val % 8 = 7 := by omega
    rw [Dat.leavesExact_idle (attnDat V c) 4 t (attnIdleOut t (fun h => h1 ((attnLast_iff t).mp h))) (attnNoFlush t (fun h => h1 ((attnLast_iff t).mp h)))]
    rw [attnOuts_first V c t h0 h1]
    unfold attnAtA attnMaxA attnDenA attnAccA; (try dsimp only)
    by_cases hz : t.val = 0
    · rw [attnPhi_castSucc V c t, attnPhi_zero V c _ _ hz, attnInv_plain]; unfold attnInv
      iintro ⟨⟨⟨A0, A1, A2, A3, A4, A5, A6, A7, A8, A9, A10, A11, A12, A13, HS0, HS1, HS2⟩, Hg⟩, Ho, ⟨%d0, H0⟩, ⟨%d1, H1⟩, ⟨%d2, H2⟩, ⟨%d3, H3⟩, ⟨%d4, H4⟩⟩
      iapply ((attnRunA c (grid1.coords t) _ _ _ _ _ _ _ _ _ _ _ _ _ _ _ _ ((attnFirst_iff t).mpr h0) (fun h => h1 ((attnLast_iff t).mp h)) (attnBlk V c 0 t) (attnBlk V c 1 t) (attnBlk V c 2 t) (attnBlk V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [A0 A1 A2 A3 A4 A5 A6 A7 A8 A9 A10 A11 A12 A13 HS0 HS1 HS2 Hg]
      · isplitl [A0 A1 A2 A3 A4 A5 A6 A7 A8 A9 A10 A11 A12 A13 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (attnCoverMaxA c _ _ _ _ _ _ _ _ _ _ _ _ _ _ _ _ _ _ _ _ _ _ _)
          isplitl [HS1]
          · unfold owns; iexists _; isplitr
            swap; · iexact HS1
            ipureintro; exact View.read_writes_of_cover _ _ _ _ _ (attnCoverDenA c _ _ _ _ _ _ _ _ _ _ _ _ _ _ _ _ _ _ _ _ _ _ _)
          unfold owns; iexists _; isplitr
          swap; · iexact HS2
          ipureintro; exact View.read_writes_of_cover _ _ _ _ _ (attnCoverAccA c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [attnPhi_castSucc V c t, attnPhi_pos V c _ _ hz]; unfold attnInv
      iintro ⟨⟨⟨A0, A1, A2, A3, A4, A5, A6, A7, A8, A9, A10, A11, A12, A13, HS0, HS1, HS2⟩, Hg⟩, Ho, ⟨%d0, H0⟩, ⟨%d1, H1⟩, ⟨%d2, H2⟩, ⟨%d3, H3⟩, ⟨%d4, H4⟩⟩
      iapply ((attnRunA c (grid1.coords t) _ _ _ _ _ _ _ _ _ _ _ _ _ _ _ _ ((attnFirst_iff t).mpr h0) (fun h => h1 ((attnLast_iff t).mp h)) (attnBlk V c 0 t) (attnBlk V c 1 t) (attnBlk V c 2 t) (attnBlk V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [A0 A1 A2 A3 A4 A5 A6 A7 A8 A9 A10 A11 A12 A13 HS0 HS1 HS2 Hg]
      · isplitl [A0 A1 A2 A3 A4 A5 A6 A7 A8 A9 A10 A11 A12 A13 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (attnCoverMaxA c _ _ _ _ _ _ _ _ _ _ _ _ _ _ _ _ _ _ _ _ _ _ _)
          isplitl [HS1]
          · unfold owns; iexists _; isplitr
            swap; · iexact HS1
            ipureintro; exact View.read_writes_of_cover _ _ _ _ _ (attnCoverDenA c _ _ _ _ _ _ _ _ _ _ _ _ _ _ _ _ _ _ _ _ _ _ _)
          unfold owns; iexists _; isplitr
          swap; · iexact HS2
          ipureintro; exact View.read_writes_of_cover _ _ _ _ _ (attnCoverAccA c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 8 = 7
    · rw [show (attnDat V c).leavesExact 4 t = owns (c : Thread nD τ) (attnM4 t) fullShare ((attnDat V c).after 4 t) from by
        unfold Dat.leavesExact; rw [attnLiveOut t ((attnLast_iff t).mpr h1)], attnAfter4]
      rw [attnOuts_last V c t h0 h1]
      unfold attnAtC attnOutC attnMaxC attnDenC attnAccC; (try dsimp only)
      rw [attnPhi_castSucc V c t, attnPhi_pos V c _ _ hz]; unfold attnInv
      iintro ⟨⟨⟨A0, A1, A2, A3, A4, A5, A6, A7, A8, A9, A10, A11, A12, A13, HS0, HS1, HS2⟩, Hg⟩, Ho, ⟨%d0, H0⟩, ⟨%d1, H1⟩, ⟨%d2, H2⟩, ⟨%d3, H3⟩, ⟨%d4, H4⟩⟩
      iapply ((attnRunC c (grid1.coords t) _ _ _ _ _ _ _ _ _ _ _ _ _ _ _ _ (fun h => h0 ((attnFirst_iff t).mp h)) ((attnLast_iff t).mpr h1) (attnBlk V c 0 t) (attnBlk V c 1 t) (attnBlk V c 2 t) (attnBlk V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [A0 A1 A2 A3 A4 A5 A6 A7 A8 A9 A10 A11 A12 A13 HS0 HS1 HS2 Hg]
      · isplitl [A0 A1 A2 A3 A4 A5 A6 A7 A8 A9 A10 A11 A12 A13 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (attnCoverMaxC c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCoverDenC c _ _ _ _ _ _ _ _ _ _ _ _ _ _ _ _ _ _ _ _ _ _ _ _ _ _)
          unfold owns; iexists _; isplitr
          swap; · iexact HS2
          ipureintro; exact View.read_writes_of_cover _ _ _ _ _ (attnCoverAccC c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (attnCoverOutC c _ _ _ _ _ _ _ _ _ _ _ _ _ _ _ _ _ _ _ _ _ _ _ _ _ _)
    · rw [Dat.leavesExact_idle (attnDat V c) 4 t (attnIdleOut t (fun h => h1 ((attnLast_iff t).mp h))) (attnNoFlush t (fun h => h1 ((attnLast_iff t).mp h)))]
      rw [attnOuts_middle V c t h0 h1]
      unfold attnAtB attnMaxB attnDenB attnAccB; (try dsimp only)
      rw [attnPhi_castSucc V c t, attnPhi_pos V c _ _ hz]; unfold attnInv
      iintro ⟨⟨⟨A0, A1, A2, A3, A4, A5, A6, A7, A8, A9, A10, A11, A12, A13, HS0, HS1, HS2⟩, Hg⟩, Ho, ⟨%d0, H0⟩, ⟨%d1, H1⟩, ⟨%d2, H2⟩, ⟨%d3, H3⟩, ⟨%d4, H4⟩⟩
      iapply ((attnRunB c (grid1.coords t) _ _ _ _ _ _ _ _ _ _ _ _ _ _ _ _ (fun h => h0 ((attnFirst_iff t).mp h)) (fun h => h1 ((attnLast_iff t).mp h)) (attnBlk V c 0 t) (attnBlk V c 1 t) (attnBlk V c 2 t) (attnBlk V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [A0 A1 A2 A3 A4 A5 A6 A7 A8 A9 A10 A11 A12 A13 HS0 HS1 HS2 Hg]
      · isplitl [A0 A1 A2 A3 A4 A5 A6 A7 A8 A9 A10 A11 A12 A13 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (attnCoverMaxB c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCoverDenB c _ _ _ _ _ _ _ _ _ _ _ _ _ _ _ _ _ _ _ _ _ _ _ _ _ _)
          unfold owns; iexists _; isplitr
          swap; · iexact HS2
          ipureintro; exact View.read_writes_of_cover _ _ _ _ _ (attnCoverAccB c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem attnObligation (c : Dev nD) : BodyObligation (attnDat (F := F) V c) (defs₀ (F := F)) Variants.none () Set.univ := fun t => by
  rw [bigSep_W1, bigSep_W1]
  exact attnSoundBody V c t

/-- What the launch hands the region is the invariant before the first point. -/
theorem attnPhi_in (c : Dev nD) : Pipeline.ΦA spec1 c ⊢ (attnDat V c).Φ 0 := by
  rw [show (attnDat V c).Φ 0 = attnPhi V c 0 (Nat.zero_le _) from rfl, attnPhi_zero V c 0 _ rfl]
  try exact Idealize.SL.BI.Entails.refl _

/-- After any point but the first the invariant gives the plain one back: the scratch buffers' named contents are forgotten. -/
theorem attnPhi_forget (c : Dev nD) (t : Fin (cfg1.N + 1)) (ht : t.val ≠ 0) : (attnDat V c).Φ t ⊢ Pipeline.ΦA spec1 c := by
  rw [show (attnDat V c).Φ t = attnPhi V c t.val (Nat.le_of_lt_succ t.isLt) from rfl, attnPhi_pos V c _ _ ht, attnInv_plain]; unfold attnInv
  iintro ⟨⟨A0, A1, A2, A3, A4, A5, A6, A7, A8, A9, A10, A11, A12, A13, HS0, HS1, HS2⟩, Hg⟩
  isplitl [A0 A1 A2 A3 A4 A5 A6 A7 A8 A9 A10 A11 A12 A13 HS0 HS1 HS2]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [HS0]; · iexists _; iexact HS0
    isplitl [HS1]; · iexists _; iexact HS1
    iexists _; iexact HS2
  iexact Hg

/-- The same after the last point. -/
theorem attnPhi_out (c : Dev nD) : (attnDat V c).Φ (Fin.last cfg1.N) ⊢ Pipeline.ΦA spec1 c :=
  attnPhi_forget V c _ (by rw [Fin.val_last]; have : cfg1.N = 64 := N_1; omega)

end Cert.Kernel.Hand

end
-- ==== Proof.K.Run.lean ====
/-
  The whole program as two kernel regions in sequence, from the launch to the return.

  The TensorCore's unscoped buffers are followed through the program: as launched; after the projection kernel (its three
  output arrays h, e1, e2ᵀ at what its write-backs leave, everything else as before); after the attention kernel (its output
  array at what its write-backs leave). Each kernel is entered from all unscoped buffers at the boundary's contents and left
  at the next boundary's; the run ends with every unscoped buffer at the last boundary's contents, from which both the
  unchanged arguments and the result array are read.
-/
import proofs.«166967_j31688268710357_2_alg».proof.Proof.K.Prep
import proofs.«166967_j31688268710357_2_alg».proof.Proof.K.AttnBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev startAt : Dev nD → Valuation τ sig (Elt F) := fun c b => m ((c : Dev nD), b)
abbrev startV : (c : Dev nD) → (b : Ref sig .tc) → Buf (Elt F) ((c : Thread nD τ).loc b) := fun c b => startAt m c b
/-- After the projection kernel: its arrays at what the pipeline leaves, every other buffer as launched. -/
def midAt (c : Dev nD) : Valuation τ sig (Elt F) :=
  Pipeline.withArrays spec0 c (startAt m c) fun w => (prepDat (startV m) c).arrAt w cfg0.N
theorem midAt_arr (c : Dev nD) (w : Fin cfg0.W) :
    midAt m c (Proc.devRef .tc (Pipeline.arrRef spec0 w)) = (prepDat (startV m) c).arrAt w cfg0.N := by
  unfold midAt; exact Pipeline.withArrays_arr spec0 launch0.win.arr_inj c _ _ w
theorem midAt_of_ne (c : Dev nD) (b : Ref sig .tc) (hb : ∀ w, Pipeline.arrRef spec0 w ≠ b) :
    midAt m c (Proc.devRef .tc b) = startAt m c (Proc.devRef .tc b) := by
  unfold midAt; exact Pipeline.withArrays_of_ne spec0 c _ _ b hb
abbrev midV : (c : Dev nD) → (b : Ref sig .tc) → Buf (Elt F) ((c : Thread nD τ).loc b) := fun c b => midAt m c b
theorem midFinal (c : Dev nD) (w : Fin cfg0.W) : (prepDat (startV m) c).arrAt w cfg0.N = midV m c (Pipeline.arrRef spec0 w) :=
  (midAt_arr m c w).symm
theorem midRest (c : Dev nD) : ∀ b, b ∉ Finset.univ.image (Pipeline.arrRef spec0) → midV m c b = startV m c b :=
  fun b hb => midAt_of_ne m c b fun w e => hb (Finset.mem_image.mpr ⟨w, Finset.mem_univ _, e⟩)

/-- After the attention kernel: its arrays at what the pipeline leaves, every other buffer as before it. -/
def endAt (c : Dev nD) : Valuation τ sig (Elt F) :=
  Pipeline.withArrays spec1 c (midAt m c) fun w => (attnDat (midV m) c).arrAt w cfg1.N
theorem endAt_arr (c : Dev nD) (w : Fin cfg1.W) :
    endAt m c (Proc.devRef .tc (Pipeline.arrRef spec1 w)) = (attnDat (midV m) c).arrAt w cfg1.N := by
  unfold endAt; exact Pipeline.withArrays_arr spec1 launch1.win.arr_inj c _ _ w
theorem endAt_of_ne (c : Dev nD) (b : Ref sig .tc) (hb : ∀ w, Pipeline.arrRef spec1 w ≠ b) :
    endAt m c (Proc.devRef .tc b) = midAt m c (Proc.devRef .tc b) := by
  unfold endAt; exact Pipeline.withArrays_of_ne spec1 c _ _ b hb
abbrev endV : (c : Dev nD) → (b : Ref sig .tc) → Buf (Elt F) ((c : Thread nD τ).loc b) := fun c b => endAt m c b
theorem endFinal (c : Dev nD) (w : Fin cfg1.W) : (attnDat (midV m) c).arrAt w cfg1.N = endV m c (Pipeline.arrRef spec1 w) :=
  (endAt_arr m c w).symm
theorem endRest (c : Dev nD) : ∀ b, b ∉ Finset.univ.image (Pipeline.arrRef spec1) → endV m c b = midV m c b :=
  fun b hb => endAt_of_ne m c b fun w e => hb (Finset.mem_image.mpr ⟨w, Finset.mem_univ _, e⟩)

/-! ## The arguments end as launched -/

/-- `main_arg0` ends as launched: the projection kernel only reads it, the attention kernel never sees it. -/
theorem endAt_main_arg0 (c : Dev nD) : endAt m c (Proc.devRef .tc main_arg0) = m ((c : Thread nD τ).loc main_arg0) :=
  calc endAt m c (Proc.devRef .tc main_arg0)
    _ = midAt m c (Proc.devRef .tc main_arg0) := endAt_of_ne m c main_arg0 (by decide)
    _ = startAt m c (Proc.devRef .tc main_arg0) := (midAt_arr m c 0).trans (((prepDat (startV m) c).arrAt_in 0 rfl _).trans (prepA_eq (startV m) c 0))
    _ = m ((c : Thread nD τ).loc main_arg0) := rfl

/-- The adjacency array ends as launched: the attention kernel only reads it, the projection kernel never sees it. -/
theorem endAt_main_arg1 (c : Dev nD) : endAt m c (Proc.devRef .tc main_arg1) = m ((c : Thread nD τ).loc main_arg1) :=
  calc endAt m c (Proc.devRef .tc main_arg1)
    _ = midAt m c (Proc.devRef .tc main_arg1) := (endAt_arr m c 0).trans (((attnDat (midV m) c).arrAt_in 0 rfl _).trans (attnA_eq (midV m) c 0))
    _ = startAt m c (Proc.devRef .tc main_arg1) := midAt_of_ne m c main_arg1 (by decide)
    _ = m ((c : Thread nD τ).loc main_arg1) := rfl

/-- `main_arg2` ends as launched: the projection kernel only reads it, the attention kernel never sees it. -/
theorem endAt_main_arg2 (c : Dev nD) : endAt m c (Proc.devRef .tc main_arg2) = m ((c : Thread nD τ).loc main_arg2) :=
  calc endAt m c (Proc.devRef .tc main_arg2)
    _ = midAt m c (Proc.devRef .tc main_arg2) := endAt_of_ne m c main_arg2 (by decide)
    _ = startAt m c (Proc.devRef .tc main_arg2) := (midAt_arr m c 1).trans (((prepDat (startV m) c).arrAt_in 1 rfl _).trans (prepA_eq (startV m) c 1))
    _ = m ((c : Thread nD τ).loc main_arg2) := rfl

/-- `main_arg3` ends as launched: the projection kernel only reads it, the attention kernel never sees it. -/
theorem endAt_main_arg3 (c : Dev nD) : endAt m c (Proc.devRef .tc main_arg3) = m ((c : Thread nD τ).loc main_arg3) :=
  calc endAt m c (Proc.devRef .tc main_arg3)
    _ = midAt m c (Proc.devRef .tc main_arg3) := endAt_of_ne m c main_arg3 (by decide)
    _ = startAt m c (Proc.devRef .tc main_arg3) := (midAt_arr m c 2).trans (((prepDat (startV m) c).arrAt_in 2 rfl _).trans (prepA_eq (startV m) c 2))
    _ = m ((c : Thread nD τ).loc main_arg3) := rfl

/-- `main_arg4` ends as launched: the projection kernel only reads it, the attention kernel never sees it. -/
theorem endAt_main_arg4 (c : Dev nD) : endAt m c (Proc.devRef .tc main_arg4) = m ((c : Thread nD τ).loc main_arg4) :=
  calc endAt m c (Proc.devRef .tc main_arg4)
    _ = midAt m c (Proc.devRef .tc main_arg4) := endAt_of_ne m c main_arg4 (by decide)
    _ = startAt m c (Proc.devRef .tc main_arg4) := (midAt_arr m c 3).trans (((prepDat (startV m) c).arrAt_in 3 rfl _).trans (prepA_eq (startV m) c 3))
    _ = m ((c : Thread nD τ).loc main_arg4) := rfl

/-- `main_arg5` ends as launched: the projection kernel only reads it, the attention kernel never sees it. -/
theorem endAt_main_arg5 (c : Dev nD) : endAt m c (Proc.devRef .tc main_arg5) = m ((c : Thread nD τ).loc main_arg5) :=
  calc endAt m c (Proc.devRef .tc main_arg5)
    _ = midAt m c (Proc.devRef .tc main_arg5) := endAt_of_ne m c main_arg5 (by decide)
    _ = startAt m c (Proc.devRef .tc main_arg5) := (midAt_arr m c 4).trans (((prepDat (startV m) c).arrAt_in 4 rfl _).trans (prepA_eq (startV m) c 4))
    _ = m ((c : Thread nD τ).loc main_arg5) := rfl

/-- `main_arg6` ends as launched: the projection kernel only reads it, the attention kernel never sees it. -/
theorem endAt_main_arg6 (c : Dev nD) : endAt m c (Proc.devRef .tc main_arg6) = m ((c : Thread nD τ).loc main_arg6) :=
  calc endAt m c (Proc.devRef .tc main_arg6)
    _ = midAt m c (Proc.devRef .tc main_arg6) := endAt_of_ne m c main_arg6 (by decide)
    _ = startAt m c (Proc.devRef .tc main_arg6) := (midAt_arr m c 5).trans (((prepDat (startV m) c).arrAt_in 5 rfl _).trans (prepA_eq (startV m) c 5))
    _ = m ((c : Thread nD τ).loc main_arg6) := rfl

/-- `main_arg7` ends as launched: the projection kernel only reads it, the attention kernel never sees it. -/
theorem endAt_main_arg7 (c : Dev nD) : endAt m c (Proc.devRef .tc main_arg7) = m ((c : Thread nD τ).loc main_arg7) :=
  calc endAt m c (Proc.devRef .tc main_arg7)
    _ = midAt m c (Proc.devRef .tc main_arg7) := endAt_of_ne m c main_arg7 (by decide)
    _ = startAt m c (Proc.devRef .tc main_arg7) := (midAt_arr m c 6).trans (((prepDat (startV m) c).arrAt_in 6 rfl _).trans (prepA_eq (startV m) c 6))
    _ = m ((c : Thread nD τ).loc main_arg7) := rfl

/-! ## The proof data family and the thread state -/

abbrev adm : (p : Fin 2) → (pcfgs (F := F) p).Adm := fun p => (cfgs p).toPCfg_adm
/-- Each kernel's proof data at its entry contents. -/
def pdats : (p : Fin 2) → (c : Dev nD) → Dat τ (Elt F) Unit ℕ (UR sig nD τ) ℕ (Pipeline.pin (pcfgs (F := F)) adm p) c
  | ⟨0, _⟩ => fun c => prepDat (startV m) c
  | ⟨1, _⟩ => fun c => attnDat (midV m) c
abbrev noVariants : Variants := Variants.none
abbrev noLevels : GSem nD τ sig → Finset Unit := fun _ => ∅
abbrev levelZero : GSem nD τ sig → Unit → ℕ := fun _ _ => 0
/-- What rides beside the buffers through both kernels: the generator register at some state and the core owing nothing. -/
abbrev beside (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev lastState (c : Dev nD) : sProp 𝕄 := iprop(StableHlo.held (c : Thread nD τ) (Pipeline.ucRefs τ sig) (endAt m c) ∗ ∃ r, prngReg c r)

/-! ## The two kernels as segments -/

/-- The generator register, anything, and the scoped buffers no window stages make the plain invariant, -/
theorem plainIn (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp
/-- and the plain invariant gives them back. -/
theorem plainOut (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The projection kernel over the thread state: entered from every unscoped buffer as launched, left with its three output
    arrays written. -/
def prepSeg : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (prepObligation (startV m) c).loose
  hwaits := Pipeline.hwaits_of_owed_zero _ _ _ _ noLevels levelZero 0 fun _ _ => rfl
  pre c := iprop(StableHlo.held (c : Thread nD τ) (Pipeline.ucRefs τ sig) (startAt m c) ∗ beside c)
  post c := iprop(StableHlo.held (c : Thread nD τ) (Pipeline.ucRefs τ sig) (midAt m c) ∗ beside c)
  X c := iprop(∃ r, prngReg c r)
  Y c := iprop(∃ r, prngReg c r)
  Z c := Pipeline.unscopedRest (Ix := Unit) (Name := ℕ) (U := UR sig nD τ) (Lvl := ℕ) spec0 c (startV m c)
  hentry c := by
    rw [Pipeline.ownSems0_none]
    have hsplit := Pipeline.arrays_of_unscopedBufs (p := 0) (pcfgs (F := F)) adm (pdats m) launch0.win launch0.arr_whole c
      ((pdats m 0 c).share_full fun _ => rfl) (startV m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (startV m c) (midV m c) ((pdats m 0 c).arrAt · cfg0.N) (midFinal m c) (midRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer as the projection kernel left them, left
    with its output array written. Its invariant starts as the plain one and gives the plain one back at the end. -/
def attnSeg : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (attnObligation (midV m) c).loose
  hwaits := Pipeline.hwaits_of_owed_zero _ _ _ _ noLevels levelZero 1 fun _ _ => rfl
  pre c := iprop(StableHlo.held (c : Thread nD τ) (Pipeline.ucRefs τ sig) (midAt m c) ∗ beside c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (midV m c)
  hentry c := by
    rw [Pipeline.ownSems0_none]
    have hsplit := Pipeline.arrays_of_unscopedBufs (p := 1) (pcfgs (F := F)) adm (pdats m) launch1.win launch1.arr_whole c
      ((pdats m 1 c).share_full fun _ => rfl) (midV m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (plainIn c _).trans (attnPhi_in (midV m) c)
  hout c := by
    rw [Pipeline.ownSems0_none]
    exact (attnPhi_out (midV m) c).trans (plainOut c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (midV m c) (endV m c) ((pdats m 1 c).arrAt · cfg1.N) (endFinal m c) (endRest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ noVariants noLevels levelZero) :=
  [ .region (prepSeg m), .region (attnSeg m) ]

theorem main_run (c : Dev nD) : main (F := F) c = Pipeline.Seg.run (segs m) := (main_chain c).trans (by chain_rfl)

set_option backward.isDefEq.respectTransparency.types false in
/-- THE RUN. From any memory with zero counters, every weakly fair execution of the program on the TensorCores terminates,
    nothing faulting, and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = endAt m c b) :=
  Pipeline.θ_run_regions_kit (pcfgs (F := F)) adm (pdats m) () cellOf_inj emb₁ defs₀ noVariants noLevels levelZero m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (startAt m c) ∗ beside c)) (Tₙ := lastState m)
    (hch := ⟨fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (startAt m c)
        from Pipeline.unscopedBufs_held c (startAt m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = endAt m c b)
    (hfin := fun c s' => by
      iintro ⟨⟨Hh, -⟩, HSI⟩
      unfold StableHlo.held
      imodintro
      iapply (pointsTo_read_all (Pipeline.ucRefs τ sig) (fun b => (((c : Thread nD τ)).1, b)) (endAt m c) s')
      isplitl [Hh] <;> iassumption)
    (hQ := fun _ h => h)

/-- The run read at the result array and at the arguments: the result array ends at what the attention kernel's write-backs leave,
    every argument array as launched. -/
theorem runValue : θ_run defs (onTc (τ := τ) (main (F := F))) ⟨m, fun _ => 0, ρ⟩ (fun r => ∀ c : Dev nD,
      r.2.mem ((c.tc : Thread nD τ).loc main_v1) = (attnDat (midV m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v1 (by decide))).trans (endAt_arr m c 4),
      (h c _ (mem_uc main_arg0 (by decide))).trans (endAt_main_arg0 m c),
      (h c _ (mem_uc main_arg1 (by decide))).trans (endAt_main_arg1 m c),
      (h c _ (mem_uc main_arg2 (by decide))).trans (endAt_main_arg2 m c),
      (h c _ (mem_uc main_arg3 (by decide))).trans (endAt_main_arg3 m c),
      (h c _ (mem_uc main_arg4 (by decide))).trans (endAt_main_arg4 m c),
      (h c _ (mem_uc main_arg5 (by decide))).trans (endAt_main_arg5 m c),
      (h c _ (mem_uc main_arg6 (by decide))).trans (endAt_main_arg6 m c),
      (h c _ (mem_uc main_arg7 (by decide))).trans (endAt_main_arg7 m c)⟩) (run m ρ)

/-- THE FRAME: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (runValue m ρ)

end Cert.Kernel.Hand

end
-- ==== Proof.KI.Prep.lean ====
/-
  The projection kernel (the first of the program's two kernels), one grid point at a time.

  At each of its 8 grid points the kernel reads a block of 1024 rows of X and the whole of W, b, we1, be1, we2, be2, and
  writes three blocks: 1024 rows of h = X Wᵀ + b, the matching 1024 entries of the column e1 = h we1 + be1, and the
  matching 1024 entries of the row e2ᵀ = (h we2 + be2)ᵀ. This module states what the body leaves in its three output
  buffers as functions of the seven input blocks, proves the body's triple, and packages both as the pipeline's proof
  data and body obligation, at any contents `V` of the TensorCore's buffers when the kernel is entered. Generic in the
  float instance.
-/
import proofs.«166967_j31688268710357_2_alg».proof.Proof.Gen.KernelIdeal.Launch
import proofs.«166967_j31688268710357_2_alg».proof.Proof.Gen.KernelIdeal.Skeleton
import proofs.«166967_j31688268710357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def prepBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there: an unfetched
    input's block index has not moved, so the buffer still holds this point's block. -/
theorem prepBefore0_of {c : Dev nD} (dat : Dat τ (Elt F) Unit ℕ (UR sig nD τ) ℕ cfg0 c) (hA : dat.A 0 = V c (Pipeline.arrRef spec0 0))
    (hafter : ∀ t, dat.after 0 t = prepBlk V c 0 t) (t : Fin cfg0.N) (d) : dat.before 0 t d = prepBlk V c 0 t :=
  (dat.before_in_eq_fetched 0 rfl (fun _ => rfl) (fun _ _ _ => rfl) (fun t => by rw [hafter]; unfold Dat.blockOf prepBlk; rw [hA]; try rfl) t d).trans
    (by unfold Dat.fetched Dat.blockOf prepBlk; rw [hA]; try rfl)

/-- Input window 1's staging buffer holds its block at every point, whether or not it was fetched there: an unfetched
    input's block index has not moved, so the buffer still holds this point's block. -/
theorem prepBefore1_of {c : Dev nD} (dat : Dat τ (Elt F) Unit ℕ (UR sig nD τ) ℕ cfg0 c) (hA : dat.A 1 = V c (Pipeline.arrRef spec0 1))
    (hafter : ∀ t, dat.after 1 t = prepBlk V c 1 t) (t : Fin cfg0.N) (d) : dat.before 1 t d = prepBlk V c 1 t :=
  (dat.before_in_eq_fetched 1 rfl (fun _ => rfl) (fun _ _ _ => rfl) (fun t => by rw [hafter]; unfold Dat.blockOf prepBlk; rw [hA]; try rfl) t d).trans
    (by unfold Dat.fetched Dat.blockOf prepBlk; rw [hA]; try rfl)

/-- Input window 2's staging buffer holds its block at every point, whether or not it was fetched there: an unfetched
    input's block index has not moved, so the buffer still holds this point's block. -/
theorem prepBefore2_of {c : Dev nD} (dat : Dat τ (Elt F) Unit ℕ (UR sig nD τ) ℕ cfg0 c) (hA : dat.A 2 = V c (Pipeline.arrRef spec0 2))
    (hafter : ∀ t, dat.after 2 t = prepBlk V c 2 t) (t : Fin cfg0.N) (d) : dat.before 2 t d = prepBlk V c 2 t :=
  (dat.before_in_eq_fetched 2 rfl (fun _ => rfl) (fun _ _ _ => rfl) (fun t => by rw [hafter]; unfold Dat.blockOf prepBlk; rw [hA]; try rfl) t d).trans
    (by unfold Dat.fetched Dat.blockOf prepBlk; rw [hA]; try rfl)

/-- Input window 3's staging buffer holds its block at every point, whether or not it was fetched there: an unfetched
    input's block index has not moved, so the buffer still holds this point's block. -/
theorem prepBefore3_of {c : Dev nD} (dat : Dat τ (Elt F) Unit ℕ (UR sig nD τ) ℕ cfg0 c) (hA : dat.A 3 = V c (Pipeline.arrRef spec0 3))
    (hafter : ∀ t, dat.after 3 t = prepBlk V c 3 t) (t : Fin cfg0.N) (d) : dat.before 3 t d = prepBlk V c 3 t :=
  (dat.before_in_eq_fetched 3 rfl (fun _ => rfl) (fun _ _ _ => rfl) (fun t => by rw [hafter]; unfold Dat.blockOf prepBlk; rw [hA]; try rfl) t d).trans
    (by unfold Dat.fetched Dat.blockOf prepBlk; rw [hA]; try rfl)

/-- Input window 4's staging buffer holds its block at every point, whether or not it was fetched there: an unfetched
    input's block index has not moved, so the buffer still holds this point's block. -/
theorem prepBefore4_of {c : Dev nD} (dat : Dat τ (Elt F) Unit ℕ (UR sig nD τ) ℕ cfg0 c) (hA : dat.A 4 = V c (Pipeline.arrRef spec0 4))
    (hafter : ∀ t, dat.after 4 t = prepBlk V c 4 t) (t : Fin cfg0.N) (d) : dat.before 4 t d = prepBlk V c 4 t :=
  (dat.before_in_eq_fetched 4 rfl (fun _ => rfl) (fun _ _ _ => rfl) (fun t => by rw [hafter]; unfold Dat.blockOf prepBlk; rw [hA]; try rfl) t d).trans
    (by unfold Dat.fetched Dat.blockOf prepBlk; rw [hA]; try rfl)

/-- Input window 5's staging buffer holds its block at every point, whether or not it was fetched there: an unfetched
    input's block index has not moved, so the buffer still holds this point's block. -/
theorem prepBefore5_of {c : Dev nD} (dat : Dat τ (Elt F) Unit ℕ (UR sig nD τ) ℕ cfg0 c) (hA : dat.A 5 = V c (Pipeline.arrRef spec0 5))
    (hafter : ∀ t, dat.after 5 t = prepBlk V c 5 t) (t : Fin cfg0.N) (d) : dat.before 5 t d = prepBlk V c 5 t :=
  (dat.before_in_eq_fetched 5 rfl (fun _ => rfl) (fun _ _ _ => rfl) (fun t => by rw [hafter]; unfold Dat.blockOf prepBlk; rw [hA]; try rfl) t d).trans
    (by unfold Dat.fetched Dat.blockOf prepBlk; rw [hA]; try rfl)

/-- Input window 6's staging buffer holds its block at every point, whether or not it was fetched there: an unfetched
    input's block index has not moved, so the buffer still holds this point's block. -/
theorem prepBefore6_of {c : Dev nD} (dat : Dat τ (Elt F) Unit ℕ (UR sig nD τ) ℕ cfg0 c) (hA : dat.A 6 = V c (Pipeline.arrRef spec0 6))
    (hafter : ∀ t, dat.after 6 t = prepBlk V c 6 t) (t : Fin cfg0.N) (d) : dat.before 6 t d = prepBlk V c 6 t :=
  (dat.before_in_eq_fetched 6 rfl (fun _ => rfl) (fun _ _ _ => rfl) (fun t => by rw [hafter]; unfold Dat.blockOf prepBlk; rw [hA]; try rfl) t d).trans
    (by unfold Dat.fetched Dat.blockOf prepBlk; rw [hA]; try rfl)

/-! ## The body's whole-buffer rectangles -/

abbrev rX : Rect S1024x256 := Rect.unit (s := S1024x256) ![0, 0] S1024x256.size inb_S1024x256_S1024x256_0_0
abbrev rW : Rect S256x256 := Rect.unit (s := S256x256) ![0, 0] S256x256.size inb_S256x256_S256x256_0_0
abbrev rB : Rect S256 := Rect.unit (s := S256) ![0] S256.size inb_S256_S256_0
abbrev rCol : Rect S256x1 := Rect.unit (s := S256x1) ![0, 0] S256x1.size inb_S256x1_S256x1_0_0
abbrev rOne : Rect S1 := Rect.unit (s := S1) ![0] S1.size inb_S1_S1_0
abbrev rE1 : Rect S1024x1 := Rect.unit (s := S1024x1) ![0, 0] S1024x1.size inb_S1024x1_S1024x1_0_0
abbrev rE2 : Rect S1x1024 := Rect.unit (s := S1x1024) ![0, 0] S1x1024.size inb_S1x1024_S1x1024_0_0

/-! ## What the body leaves in each output buffer -/

/-- The block of h: the projected rows, stored whole. -/
def prepOutH (x0 : Vec F S1024x256 .f32) (x1 : Vec F S256x256 .f32) (x2 : Vec F S256 .f32) : Vec F S1024x256 .bf16 :=
  View.canon [⟨rX, k0_pay4 (View.ld x0 rX) (View.ld x1 rW) (View.ld x2 rB)⟩]

/-- The block of the column e1. -/
def prepOutE1 (x0 : Vec F S1024x256 .f32) (x1 : Vec F S256x256 .f32) (x2 : Vec F S256 .f32) (x3 : Vec F S256x1 .f32) (x4 : Vec F S1 .f32) : Vec F S1024x1 .f32 :=
  View.canon [⟨rE1, k0_pay2 (View.ld x0 rX) (View.ld x1 rW) (View.ld x2 rB) (View.ld x3 rCol) (View.ld x4 rOne)⟩]

/-- The block of the row e2ᵀ. -/
def prepOutE2 (x0 : Vec F S1024x256 .f32) (x1 : Vec F S256x256 .f32) (x2 : Vec F S256 .f32) (x5 : Vec F S256x1 .f32) (x6 : Vec F S1 .f32) : Vec F S1x1024 .f32 :=
  View.canon [⟨rE2, k0_pay3 (View.ld x0 rX) (View.ld x1 rW) (View.ld x2 rB) (View.ld x5 rCol) (View.ld x6 rOne)⟩]

/-- One whole-buffer store covers the buffer. -/
theorem prepCoverH (p0 : Vec F S1024x256 .bf16) (y : S1024x256.Idx) :
    ∃ pc ∈ ([⟨rX, p0⟩] : List (View.Piece (Elt F) S1024x256 .bf16)), y ∈ pc.1.set :=
  View.cover_of_tiled [⟨rX, p0⟩] S1024x256.size (by rfl) y
theorem prepCoverE1 (p0 : Vec F S1024x1 .f32) (y : S1024x1.Idx) :
    ∃ pc ∈ ([⟨rE1, p0⟩] : List (View.Piece (Elt F) S1024x1 .f32)), y ∈ pc.1.set :=
  View.cover_of_tiled [⟨rE1, p0⟩] S1024x1.size (by rfl) y
theorem prepCoverE2 (p0 : Vec F S1x1024 .f32) (y : S1x1024.Idx) :
    ∃ pc ∈ ([⟨rE2, p0⟩] : List (View.Piece (Elt F) S1x1024 .f32)), y ∈ pc.1.set :=
  View.cover_of_tiled [⟨rE2, p0⟩] S1x1024.size (by rfl) y

/-! ## The body's triple -/

set_option maxHeartbeats 1000000 in
/-- The body on whole staging buffers, the seven inputs at read contents `x0 … x6` and the three outputs at anything, runs
    to the continuation holding the inputs as they were and each output at its function of the inputs. -/
theorem prepSound (c : Dev nD) (E : Set ℕ) (i : grid0.Coords)
    (arg1 : Memref sig .tc .vmem S1024x256 .f32) (harg1 : arg1.IsWhole)
    (arg2 : Memref sig .tc .vmem S256x256 .f32) (harg2 : arg2.IsWhole)
    (arg3 : Memref sig .tc .vmem S256 .f32) (harg3 : arg3.IsWhole)
    (arg4 : Memref sig .tc .vmem S256x1 .f32) (harg4 : arg4.IsWhole)
    (arg5 : Memref sig .tc .vmem S1 .f32) (harg5 : arg5.IsWhole)
    (arg6 : Memref sig .tc .vmem S256x1 .f32) (harg6 : arg6.IsWhole)
    (arg7 : Memref sig .tc .vmem S1 .f32) (harg7 : arg7.IsWhole)
    (arg8 : Memref sig .tc .vmem S1024x256 .bf16) (harg8 : arg8.IsWhole)
    (arg9 : Memref sig .tc .vmem S1024x1 .f32) (harg9 : arg9.IsWhole)
    (arg10 : Memref sig .tc .vmem S1x1024 .f32) (harg10 : arg10.IsWhole)
    (x0 : Vec F S1024x256 .f32) (x1 : Vec F S256x256 .f32) (x2 : Vec F S256 .f32) (x3 : Vec F S256x1 .f32) (x4 : Vec F S1 .f32) (x5 : Vec F S256x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (prepOutH x0 x1 x2)
            ∗ owns (c : Thread nD τ) arg9 fullShare (prepOutE1 x0 x1 x2 x3 x4)
            ∗ owns (c : Thread nD τ) arg10 fullShare (prepOutE2 x0 x1 x2 x5 x6)) -∗ K ⟨⟩))
      ⊢ wp frame (wpE (defs₀ (F := F)) Variants.none c none) E
          (cc0__prep_kernel i arg1 harg1 arg2 harg2 arg3 harg3 arg4 harg4 arg5 harg5 arg6 harg6 arg7 harg7 arg8 harg8 arg9 harg9 arg10 harg10) K := by
  simp only [cc0__prep_kernel_eq_skeleton]; unfold cc0__prep_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (prepCoverH _)
  isplitl [H8]
  · iexists _; isplitr
    swap; · iexact H8
    ipureintro
    exact View.read_writes_eq_canon _ _ _ (prepCoverE1 _)
  iexists _; isplitr
  swap; · iexact H9
  ipureintro
  exact View.read_writes_eq_canon _ _ _ (prepCoverE2 _)

/-! ## The pipeline's proof data -/

/-- The proof data of the projection kernel on core `c`: the arrays as the kernel finds them; after the body at point `t`
    each input's buffer at its block and each output's at its function of the input blocks; the invariant is the plain one
    (the scoped buffers no window stages and the generator register, untouched); nothing owed; full shares. -/
def prepDat (c : Dev nD) : Dat τ (Elt F) Unit ℕ (UR sig nD τ) ℕ cfg0 c where
  A w := V c (Pipeline.arrRef spec0 w)
  after w t := match w with
    | ⟨0, _⟩ => prepBlk V c 0 t
    | ⟨1, _⟩ => prepBlk V c 1 t
    | ⟨2, _⟩ => prepBlk V c 2 t
    | ⟨3, _⟩ => prepBlk V c 3 t
    | ⟨4, _⟩ => prepBlk V c 4 t
    | ⟨5, _⟩ => prepBlk V c 5 t
    | ⟨6, _⟩ => prepBlk V c 6 t
    | ⟨7, _⟩ => prepOutH (prepBlk V c 0 t) (prepBlk V c 1 t) (prepBlk V c 2 t)
    | ⟨8, _⟩ => prepOutE1 (prepBlk V c 0 t) (prepBlk V c 1 t) (prepBlk V c 2 t) (prepBlk V c 3 t) (prepBlk V c 4 t)
    | ⟨9, _⟩ => prepOutE2 (prepBlk V c 0 t) (prepBlk V c 1 t) (prepBlk V c 2 t) (prepBlk V c 5 t) (prepBlk V c 6 t)
  Φ _ := Pipeline.ΦA spec0 c
  q _ := fullShare
  owed _ := 0

theorem prepA_eq (c : Dev nD) (w : Fin cfg0.W) : (prepDat V c).A w = V c (Pipeline.arrRef spec0 w) := by
  dsimp only [prepDat]

theorem prepAfter0 (c : Dev nD) (t : Fin cfg0.N) : (prepDat V c).after 0 t = prepBlk V c 0 t := by dsimp only [prepDat]
theorem prepAfter1 (c : Dev nD) (t : Fin cfg0.N) : (prepDat V c).after 1 t = prepBlk V c 1 t := by dsimp only [prepDat]
theorem prepAfter2 (c : Dev nD) (t : Fin cfg0.N) : (prepDat V c).after 2 t = prepBlk V c 2 t := by dsimp only [prepDat]
theorem prepAfter3 (c : Dev nD) (t : Fin cfg0.N) : (prepDat V c).after 3 t = prepBlk V c 3 t := by dsimp only [prepDat]
theorem prepAfter4 (c : Dev nD) (t : Fin cfg0.N) : (prepDat V c).after 4 t = prepBlk V c 4 t := by dsimp only [prepDat]
theorem prepAfter5 (c : Dev nD) (t : Fin cfg0.N) : (prepDat V c).after 5 t = prepBlk V c 5 t := by dsimp only [prepDat]
theorem prepAfter6 (c : Dev nD) (t : Fin cfg0.N) : (prepDat V c).after 6 t = prepBlk V c 6 t := by dsimp only [prepDat]
theorem prepAfter7 (c : Dev nD) (t : Fin cfg0.N) : (prepDat V c).after 7 t = prepOutH (prepBlk V c 0 t) (prepBlk V c 1 t) (prepBlk V c 2 t) := by dsimp only [prepDat]
theorem prepAfter8 (c : Dev nD) (t : Fin cfg0.N) : (prepDat V c).after 8 t = prepOutE1 (prepBlk V c 0 t) (prepBlk V c 1 t) (prepBlk V c 2 t) (prepBlk V c 3 t) (prepBlk V c 4 t) := by dsimp only [prepDat]
theorem prepAfter9 (c : Dev nD) (t : Fin cfg0.N) : (prepDat V c).after 9 t = prepOutE2 (prepBlk V c 0 t) (prepBlk V c 1 t) (prepBlk V c 2 t) (prepBlk V c 5 t) (prepBlk V c 6 t) := by dsimp only [prepDat]

theorem prepBefore0 (c : Dev nD) (t : Fin cfg0.N) (d) : (prepDat V c).before 0 t d = prepBlk V c 0 t :=
  prepBefore0_of V (prepDat V c) (prepA_eq V c 0) (prepAfter0 V c) t d
theorem prepBefore1 (c : Dev nD) (t : Fin cfg0.N) (d) : (prepDat V c).before 1 t d = prepBlk V c 1 t :=
  prepBefore1_of V (prepDat V c) (prepA_eq V c 1) (prepAfter1 V c) t d
theorem prepBefore2 (c : Dev nD) (t : Fin cfg0.N) (d) : (prepDat V c).before 2 t d = prepBlk V c 2 t :=
  prepBefore2_of V (prepDat V c) (prepA_eq V c 2) (prepAfter2 V c) t d
theorem prepBefore3 (c : Dev nD) (t : Fin cfg0.N) (d) : (prepDat V c).before 3 t d = prepBlk V c 3 t :=
  prepBefore3_of V (prepDat V c) (prepA_eq V c 3) (prepAfter3 V c) t d
theorem prepBefore4 (c : Dev nD) (t : Fin cfg0.N) (d) : (prepDat V c).before 4 t d = prepBlk V c 4 t :=
  prepBefore4_of V (prepDat V c) (prepA_eq V c 4) (prepAfter4 V c) t d
theorem prepBefore5 (c : Dev nD) (t : Fin cfg0.N) (d) : (prepDat V c).before 5 t d = prepBlk V c 5 t :=
  prepBefore5_of V (prepDat V c) (prepA_eq V c 5) (prepAfter5 V c) t d
theorem prepBefore6 (c : Dev nD) (t : Fin cfg0.N) (d) : (prepDat V c).before 6 t d = prepBlk V c 6 t :=
  prepBefore6_of V (prepDat V c) (prepA_eq V c 6) (prepAfter6 V c) t d

/-! ## The body obligation, at a generic point -/

/-- What the body is called with at point `t`, the windows one by one, -/
def prepBodyPre (c : Dev nD) (t : Fin cfg0.N) : sProp 𝕄 :=
  iprop((prepDat V c).Φ t.castSucc ∗ (prepDat V c).owesAt () t.castSucc
    ∗ (∃ d, owns (c : Thread nD τ) (st0_0 t) fullShare ((prepDat V c).before 0 t d))
    ∗ (∃ d, owns (c : Thread nD τ) (st0_1 t) fullShare ((prepDat V c).before 1 t d))
    ∗ (∃ d, owns (c : Thread nD τ) (st0_2 t) fullShare ((prepDat V c).before 2 t d))
    ∗ (∃ d, owns (c : Thread nD τ) (st0_3 t) fullShare ((prepDat V c).before 3 t d))
    ∗ (∃ d, owns (c : Thread nD τ) (st0_4 t) fullShare ((prepDat V c).before 4 t d))
    ∗ (∃ d, owns (c : Thread nD τ) (st0_5 t) fullShare ((prepDat V c).before 5 t d))
    ∗ (∃ d, owns (c : Thread nD τ) (st0_6 t) fullShare ((prepDat V c).before 6 t d))
    ∗ (∃ d, owns (c : Thread nD τ) (st0_7 t) fullShare ((prepDat V c).before 7 t d))
    ∗ (∃ d, owns (c : Thread nD τ) (st0_8 t) fullShare ((prepDat V c).before 8 t d))
    ∗ (∃ d, owns (c : Thread nD τ) (st0_9 t) fullShare ((prepDat V c).before 9 t d)))

/-- and what it returns. -/
def prepBodyPost (c : Dev nD) (t : Fin cfg0.N) : sProp 𝕄 :=
  iprop((prepDat V c).Φ t.succ ∗ (prepDat V c).owesAt () t.succ
    ∗ owns (c : Thread nD τ) (st0_0 t) fullShare ((prepDat V c).after 0 t)
    ∗ owns (c : Thread nD τ) (st0_1 t) fullShare ((prepDat V c).after 1 t)
    ∗ owns (c : Thread nD τ) (st0_2 t) fullShare ((prepDat V c).after 2 t)
    ∗ owns (c : Thread nD τ) (st0_3 t) fullShare ((prepDat V c).after 3 t)
    ∗ owns (c : Thread nD τ) (st0_4 t) fullShare ((prepDat V c).after 4 t)
    ∗ owns (c : Thread nD τ) (st0_5 t) fullShare ((prepDat V c).after 5 t)
    ∗ owns (c : Thread nD τ) (st0_6 t) fullShare ((prepDat V c).after 6 t)
    ∗ owns (c : Thread nD τ) (st0_7 t) fullShare ((prepDat V c).after 7 t)
    ∗ owns (c : Thread nD τ) (st0_8 t) fullShare ((prepDat V c).after 8 t)
    ∗ owns (c : Thread nD τ) (st0_9 t) fullShare ((prepDat V c).after 9 t))

/-- The body at any point: the inputs' buffers hold their blocks, so the body's triple applies; the invariant and the core's
    dues pass through unread. -/
theorem prepSoundBody (c : Dev nD) (t : Fin cfg0.N) :
    prepBodyPre V c t ⊢ wp frame (wpE (defs₀ (F := F)) Variants.none c none) Set.univ (bodyAt0 t) (fun _ => prepBodyPost V c t) := by
  unfold prepBodyPre prepBodyPost bodyAt0
  simp only [prepBefore0, prepBefore1, prepBefore2, prepBefore3, prepBefore4, prepBefore5, prepBefore6]
  rw [show (prepDat V c).Φ t.succ = (prepDat V c).Φ t.castSucc from rfl,
    show (prepDat V c).owesAt () t.succ = (prepDat V c).owesAt () t.castSucc from rfl,
    prepAfter0, prepAfter1, prepAfter2, prepAfter3, prepAfter4, prepAfter5, prepAfter6, prepAfter7, prepAfter8, prepAfter9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (prepSound c Set.univ _ _ _ _ _ _ _ _ _ _ _ _ _ _ _ _ _ _ _ _ _
    (prepBlk V c 0 t) (prepBlk V c 1 t) (prepBlk V c 2 t) (prepBlk V c 3 t) (prepBlk V c 4 t) (prepBlk V c 5 t) (prepBlk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem prepObligation (c : Dev nD) : BodyObligation (prepDat (F := F) V c) (defs₀ (F := F)) Variants.none () Set.univ := fun t => by
  rw [bigSep_W0, bigSep_W0]
  exact prepSoundBody V c t

end Cert.KernelIdeal.Hand

end
-- ==== Proof.KI.AttnShared.lean ====
/-
  The attention kernel (the second of the program's two kernels): what its per-case runs and its invariant are stated over.

  Its grid is 8 query tiles by 8 key tiles, walked key tile fastest. The body branches on the key-tile coordinate alone: at
  the first key tile it resets the running maximum, denominator and accumulator; at the last it divides and stores the
  output tile. The three running quantities live in scratch buffers the kernel carries from one grid point to the next.
  Here: the two conditions in closed form over the 64 points, where the output window is left idle, the memrefs the body is
  called with, and the plain region invariant spelled with the three scratch buffers as owned memrefs.
-/
import proofs.«166967_j31688268710357_2_alg».proof.Proof.Gen.KernelIdeal.Launch
import proofs.«166967_j31688268710357_2_alg».proof.Proof.Gen.KernelIdeal.Skeleton
import proofs.«166967_j31688268710357_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

/-- Input window 1's staging buffer holds its block at every point, fetched there or not. -/
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

/-- Input window 2's staging buffer holds its block at every point, fetched there or not. -/
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- Input window 3's staging buffer holds its block at every point, fetched there or not. -/
theorem attnBefore3_of {c : Dev nD} (dat : Dat τ (Elt F) Unit ℕ (UR sig nD τ) ℕ cfg1 c) (hA : dat.A 3 = V c (Pipeline.arrRef spec1 3))
    (hafter : ∀ t, dat.after 3 t = attnBlk V c 3 t) (t : Fin cfg1.N) (d) : dat.before 3 t d = attnBlk V c 3 t :=
  (dat.before_in_eq_fetched 3 rfl (fun _ => rfl) (fun _ _ _ => rfl) (fun t => by rw [hafter]; unfold Dat.blockOf attnBlk; rw [hA]; try rfl) t d).trans
    (by unfold Dat.fetched Dat.blockOf attnBlk; rw [hA]; try rfl)

/-! ## The body's two conditions, in closed form -/

/-- "This is the first key tile": the body's first conditional, from the grid coordinates. -/
abbrev attnFirst (i : grid1.Coords) : Prop := (Scalar.cmpi .ne (Scalar.extui (Scalar.cmpi .eq (BitVec.ofNat 32 (i 1).val) 0#32)) 0#32) = 1#1
/-- It holds at the points whose position is a multiple of 8 — decided over the grid. -/
theorem attnFirst_iff : ∀ t : Fin cfg1.N, attnFirst (grid1.coords t) ↔ t.val % 8 = 0 :=
  (by decide +kernel : ∀ t : Fin grid1.N, attnFirst (grid1.coords t) ↔ t.val % 8 = 0)

/-- "This is the last key tile": the body's second conditional. -/
abbrev attnLast (i : grid1.Coords) : Prop := k1_cond2 i = 1#1
/-- It holds at the points whose position is 7 modulo 8 — decided over the grid. -/
theorem attnLast_iff : ∀ t : Fin cfg1.N, attnLast (grid1.coords t) ↔ t.val % 8 = 7 :=
  (by decide +kernel : ∀ t : Fin grid1.N, attnLast (grid1.coords t) ↔ t.val % 8 = 7)

/-! ## Where the output window is idle -/

/-- Away from the last key tile the output window is idle: the body stores nothing into it, -/
theorem attnIdleOut : ∀ t : Fin cfg1.N, ¬attnLast (grid1.coords t) → cfg1.idle 4 (grid1.coords t) = true := by decide +kernel
/-- and the pipeline does not write its block back. -/
theorem attnNoFlush : ∀ t : Fin cfg1.N, ¬attnLast (grid1.coords t) → (cfg1.win 4).flush t = false := by decide +kernel
/-- At the last key tile it is live. -/
theorem attnLiveOut : ∀ t : Fin cfg1.N, attnLast (grid1.coords t) → cfg1.idle 4 (grid1.coords t) = false := by decide +kernel
/-- The input windows are never idle. -/
theorem attnLive0 : ∀ t : Fin cfg1.N, cfg1.idle 0 (grid1.coords t) = false := fun _ => rfl
theorem attnLive1 : ∀ t : Fin cfg1.N, cfg1.idle 1 (grid1.coords t) = false := fun _ => rfl
theorem attnLive2 : ∀ t : Fin cfg1.N, cfg1.idle 2 (grid1.coords t) = false := fun _ => rfl
theorem attnLive3 : ∀ t : Fin cfg1.N, cfg1.idle 3 (grid1.coords t) = false := fun _ => rfl

/-! ## The memrefs the body is called with -/

/-- One staging buffer of the output window, through which its contents are stated. -/
abbrev attnVO : View sig .tc .vmem S1024x256 .f32 := (Memref.whole cc1_stg4_0 : Memref sig .tc .vmem S1024x256 .f32).view
abbrev attnM0 (t : Fin cfg1.N) : Memref sig .tc .vmem S1024x1024 .i32 := win1_0.stage (cfg1.slots t 0)
abbrev attnH0 (t : Fin cfg1.N) : (attnM0 t).IsWhole := hstage1_0 ((cfg1.slots t 0).cast nbuf1_0)
abbrev attnM1 (t : Fin cfg1.N) : Memref sig .tc .vmem S1024x1 .f32 := win1_1.stage (cfg1.slots t 1)
abbrev attnH1 (t : Fin cfg1.N) : (attnM1 t).IsWhole := hstage1_1 ((cfg1.slots t 1).cast nbuf1_1)
abbrev attnM2 (t : Fin cfg1.N) : Memref sig .tc .vmem S1x1024 .f32 := win1_2.stage (cfg1.slots t 2)
abbrev attnH2 (t : Fin cfg1.N) : (attnM2 t).IsWhole := hstage1_2 ((cfg1.slots t 2).cast nbuf1_2)
abbrev attnM3 (t : Fin cfg1.N) : Memref sig .tc .vmem S8192x256 .bf16 := win1_3.stage (cfg1.slots t 3)
abbrev attnH3 (t : Fin cfg1.N) : (attnM3 t).IsWhole := hstage1_3 ((cfg1.slots t 3).cast nbuf1_3)
abbrev attnM4 (t : Fin cfg1.N) : Memref sig .tc .vmem S1024x256 .f32 := win1_4.stage (cfg1.slots t 4)
abbrev attnH4 (t : Fin cfg1.N) : (attnM4 t).IsWhole := hstage1_4 ((cfg1.slots t 4).cast nbuf1_4)
/-- The three scratch buffers: the running maximum, the running denominator, the running accumulator. -/
abbrev scMax : Memref sig .tc .vmem S1024x1 .f32 := Memref.whole cc1_scratch0
abbrev scDen : Memref sig .tc .vmem S1024x1 .f32 := Memref.whole cc1_scratch1
abbrev scAcc : Memref sig .tc .vmem S1024x256 .f32 := Memref.whole cc1_scratch2
abbrev vsMax : View sig .tc .vmem S1024x1 .f32 := scMax.view
abbrev vsDen : View sig .tc .vmem S1024x1 .f32 := scDen.view
abbrev vsAcc : View sig .tc .vmem S1024x256 .f32 := scAcc.view

/-! ## The region invariant's shape -/

/-- The scoped buffers of the core that are no staging buffer of this kernel — the projection kernel's fourteen staging
    buffers at anything, and the three scratch buffers at the given states — beside the generator register at some state. -/
def attnInv (c : Dev nD) (P0 P1 P2 : sProp 𝕄) : sProp 𝕄 :=
  iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f)
    ∗ P0 ∗ P1 ∗ P2) ∗ (∃ r, prngReg c r))

/-- The plain invariant is that shape with each scratch buffer at anything. -/
theorem attnInv_plain (c : Dev nD) :
    (Pipeline.ΦA spec1 c : sProp 𝕄)
      = attnInv c iprop(∃ d, owns (c : Thread nD τ) scMax fullShare d) iprop(∃ d, owns (c : Thread nD τ) scDen fullShare d)
          iprop(∃ d, owns (c : Thread nD τ) scAcc fullShare d) := by
  unfold Pipeline.ΦA attnInv; rw [scopedRest1_eq]; simp only [scMax, scDen, scAcc, owns_whole]; try rfl

end Cert.KernelIdeal.Hand

end
-- ==== Proof.KI.AttnRunA.lean ====
/-
  The attention body at the first key tile of a query tile (the running quantities are reset first; the output window is left idle): what its stores leave in the output buffer and in the three scratch buffers, as lists
  of stored pieces (last first), with the proof that on whole memrefs the body runs to a continuation holding the inputs
  as they were and those pieces written. The piece lists are whatever the symbolic run of the body finds.
-/
import proofs.«166967_j31688268710357_2_alg».proof.Proof.KI.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case. The inputs are owned at their contents, the idle output at contents handed back untouched, the scratch buffers at anything. -/
noncomputable def attnRunA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) :
    Σ' (L4 : List (View.Piece (Elt F) S1024x256 .f32)) (LS0 : List (View.Piece (Elt F) S1024x1 .f32)) (LS1 : List (View.Piece (Elt F) S1024x1 .f32)),
      { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.AttnRunB.lean ====
/-
  The attention body at a key tile that is neither first nor last (the running quantities are updated; the output window is left idle): what its stores leave in the output buffer and in the three scratch buffers, as lists
  of stored pieces (last first), with the proof that on whole memrefs the body runs to a continuation holding the inputs
  as they were and those pieces written. The piece lists are whatever the symbolic run of the body finds.
-/
import proofs.«166967_j31688268710357_2_alg».proof.Proof.KI.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case. The inputs are owned at their contents, the idle output at contents handed back untouched, the scratch buffers at what the point before left. -/
noncomputable def attnRunB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)),
      { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.AttnRunC.lean ====
/-
  The attention body at the last key tile of a query tile (the running quantities are updated, then the accumulator is divided by the denominator and stored as the output tile): what its stores leave in the output buffer and in the three scratch buffers, as lists
  of stored pieces (last first), with the proof that on whole memrefs the body runs to a continuation holding the inputs
  as they were and those pieces written. The piece lists are whatever the symbolic run of the body finds.
-/
import proofs.«166967_j31688268710357_2_alg».proof.Proof.KI.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case. The inputs are owned at their contents, the output at anything, the scratch buffers at what the point before left. -/
noncomputable def attnRunC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)),
      { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.Attn.lean ====
/-
  The attention kernel point by point: what the output buffer and the three scratch buffers hold after the body at each
  of the 64 grid points (a recursion over the position: each point's case run over what the point before left in the
  scratch buffers), the region invariant that carries the scratch contents from one point to the next, the pipeline's
  proof data, and the body obligation at a generic point.
-/
import proofs.«166967_j31688268710357_2_alg».proof.Proof.KI.AttnRunA
import proofs.«166967_j31688268710357_2_alg».proof.Proof.KI.AttnRunB
import proofs.«166967_j31688268710357_2_alg».proof.Proof.KI.AttnRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in each buffer -/

/-- What this case leaves in the output tile's buffer: its pieces read back (none: a placeholder that nothing consults, the window being idle there). -/
def attnOutA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) : Vec F S1024x256 .f32 :=
  attnVO.read (Elt F) (attnVO.writes (Elt F) attnVO.junk (attnRunA c i arg2 harg2 arg3 harg3 arg4 harg4 arg5 harg5 arg6 harg6 arg7 harg7 arg8 harg8 arg9 harg9 hc0 hc1 x0 x1 x2 x3).1)

/-- The pieces this case stores into the running maximum's buffer tile it, so they cover it. -/
theorem attnCoverMaxA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) (y : S1024x1.Idx) :
    ∃ pc ∈ (attnRunA c i arg2 harg2 arg3 harg3 arg4 harg4 arg5 harg5 arg6 harg6 arg7 harg7 arg8 harg8 arg9 harg9 hc0 hc1 x0 x1 x2 x3).2.1, y ∈ pc.1.set :=
  View.cover_of_tiledL (attnRunA c i arg2 harg2 arg3 harg3 arg4 harg4 arg5 harg5 arg6 harg6 arg7 harg7 arg8 harg8 arg9 harg9 hc0 hc1 x0 x1 x2 x3).2.1 S1024x1.size (by sl_kernel_rfl) y

/-- What this case leaves in the running maximum's buffer: its pieces read back. -/
def attnMaxA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) : Vec F S1024x1 .f32 :=
  vsMax.read (Elt F) (vsMax.writes (Elt F) vsMax.junk (attnRunA c i arg2 harg2 arg3 harg3 arg4 harg4 arg5 harg5 arg6 harg6 arg7 harg7 arg8 harg8 arg9 harg9 hc0 hc1 x0 x1 x2 x3).2.1)

/-- The pieces this case stores into the running denominator's buffer tile it, so they cover it. -/
theorem attnCoverDenA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) (y : S1024x1.Idx) :
    ∃ pc ∈ (attnRunA c i arg2 harg2 arg3 harg3 arg4 harg4 arg5 harg5 arg6 harg6 arg7 harg7 arg8 harg8 arg9 harg9 hc0 hc1 x0 x1 x2 x3).2.2.1, y ∈ pc.1.set :=
  View.cover_of_tiledL (attnRunA c i arg2 harg2 arg3 harg3 arg4 harg4 arg5 harg5 arg6 harg6 arg7 harg7 arg8 harg8 arg9 harg9 hc0 hc1 x0 x1 x2 x3).2.2.1 S1024x1.size (by sl_kernel_rfl) y

/-- What this case leaves in the running denominator's buffer: its pieces read back. -/
def attnDenA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) : Vec F S1024x1 .f32 :=
  vsDen.read (Elt F) (vsDen.writes (Elt F) vsDen.junk (attnRunA c i arg2 harg2 arg3 harg3 arg4 harg4 arg5 harg5 arg6 harg6 arg7 harg7 arg8 harg8 arg9 harg9 hc0 hc1 x0 x1 x2 x3).2.2.1)

/-- The pieces this case stores into the running accumulator's buffer tile it, so they cover it. -/
theorem attnCoverAccA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) (y : S1024x256.Idx) :
    ∃ pc ∈ (attnRunA c i arg2 harg2 arg3 harg3 arg4 harg4 arg5 harg5 arg6 harg6 arg7 harg7 arg8 harg8 arg9 harg9 hc0 hc1 x0 x1 x2 x3).2.2.2.1, y ∈ pc.1.set :=
  View.cover_of_tiledL (attnRunA c i arg2 harg2 arg3 harg3 arg4 harg4 arg5 harg5 arg6 harg6 arg7 harg7 arg8 harg8 arg9 harg9 hc0 hc1 x0 x1 x2 x3).2.2.2.1 S1024x256.size (by sl_kernel_rfl) y

/-- What this case leaves in the running accumulator's buffer: its pieces read back. -/
def attnAccA (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) : Vec F S1024x256 .f32 :=
  vsAcc.read (Elt F) (vsAcc.writes (Elt F) vsAcc.junk (attnRunA c i arg2 harg2 arg3 harg3 arg4 harg4 arg5 harg5 arg6 harg6 arg7 harg7 arg8 harg8 arg9 harg9 hc0 hc1 x0 x1 x2 x3).2.2.2.1)

/-- What this case leaves in the output tile's buffer: its pieces read back (none: a placeholder that nothing consults, the window being idle there). -/
def attnOutB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x256 .f32 :=
  attnVO.read (Elt F) (attnVO.writes (Elt F) attnVO.junk (attnRunB c i arg2 harg2 arg3 harg3 arg4 harg4 arg5 harg5 arg6 harg6 arg7 harg7 arg8 harg8 arg9 harg9 hc0 hc1 x0 x1 x2 x3 xs0 xs1 xs2).1)

/-- The pieces this case stores into the running maximum's buffer tile it, so they cover it. -/
theorem attnCoverMaxB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x1.Idx) :
    ∃ pc ∈ (attnRunB c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (attnRunB c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What this case leaves in the running maximum's buffer: its pieces read back. -/
def attnMaxB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x1 .f32 :=
  vsMax.read (Elt F) (vsMax.writes (Elt F) vsMax.junk (attnRunB c i arg2 harg2 arg3 harg3 arg4 harg4 arg5 harg5 arg6 harg6 arg7 harg7 arg8 harg8 arg9 harg9 hc0 hc1 x0 x1 x2 x3 xs0 xs1 xs2).2.1)

/-- The pieces this case stores into the running denominator's buffer tile it, so they cover it. -/
theorem attnCoverDenB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x1.Idx) :
    ∃ pc ∈ (attnRunB c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (attnRunB c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What this case leaves in the running denominator's buffer: its pieces read back. -/
def attnDenB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x1 .f32 :=
  vsDen.read (Elt F) (vsDen.writes (Elt F) vsDen.junk (attnRunB c i arg2 harg2 arg3 harg3 arg4 harg4 arg5 harg5 arg6 harg6 arg7 harg7 arg8 harg8 arg9 harg9 hc0 hc1 x0 x1 x2 x3 xs0 xs1 xs2).2.2.1)

/-- The pieces this case stores into the running accumulator's buffer tile it, so they cover it. -/
theorem attnCoverAccB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x256.Idx) :
    ∃ pc ∈ (attnRunB c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (attnRunB c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What this case leaves in the running accumulator's buffer: its pieces read back. -/
def attnAccB (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x256 .f32 :=
  vsAcc.read (Elt F) (vsAcc.writes (Elt F) vsAcc.junk (attnRunB c i arg2 harg2 arg3 harg3 arg4 harg4 arg5 harg5 arg6 harg6 arg7 harg7 arg8 harg8 arg9 harg9 hc0 hc1 x0 x1 x2 x3 xs0 xs1 xs2).2.2.2.1)

/-- The pieces this case stores into the output tile's buffer tile it, so they cover it. -/
theorem attnCoverOutC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x256.Idx) :
    ∃ pc ∈ (attnRunC c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (attnRunC c i arg2 harg2 arg3 harg3 arg4 harg4 arg5 harg5 arg6 harg6 arg7 harg7 arg8 harg8 arg9 harg9 hc0 hc1 x0 x1 x2 x3 xs0 xs1 xs2).1 S1024x256.size (by sl_kernel_rfl) y

/-- What this case leaves in the output tile's buffer: its pieces read back. -/
def attnOutC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x256 .f32 :=
  attnVO.read (Elt F) (attnVO.writes (Elt F) attnVO.junk (attnRunC c i arg2 harg2 arg3 harg3 arg4 harg4 arg5 harg5 arg6 harg6 arg7 harg7 arg8 harg8 arg9 harg9 hc0 hc1 x0 x1 x2 x3 xs0 xs1 xs2).1)

/-- The pieces this case stores into the running maximum's buffer tile it, so they cover it. -/
theorem attnCoverMaxC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x1.Idx) :
    ∃ pc ∈ (attnRunC c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (attnRunC c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What this case leaves in the running maximum's buffer: its pieces read back. -/
def attnMaxC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x1 .f32 :=
  vsMax.read (Elt F) (vsMax.writes (Elt F) vsMax.junk (attnRunC c i arg2 harg2 arg3 harg3 arg4 harg4 arg5 harg5 arg6 harg6 arg7 harg7 arg8 harg8 arg9 harg9 hc0 hc1 x0 x1 x2 x3 xs0 xs1 xs2).2.1)

/-- The pieces this case stores into the running denominator's buffer tile it, so they cover it. -/
theorem attnCoverDenC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x1.Idx) :
    ∃ pc ∈ (attnRunC c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (attnRunC c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What this case leaves in the running denominator's buffer: its pieces read back. -/
def attnDenC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x1 .f32 :=
  vsDen.read (Elt F) (vsDen.writes (Elt F) vsDen.junk (attnRunC c i arg2 harg2 arg3 harg3 arg4 harg4 arg5 harg5 arg6 harg6 arg7 harg7 arg8 harg8 arg9 harg9 hc0 hc1 x0 x1 x2 x3 xs0 xs1 xs2).2.2.1)

/-- The pieces this case stores into the running accumulator's buffer tile it, so they cover it. -/
theorem attnCoverAccC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) (y : S1024x256.Idx) :
    ∃ pc ∈ (attnRunC c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (attnRunC c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What this case leaves in the running accumulator's buffer: its pieces read back. -/
def attnAccC (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) : Vec F S1024x256 .f32 :=
  vsAcc.read (Elt F) (vsAcc.writes (Elt F) vsAcc.junk (attnRunC c i arg2 harg2 arg3 harg3 arg4 harg4 arg5 harg5 arg6 harg6 arg7 harg7 arg8 harg8 arg9 harg9 hc0 hc1 x0 x1 x2 x3 xs0 xs1 xs2).2.2.2.1)

/-! ## What the buffers hold after each point -/

/-- The four buffers after the body at point `t`, when `t` is a first key tile. -/
def attnAtA (c : Dev nD) (t : Fin cfg1.N) (h0 : attnFirst (grid1.coords t)) (h1 : ¬attnLast (grid1.coords t)) : Vec F S1024x256 .f32 × Vec F S1024x1 .f32 × Vec F S1024x1 .f32 × Vec F S1024x256 .f32 :=
  (attnOutA c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t), attnMaxA c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t), attnDenA c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t), attnAccA c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t))

/-- The four buffers after the body at point `t`, when `t` is a middle key tile (over what the point before left in the scratch buffers). -/
def attnAtB (c : Dev nD) (t : Fin cfg1.N) (h0 : ¬attnFirst (grid1.coords t)) (h1 : ¬attnLast (grid1.coords t)) (p : Vec F S1024x256 .f32 × Vec F S1024x1 .f32 × Vec F S1024x1 .f32 × Vec F S1024x256 .f32) : Vec F S1024x256 .f32 × Vec F S1024x1 .f32 × Vec F S1024x1 .f32 × Vec F S1024x256 .f32 :=
  (attnOutB c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnMaxB c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnDenB c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnAccB c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2)

/-- The four buffers after the body at point `t`, when `t` is a last key tile (over what the point before left in the scratch buffers). -/
def attnAtC (c : Dev nD) (t : Fin cfg1.N) (h0 : ¬attnFirst (grid1.coords t)) (h1 : attnLast (grid1.coords t)) (p : Vec F S1024x256 .f32 × Vec F S1024x1 .f32 × Vec F S1024x1 .f32 × Vec F S1024x256 .f32) : Vec F S1024x256 .f32 × Vec F S1024x1 .f32 × Vec F S1024x1 .f32 × Vec F S1024x256 .f32 :=
  (attnOutC c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnMaxC c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnDenC c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2, attnAccC c (grid1.coords t) (attnM0 t) (attnH0 t) (attnM1 t) (attnH1 t) (attnM2 t) (attnH2 t) (attnM3 t) (attnH3 t) (attnM4 t) (attnH4 t) scMax (Memref.isWhole_whole _) scDen (Memref.isWhole_whole _) scAcc (Memref.isWhole_whole _) h0 h1 (attnBlk V c 0 t) (attnBlk V c 1 t) (attnBlk V c 2 t) (attnBlk V c 3 t) p.2.1 p.2.2.1 p.2.2.2)

/-- THE ACCUMULATION. The output buffer and the three scratch buffers after the body at position `n`: the case the closed
    forms select at `n`, over the scratch contents position `n - 1` left. (First and last at once is no point of an 8-wide
    key axis.) -/
def attnOuts (c : Dev nD) : (n : ℕ) → n < cfg1.N → Vec F S1024x256 .f32 × Vec F S1024x1 .f32 × Vec F S1024x1 .f32 × Vec F S1024x256 .f32
  | 0, hn => attnAtA V c ⟨0, hn⟩ ((attnFirst_iff ⟨0, hn⟩).mpr (Nat.zero_mod _)) (fun h => (fun h => by (try dsimp only at h); omega) ((attnLast_iff ⟨0, hn⟩).mp h))
  | n + 1, hn =>
    if h0 : (n + 1) % 8 = 0 then
      if h1 : (n + 1) % 8 = 7 then
        False.elim (by omega)
      else
        attnAtA V c ⟨n + 1, hn⟩ ((attnFirst_iff ⟨n + 1, hn⟩).mpr h0) (fun h => h1 ((attnLast_iff ⟨n + 1, hn⟩).mp h))
    else
      if h1 : (n + 1) % 8 = 7 then
        attnAtC V c ⟨n + 1, hn⟩ (fun h => h0 ((attnFirst_iff ⟨n + 1, hn⟩).mp h)) ((attnLast_iff ⟨n + 1, hn⟩).mpr h1) (attnOuts c n (Nat.lt_of_succ_lt hn))
      else
        attnAtB V c ⟨n + 1, hn⟩ (fun h => h0 ((attnFirst_iff ⟨n + 1, hn⟩).mp h)) (fun h => h1 ((attnLast_iff ⟨n + 1, hn⟩).mp h)) (attnOuts c n (Nat.lt_of_succ_lt hn))

theorem attnOuts_first (c : Dev nD) (t : Fin cfg1.N) (h0 : t.val % 8 = 0) (h1 : ¬t.val % 8 = 7) :
    attnOuts V c t.val t.isLt = attnAtA V c t ((attnFirst_iff t).mpr h0) (fun h => h1 ((attnLast_iff t).mp h)) := by
  obtain ⟨n, hn⟩ := t
  cases n with
  | zero => exact rfl
  | succ n => exact (dif_pos h0).trans ((dif_neg h1).trans rfl)

theorem attnOuts_middle (c : Dev nD) (t : Fin cfg1.N) (h0 : ¬t.val % 8 = 0) (h1 : ¬t.val % 8 = 7) :
    attnOuts V c t.val t.isLt = attnAtB V c t (fun h => h0 ((attnFirst_iff t).mp h)) (fun h => h1 ((attnLast_iff t).mp h))
      (attnOuts V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem attnOuts_last (c : Dev nD) (t : Fin cfg1.N) (h0 : ¬t.val % 8 = 0) (h1 : t.val % 8 = 7) :
    attnOuts V c t.val t.isLt = attnAtC V c t (fun h => h0 ((attnFirst_iff t).mp h)) ((attnLast_iff t).mpr h1)
      (attnOuts V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the plain invariant (every scratch buffer at anything); afterwards each
    scratch buffer at what the point before left in it. -/
def attnPhi (c : Dev nD) : (n : ℕ) → n ≤ cfg1.N → sProp 𝕄
  | 0, _ => Pipeline.ΦA spec1 c
  | n + 1, hn => attnInv c (owns (c : Thread nD τ) scMax fullShare (attnOuts V c n hn).2.1)
      (owns (c : Thread nD τ) scDen fullShare (attnOuts V c n hn).2.2.1) (owns (c : Thread nD τ) scAcc fullShare (attnOuts V c n hn).2.2.2)

theorem attnPhi_zero (c : Dev nD) (n : ℕ) (h : n ≤ cfg1.N) (hz : n = 0) : attnPhi V c n h = Pipeline.ΦA spec1 c := by
  subst hz; rfl

theorem attnPhi_succ (c : Dev nD) (n : ℕ) (hn : n < cfg1.N) :
    attnPhi V c (n + 1) hn = attnInv c (owns (c : Thread nD τ) scMax fullShare (attnOuts V c n hn).2.1)
      (owns (c : Thread nD τ) scDen fullShare (attnOuts V c n hn).2.2.1) (owns (c : Thread nD τ) scAcc fullShare (attnOuts V c n hn).2.2.2) := rfl

theorem attnPhi_pos (c : Dev nD) (n : ℕ) (h : n ≤ cfg1.N) (hz : n ≠ 0) :
    attnPhi V c n h = attnInv c (owns (c : Thread nD τ) scMax fullShare (attnOuts V c (n - 1) (by omega)).2.1)
      (owns (c : Thread nD τ) scDen fullShare (attnOuts V c (n - 1) (by omega)).2.2.1) (owns (c : Thread nD τ) scAcc fullShare (attnOuts V c (n - 1) (by omega)).2.2.2) := by
  cases n with
  | zero => exact absurd rfl hz
  | succ n => rfl

/-! ## The pipeline's proof data -/

/-- The proof data of the attention kernel on core `c`: the arrays as the kernel finds them; after the body at point `t` each
    input's buffer at its block and the output's at the accumulation's first component; the invariant carries the scratch;
    nothing owed; full shares. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnBlk V c 3 t
    | ⟨4, _⟩ => (attnOuts V c t.val t.isLt).1
  Φ t := attnPhi V c t.val (Nat.le_of_lt_succ t.isLt)
  q _ := fullShare
  owed _ := 0

theorem attnA_eq (c : Dev nD) (w : Fin cfg1.W) : (attnDat V c).A w = V c (Pipeline.arrRef spec1 w) := by
  dsimp only [attnDat]

theorem attnPhi_castSucc (c : Dev nD) (t : Fin cfg1.N) :
    (attnDat V c).Φ t.castSucc = attnPhi V c t.val (Nat.le_of_lt t.isLt) := by
  dsimp only [attnDat]; simp only [Fin.coe_castSucc]

theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) : (attnDat V c).after 3 t = attnBlk V c 3 t := by dsimp only [attnDat]
theorem attnAfter4 (c : Dev nD) (t : Fin cfg1.N) : (attnDat V c).after 4 t = (attnOuts V c t.val t.isLt).1 := by dsimp only [attnDat]

theorem attnBefore0 (c : Dev nD) (t : Fin cfg1.N) (d) : (attnDat V c).before 0 t d = attnBlk V c 0 t :=
  attnBefore0_of V (attnDat V c) (attnA_eq V c 0) (attnAfter0 V c) t d
theorem attnBefore1 (c : Dev nD) (t : Fin cfg1.N) (d) : (attnDat V c).before 1 t d = attnBlk V c 1 t :=
  attnBefore1_of V (attnDat V c) (attnA_eq V c 1) (attnAfter1 V c) t d
theorem attnBefore2 (c : Dev nD) (t : Fin cfg1.N) (d) : (attnDat V c).before 2 t d = attnBlk V c 2 t :=
  attnBefore2_of V (attnDat V c) (attnA_eq V c 2) (attnAfter2 V c) t d
theorem attnBefore3 (c : Dev nD) (t : Fin cfg1.N) (d) : (attnDat V c).before 3 t d = attnBlk V c 3 t :=
  attnBefore3_of V (attnDat V c) (attnA_eq V c 3) (attnAfter3 V c) t d

end Cert.KernelIdeal.Hand

end
-- ==== Proof.KI.AttnBody.lean ====
/-
  The attention kernel's body obligation: at a generic grid point the closed forms of the two conditions say which case the
  point is in; the inputs' buffers hold their blocks; the invariant hands the body the scratch buffers at what the point
  before left (at anything before the first point) and takes them back at this point's contents; the output window is
  handed back untouched where it is idle and at the stored tile at a last key tile.
-/
import proofs.«166967_j31688268710357_2_alg».proof.Proof.KI.Attn

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def attnBodyPre (c : Dev nD) (t : Fin cfg1.N) : sProp 𝕄 :=
  iprop((attnDat V c).Φ t.castSucc ∗ (attnDat V c).owesAt () t.castSucc
    ∗ (∃ d, owns (c : Thread nD τ) (attnM0 t) fullShare ((attnDat V c).before 0 t d))
    ∗ (∃ d, owns (c : Thread nD τ) (attnM1 t) fullShare ((attnDat V c).before 1 t d))
    ∗ (∃ d, owns (c : Thread nD τ) (attnM2 t) fullShare ((attnDat V c).before 2 t d))
    ∗ (∃ d, owns (c : Thread nD τ) (attnM3 t) fullShare ((attnDat V c).before 3 t d))
    ∗ (∃ d, owns (c : Thread nD τ) (attnM4 t) fullShare ((attnDat V c).before 4 t d)))

/-- and what it returns. -/
def attnBodyPost (c : Dev nD) (t : Fin cfg1.N) : sProp 𝕄 :=
  iprop((attnDat V c).Φ t.succ ∗ (attnDat V c).owesAt () t.succ
    ∗ (attnDat V c).leavesExact 0 t
    ∗ (attnDat V c).leavesExact 1 t
    ∗ (attnDat V c).leavesExact 2 t
    ∗ (attnDat V c).leavesExact 3 t
    ∗ (attnDat V c).leavesExact 4 t)

set_option maxHeartbeats 8000000 in
theorem attnSoundBody (c : Dev nD) (t : Fin cfg1.N) :
    attnBodyPre V c t ⊢ wp frame (wpE (defs₀ (F := F)) Variants.none c none) Set.univ (bodyAt1 t) (fun _ => attnBodyPost V c t) := by
  unfold attnBodyPre attnBodyPost bodyAt1
  simp only [attnBefore0, attnBefore1, attnBefore2, attnBefore3]
  rw [show (attnDat V c).owesAt () t.succ = (attnDat V c).owesAt () t.castSucc from rfl]
  rw [show (attnDat V c).Φ t.succ = attnPhi V c (t.val + 1) t.isLt from rfl, attnPhi_succ]
  have hN : t.val < 64 := lt_of_lt_of_eq t.isLt (show cfg1.N = 64 from N_1)
  rw [show (attnDat V c).leavesExact 0 t = owns (c : Thread nD τ) (attnM0 t) fullShare ((attnDat V c).after 0 t) from by
    unfold Dat.leavesExact; rw [attnLive0 t], attnAfter0]
  rw [show (attnDat V c).leavesExact 1 t = owns (c : Thread nD τ) (attnM1 t) fullShare ((attnDat V c).after 1 t) from by
    unfold Dat.leavesExact; rw [attnLive1 t], attnAfter1]
  rw [show (attnDat V c).leavesExact 2 t = owns (c : Thread nD τ) (attnM2 t) fullShare ((attnDat V c).after 2 t) from by
    unfold Dat.leavesExact; rw [attnLive2 t], attnAfter2]
  rw [show (attnDat V c).leavesExact 3 t = owns (c : Thread nD τ) (attnM3 t) fullShare ((attnDat V c).after 3 t) from by
    unfold Dat.leavesExact; rw [attnLive3 t], attnAfter3]
  by_cases h0 : t.val % 8 = 0
  · have h1 : ¬t.val % 8 = 7 := by omega
    rw [Dat.leavesExact_idle (attnDat V c) 4 t (attnIdleOut t (fun h => h1 ((attnLast_iff t).mp h))) (attnNoFlush t (fun h => h1 ((attnLast_iff t).mp h)))]
    rw [attnOuts_first V c t h0 h1]
    unfold attnAtA attnMaxA attnDenA attnAccA; (try dsimp only)
    by_cases hz : t.val = 0
    · rw [attnPhi_castSucc V c t, attnPhi_zero V c _ _ hz, attnInv_plain]; unfold attnInv
      iintro ⟨⟨⟨A0, A1, A2, A3, A4, A5, A6, A7, A8, A9, A10, A11, A12, A13, HS0, HS1, HS2⟩, Hg⟩, Ho, ⟨%d0, H0⟩, ⟨%d1, H1⟩, ⟨%d2, H2⟩, ⟨%d3, H3⟩, ⟨%d4, H4⟩⟩
      iapply ((attnRunA c (grid1.coords t) _ _ _ _ _ _ _ _ _ _ _ _ _ _ _ _ ((attnFirst_iff t).mpr h0) (fun h => h1 ((attnLast_iff t).mp h)) (attnBlk V c 0 t) (attnBlk V c 1 t) (attnBlk V c 2 t) (attnBlk V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [A0 A1 A2 A3 A4 A5 A6 A7 A8 A9 A10 A11 A12 A13 HS0 HS1 HS2 Hg]
      · isplitl [A0 A1 A2 A3 A4 A5 A6 A7 A8 A9 A10 A11 A12 A13 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (attnCoverMaxA c _ _ _ _ _ _ _ _ _ _ _ _ _ _ _ _ _ _ _ _ _ _ _)
          isplitl [HS1]
          · unfold owns; iexists _; isplitr
            swap; · iexact HS1
            ipureintro; exact View.read_writes_of_cover _ _ _ _ _ (attnCoverDenA c _ _ _ _ _ _ _ _ _ _ _ _ _ _ _ _ _ _ _ _ _ _ _)
          unfold owns; iexists _; isplitr
          swap; · iexact HS2
          ipureintro; exact View.read_writes_of_cover _ _ _ _ _ (attnCoverAccA c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [attnPhi_castSucc V c t, attnPhi_pos V c _ _ hz]; unfold attnInv
      iintro ⟨⟨⟨A0, A1, A2, A3, A4, A5, A6, A7, A8, A9, A10, A11, A12, A13, HS0, HS1, HS2⟩, Hg⟩, Ho, ⟨%d0, H0⟩, ⟨%d1, H1⟩, ⟨%d2, H2⟩, ⟨%d3, H3⟩, ⟨%d4, H4⟩⟩
      iapply ((attnRunA c (grid1.coords t) _ _ _ _ _ _ _ _ _ _ _ _ _ _ _ _ ((attnFirst_iff t).mpr h0) (fun h => h1 ((attnLast_iff t).mp h)) (attnBlk V c 0 t) (attnBlk V c 1 t) (attnBlk V c 2 t) (attnBlk V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [A0 A1 A2 A3 A4 A5 A6 A7 A8 A9 A10 A11 A12 A13 HS0 HS1 HS2 Hg]
      · isplitl [A0 A1 A2 A3 A4 A5 A6 A7 A8 A9 A10 A11 A12 A13 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (attnCoverMaxA c _ _ _ _ _ _ _ _ _ _ _ _ _ _ _ _ _ _ _ _ _ _ _)
          isplitl [HS1]
          · unfold owns; iexists _; isplitr
            swap; · iexact HS1
            ipureintro; exact View.read_writes_of_cover _ _ _ _ _ (attnCoverDenA c _ _ _ _ _ _ _ _ _ _ _ _ _ _ _ _ _ _ _ _ _ _ _)
          unfold owns; iexists _; isplitr
          swap; · iexact HS2
          ipureintro; exact View.read_writes_of_cover _ _ _ _ _ (attnCoverAccA c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 8 = 7
    · rw [show (attnDat V c).leavesExact 4 t = owns (c : Thread nD τ) (attnM4 t) fullShare ((attnDat V c).after 4 t) from by
        unfold Dat.leavesExact; rw [attnLiveOut t ((attnLast_iff t).mpr h1)], attnAfter4]
      rw [attnOuts_last V c t h0 h1]
      unfold attnAtC attnOutC attnMaxC attnDenC attnAccC; (try dsimp only)
      rw [attnPhi_castSucc V c t, attnPhi_pos V c _ _ hz]; unfold attnInv
      iintro ⟨⟨⟨A0, A1, A2, A3, A4, A5, A6, A7, A8, A9, A10, A11, A12, A13, HS0, HS1, HS2⟩, Hg⟩, Ho, ⟨%d0, H0⟩, ⟨%d1, H1⟩, ⟨%d2, H2⟩, ⟨%d3, H3⟩, ⟨%d4, H4⟩⟩
      iapply ((attnRunC c (grid1.coords t) _ _ _ _ _ _ _ _ _ _ _ _ _ _ _ _ (fun h => h0 ((attnFirst_iff t).mp h)) ((attnLast_iff t).mpr h1) (attnBlk V c 0 t) (attnBlk V c 1 t) (attnBlk V c 2 t) (attnBlk V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [A0 A1 A2 A3 A4 A5 A6 A7 A8 A9 A10 A11 A12 A13 HS0 HS1 HS2 Hg]
      · isplitl [A0 A1 A2 A3 A4 A5 A6 A7 A8 A9 A10 A11 A12 A13 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (attnCoverMaxC c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCoverDenC c _ _ _ _ _ _ _ _ _ _ _ _ _ _ _ _ _ _ _ _ _ _ _ _ _ _)
          unfold owns; iexists _; isplitr
          swap; · iexact HS2
          ipureintro; exact View.read_writes_of_cover _ _ _ _ _ (attnCoverAccC c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (attnCoverOutC c _ _ _ _ _ _ _ _ _ _ _ _ _ _ _ _ _ _ _ _ _ _ _ _ _ _)
    · rw [Dat.leavesExact_idle (attnDat V c) 4 t (attnIdleOut t (fun h => h1 ((attnLast_iff t).mp h))) (attnNoFlush t (fun h => h1 ((attnLast_iff t).mp h)))]
      rw [attnOuts_middle V c t h0 h1]
      unfold attnAtB attnMaxB attnDenB attnAccB; (try dsimp only)
      rw [attnPhi_castSucc V c t, attnPhi_pos V c _ _ hz]; unfold attnInv
      iintro ⟨⟨⟨A0, A1, A2, A3, A4, A5, A6, A7, A8, A9, A10, A11, A12, A13, HS0, HS1, HS2⟩, Hg⟩, Ho, ⟨%d0, H0⟩, ⟨%d1, H1⟩, ⟨%d2, H2⟩, ⟨%d3, H3⟩, ⟨%d4, H4⟩⟩
      iapply ((attnRunB c (grid1.coords t) _ _ _ _ _ _ _ _ _ _ _ _ _ _ _ _ (fun h => h0 ((attnFirst_iff t).mp h)) (fun h => h1 ((attnLast_iff t).mp h)) (attnBlk V c 0 t) (attnBlk V c 1 t) (attnBlk V c 2 t) (attnBlk V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [A0 A1 A2 A3 A4 A5 A6 A7 A8 A9 A10 A11 A12 A13 HS0 HS1 HS2 Hg]
      · isplitl [A0 A1 A2 A3 A4 A5 A6 A7 A8 A9 A10 A11 A12 A13 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [A12]; · iexact A12
          isplitl [A13]; · iexact A13
          isplitl [HS0]
          · unfold owns; iexists _; isplitr
            swap; · iexact HS0
            ipureintro; exact View.read_writes_of_cover _ _ _ _ _ (attnCoverMaxB c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCoverDenB c _ _ _ _ _ _ _ _ _ _ _ _ _ _ _ _ _ _ _ _ _ _ _ _ _ _)
          unfold owns; iexists _; isplitr
          swap; · iexact HS2
          ipureintro; exact View.read_writes_of_cover _ _ _ _ _ (attnCoverAccB c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem attnObligation (c : Dev nD) : BodyObligation (attnDat (F := F) V c) (defs₀ (F := F)) Variants.none () Set.univ := fun t => by
  rw [bigSep_W1, bigSep_W1]
  exact attnSoundBody V c t

/-- What the launch hands the region is the invariant before the first point. -/
theorem attnPhi_in (c : Dev nD) : Pipeline.ΦA spec1 c ⊢ (attnDat V c).Φ 0 := by
  rw [show (attnDat V c).Φ 0 = attnPhi V c 0 (Nat.zero_le _) from rfl, attnPhi_zero V c 0 _ rfl]
  try exact Idealize.SL.BI.Entails.refl _

/-- After any point but the first the invariant gives the plain one back: the scratch buffers' named contents are forgotten. -/
theorem attnPhi_forget (c : Dev nD) (t : Fin (cfg1.N + 1)) (ht : t.val ≠ 0) : (attnDat V c).Φ t ⊢ Pipeline.ΦA spec1 c := by
  rw [show (attnDat V c).Φ t = attnPhi V c t.val (Nat.le_of_lt_succ t.isLt) from rfl, attnPhi_pos V c _ _ ht, attnInv_plain]; unfold attnInv
  iintro ⟨⟨A0, A1, A2, A3, A4, A5, A6, A7, A8, A9, A10, A11, A12, A13, HS0, HS1, HS2⟩, Hg⟩
  isplitl [A0 A1 A2 A3 A4 A5 A6 A7 A8 A9 A10 A11 A12 A13 HS0 HS1 HS2]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [HS0]; · iexists _; iexact HS0
    isplitl [HS1]; · iexists _; iexact HS1
    iexists _; iexact HS2
  iexact Hg

/-- The same after the last point. -/
theorem attnPhi_out (c : Dev nD) : (attnDat V c).Φ (Fin.last cfg1.N) ⊢ Pipeline.ΦA spec1 c :=
  attnPhi_forget V c _ (by rw [Fin.val_last]; have : cfg1.N = 64 := N_1; omega)

end Cert.KernelIdeal.Hand

end
-- ==== Proof.KI.Run.lean ====
/-
  The whole program as two kernel regions in sequence, from the launch to the return.

  The TensorCore's unscoped buffers are followed through the program: as launched; after the projection kernel (its three
  output arrays h, e1, e2ᵀ at what its write-backs leave, everything else as before); after the attention kernel (its output
  array at what its write-backs leave). Each kernel is entered from all unscoped buffers at the boundary's contents and left
  at the next boundary's; the run ends with every unscoped buffer at the last boundary's contents, from which both the
  unchanged arguments and the result array are read.
-/
import proofs.«166967_j31688268710357_2_alg».proof.Proof.KI.Prep
import proofs.«166967_j31688268710357_2_alg».proof.Proof.KI.AttnBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev startAt : Dev nD → Valuation τ sig (Elt F) := fun c b => m ((c : Dev nD), b)
abbrev startV : (c : Dev nD) → (b : Ref sig .tc) → Buf (Elt F) ((c : Thread nD τ).loc b) := fun c b => startAt m c b
/-- After the projection kernel: its arrays at what the pipeline leaves, every other buffer as launched. -/
def midAt (c : Dev nD) : Valuation τ sig (Elt F) :=
  Pipeline.withArrays spec0 c (startAt m c) fun w => (prepDat (startV m) c).arrAt w cfg0.N
theorem midAt_arr (c : Dev nD) (w : Fin cfg0.W) :
    midAt m c (Proc.devRef .tc (Pipeline.arrRef spec0 w)) = (prepDat (startV m) c).arrAt w cfg0.N := by
  unfold midAt; exact Pipeline.withArrays_arr spec0 launch0.win.arr_inj c _ _ w
theorem midAt_of_ne (c : Dev nD) (b : Ref sig .tc) (hb : ∀ w, Pipeline.arrRef spec0 w ≠ b) :
    midAt m c (Proc.devRef .tc b) = startAt m c (Proc.devRef .tc b) := by
  unfold midAt; exact Pipeline.withArrays_of_ne spec0 c _ _ b hb
abbrev midV : (c : Dev nD) → (b : Ref sig .tc) → Buf (Elt F) ((c : Thread nD τ).loc b) := fun c b => midAt m c b
theorem midFinal (c : Dev nD) (w : Fin cfg0.W) : (prepDat (startV m) c).arrAt w cfg0.N = midV m c (Pipeline.arrRef spec0 w) :=
  (midAt_arr m c w).symm
theorem midRest (c : Dev nD) : ∀ b, b ∉ Finset.univ.image (Pipeline.arrRef spec0) → midV m c b = startV m c b :=
  fun b hb => midAt_of_ne m c b fun w e => hb (Finset.mem_image.mpr ⟨w, Finset.mem_univ _, e⟩)

/-- After the attention kernel: its arrays at what the pipeline leaves, every other buffer as before it. -/
def endAt (c : Dev nD) : Valuation τ sig (Elt F) :=
  Pipeline.withArrays spec1 c (midAt m c) fun w => (attnDat (midV m) c).arrAt w cfg1.N
theorem endAt_arr (c : Dev nD) (w : Fin cfg1.W) :
    endAt m c (Proc.devRef .tc (Pipeline.arrRef spec1 w)) = (attnDat (midV m) c).arrAt w cfg1.N := by
  unfold endAt; exact Pipeline.withArrays_arr spec1 launch1.win.arr_inj c _ _ w
theorem endAt_of_ne (c : Dev nD) (b : Ref sig .tc) (hb : ∀ w, Pipeline.arrRef spec1 w ≠ b) :
    endAt m c (Proc.devRef .tc b) = midAt m c (Proc.devRef .tc b) := by
  unfold endAt; exact Pipeline.withArrays_of_ne spec1 c _ _ b hb
abbrev endV : (c : Dev nD) → (b : Ref sig .tc) → Buf (Elt F) ((c : Thread nD τ).loc b) := fun c b => endAt m c b
theorem endFinal (c : Dev nD) (w : Fin cfg1.W) : (attnDat (midV m) c).arrAt w cfg1.N = endV m c (Pipeline.arrRef spec1 w) :=
  (endAt_arr m c w).symm
theorem endRest (c : Dev nD) : ∀ b, b ∉ Finset.univ.image (Pipeline.arrRef spec1) → endV m c b = midV m c b :=
  fun b hb => endAt_of_ne m c b fun w e => hb (Finset.mem_image.mpr ⟨w, Finset.mem_univ _, e⟩)

/-! ## The arguments end as launched -/

/-- `main_arg0` ends as launched: the projection kernel only reads it, the attention kernel never sees it. -/
theorem endAt_main_arg0 (c : Dev nD) : endAt m c (Proc.devRef .tc main_arg0) = m ((c : Thread nD τ).loc main_arg0) :=
  calc endAt m c (Proc.devRef .tc main_arg0)
    _ = midAt m c (Proc.devRef .tc main_arg0) := endAt_of_ne m c main_arg0 (by decide)
    _ = startAt m c (Proc.devRef .tc main_arg0) := (midAt_arr m c 0).trans (((prepDat (startV m) c).arrAt_in 0 rfl _).trans (prepA_eq (startV m) c 0))
    _ = m ((c : Thread nD τ).loc main_arg0) := rfl

/-- The adjacency array ends as launched: the attention kernel only reads it, the projection kernel never sees it. -/
theorem endAt_main_arg1 (c : Dev nD) : endAt m c (Proc.devRef .tc main_arg1) = m ((c : Thread nD τ).loc main_arg1) :=
  calc endAt m c (Proc.devRef .tc main_arg1)
    _ = midAt m c (Proc.devRef .tc main_arg1) := (endAt_arr m c 0).trans (((attnDat (midV m) c).arrAt_in 0 rfl _).trans (attnA_eq (midV m) c 0))
    _ = startAt m c (Proc.devRef .tc main_arg1) := midAt_of_ne m c main_arg1 (by decide)
    _ = m ((c : Thread nD τ).loc main_arg1) := rfl

/-- `main_arg2` ends as launched: the projection kernel only reads it, the attention kernel never sees it. -/
theorem endAt_main_arg2 (c : Dev nD) : endAt m c (Proc.devRef .tc main_arg2) = m ((c : Thread nD τ).loc main_arg2) :=
  calc endAt m c (Proc.devRef .tc main_arg2)
    _ = midAt m c (Proc.devRef .tc main_arg2) := endAt_of_ne m c main_arg2 (by decide)
    _ = startAt m c (Proc.devRef .tc main_arg2) := (midAt_arr m c 1).trans (((prepDat (startV m) c).arrAt_in 1 rfl _).trans (prepA_eq (startV m) c 1))
    _ = m ((c : Thread nD τ).loc main_arg2) := rfl

/-- `main_arg3` ends as launched: the projection kernel only reads it, the attention kernel never sees it. -/
theorem endAt_main_arg3 (c : Dev nD) : endAt m c (Proc.devRef .tc main_arg3) = m ((c : Thread nD τ).loc main_arg3) :=
  calc endAt m c (Proc.devRef .tc main_arg3)
    _ = midAt m c (Proc.devRef .tc main_arg3) := endAt_of_ne m c main_arg3 (by decide)
    _ = startAt m c (Proc.devRef .tc main_arg3) := (midAt_arr m c 2).trans (((prepDat (startV m) c).arrAt_in 2 rfl _).trans (prepA_eq (startV m) c 2))
    _ = m ((c : Thread nD τ).loc main_arg3) := rfl

/-- `main_arg4` ends as launched: the projection kernel only reads it, the attention kernel never sees it. -/
theorem endAt_main_arg4 (c : Dev nD) : endAt m c (Proc.devRef .tc main_arg4) = m ((c : Thread nD τ).loc main_arg4) :=
  calc endAt m c (Proc.devRef .tc main_arg4)
    _ = midAt m c (Proc.devRef .tc main_arg4) := endAt_of_ne m c main_arg4 (by decide)
    _ = startAt m c (Proc.devRef .tc main_arg4) := (midAt_arr m c 3).trans (((prepDat (startV m) c).arrAt_in 3 rfl _).trans (prepA_eq (startV m) c 3))
    _ = m ((c : Thread nD τ).loc main_arg4) := rfl

/-- `main_arg5` ends as launched: the projection kernel only reads it, the attention kernel never sees it. -/
theorem endAt_main_arg5 (c : Dev nD) : endAt m c (Proc.devRef .tc main_arg5) = m ((c : Thread nD τ).loc main_arg5) :=
  calc endAt m c (Proc.devRef .tc main_arg5)
    _ = midAt m c (Proc.devRef .tc main_arg5) := endAt_of_ne m c main_arg5 (by decide)
    _ = startAt m c (Proc.devRef .tc main_arg5) := (midAt_arr m c 4).trans (((prepDat (startV m) c).arrAt_in 4 rfl _).trans (prepA_eq (startV m) c 4))
    _ = m ((c : Thread nD τ).loc main_arg5) := rfl

/-- `main_arg6` ends as launched: the projection kernel only reads it, the attention kernel never sees it. -/
theorem endAt_main_arg6 (c : Dev nD) : endAt m c (Proc.devRef .tc main_arg6) = m ((c : Thread nD τ).loc main_arg6) :=
  calc endAt m c (Proc.devRef .tc main_arg6)
    _ = midAt m c (Proc.devRef .tc main_arg6) := endAt_of_ne m c main_arg6 (by decide)
    _ = startAt m c (Proc.devRef .tc main_arg6) := (midAt_arr m c 5).trans (((prepDat (startV m) c).arrAt_in 5 rfl _).trans (prepA_eq (startV m) c 5))
    _ = m ((c : Thread nD τ).loc main_arg6) := rfl

/-- `main_arg7` ends as launched: the projection kernel only reads it, the attention kernel never sees it. -/
theorem endAt_main_arg7 (c : Dev nD) : endAt m c (Proc.devRef .tc main_arg7) = m ((c : Thread nD τ).loc main_arg7) :=
  calc endAt m c (Proc.devRef .tc main_arg7)
    _ = midAt m c (Proc.devRef .tc main_arg7) := endAt_of_ne m c main_arg7 (by decide)
    _ = startAt m c (Proc.devRef .tc main_arg7) := (midAt_arr m c 6).trans (((prepDat (startV m) c).arrAt_in 6 rfl _).trans (prepA_eq (startV m) c 6))
    _ = m ((c : Thread nD τ).loc main_arg7) := rfl

/-! ## The proof data family and the thread state -/

abbrev adm : (p : Fin 2) → (pcfgs (F := F) p).Adm := fun p => (cfgs p).toPCfg_adm
/-- Each kernel's proof data at its entry contents. -/
def pdats : (p : Fin 2) → (c : Dev nD) → Dat τ (Elt F) Unit ℕ (UR sig nD τ) ℕ (Pipeline.pin (pcfgs (F := F)) adm p) c
  | ⟨0, _⟩ => fun c => prepDat (startV m) c
  | ⟨1, _⟩ => fun c => attnDat (midV m) c
abbrev noVariants : Variants := Variants.none
abbrev noLevels : GSem nD τ sig → Finset Unit := fun _ => ∅
abbrev levelZero : GSem nD τ sig → Unit → ℕ := fun _ _ => 0
/-- What rides beside the buffers through both kernels: the generator register at some state and the core owing nothing. -/
abbrev beside (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev lastState (c : Dev nD) : sProp 𝕄 := iprop(StableHlo.held (c : Thread nD τ) (Pipeline.ucRefs τ sig) (endAt m c) ∗ ∃ r, prngReg c r)

/-! ## The two kernels as segments -/

/-- The generator register, anything, and the scoped buffers no window stages make the plain invariant, -/
theorem plainIn (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp
/-- and the plain invariant gives them back. -/
theorem plainOut (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The projection kernel over the thread state: entered from every unscoped buffer as launched, left with its three output
    arrays written. -/
def prepSeg : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (prepObligation (startV m) c).loose
  hwaits := Pipeline.hwaits_of_owed_zero _ _ _ _ noLevels levelZero 0 fun _ _ => rfl
  pre c := iprop(StableHlo.held (c : Thread nD τ) (Pipeline.ucRefs τ sig) (startAt m c) ∗ beside c)
  post c := iprop(StableHlo.held (c : Thread nD τ) (Pipeline.ucRefs τ sig) (midAt m c) ∗ beside c)
  X c := iprop(∃ r, prngReg c r)
  Y c := iprop(∃ r, prngReg c r)
  Z c := Pipeline.unscopedRest (Ix := Unit) (Name := ℕ) (U := UR sig nD τ) (Lvl := ℕ) spec0 c (startV m c)
  hentry c := by
    rw [Pipeline.ownSems0_none]
    have hsplit := Pipeline.arrays_of_unscopedBufs (p := 0) (pcfgs (F := F)) adm (pdats m) launch0.win launch0.arr_whole c
      ((pdats m 0 c).share_full fun _ => rfl) (startV m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (startV m c) (midV m c) ((pdats m 0 c).arrAt · cfg0.N) (midFinal m c) (midRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer as the projection kernel left them, left
    with its output array written. Its invariant starts as the plain one and gives the plain one back at the end. -/
def attnSeg : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (attnObligation (midV m) c).loose
  hwaits := Pipeline.hwaits_of_owed_zero _ _ _ _ noLevels levelZero 1 fun _ _ => rfl
  pre c := iprop(StableHlo.held (c : Thread nD τ) (Pipeline.ucRefs τ sig) (midAt m c) ∗ beside c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (midV m c)
  hentry c := by
    rw [Pipeline.ownSems0_none]
    have hsplit := Pipeline.arrays_of_unscopedBufs (p := 1) (pcfgs (F := F)) adm (pdats m) launch1.win launch1.arr_whole c
      ((pdats m 1 c).share_full fun _ => rfl) (midV m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (plainIn c _).trans (attnPhi_in (midV m) c)
  hout c := by
    rw [Pipeline.ownSems0_none]
    exact (attnPhi_out (midV m) c).trans (plainOut c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (midV m c) (endV m c) ((pdats m 1 c).arrAt · cfg1.N) (endFinal m c) (endRest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ noVariants noLevels levelZero) :=
  [ .region (prepSeg m), .region (attnSeg m) ]

theorem main_run (c : Dev nD) : main (F := F) c = Pipeline.Seg.run (segs m) := (main_chain c).trans (by chain_rfl)

set_option backward.isDefEq.respectTransparency.types false in
/-- THE RUN. From any memory with zero counters, every weakly fair execution of the program on the TensorCores terminates,
    nothing faulting, and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = endAt m c b) :=
  Pipeline.θ_run_regions_kit (pcfgs (F := F)) adm (pdats m) () cellOf_inj emb₁ defs₀ noVariants noLevels levelZero m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (startAt m c) ∗ beside c)) (Tₙ := lastState m)
    (hch := ⟨fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (startAt m c)
        from Pipeline.unscopedBufs_held c (startAt m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = endAt m c b)
    (hfin := fun c s' => by
      iintro ⟨⟨Hh, -⟩, HSI⟩
      unfold StableHlo.held
      imodintro
      iapply (pointsTo_read_all (Pipeline.ucRefs τ sig) (fun b => (((c : Thread nD τ)).1, b)) (endAt m c) s')
      isplitl [Hh] <;> iassumption)
    (hQ := fun _ h => h)

/-- The run read at the result array and at the arguments: the result array ends at what the attention kernel's write-backs leave,
    every argument array as launched. -/
theorem runValue : θ_run defs (onTc (τ := τ) (main (F := F))) ⟨m, fun _ => 0, ρ⟩ (fun r => ∀ c : Dev nD,
      r.2.mem ((c.tc : Thread nD τ).loc main_v1) = (attnDat (midV m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v1 (by decide))).trans (endAt_arr m c 4),
      (h c _ (mem_uc main_arg0 (by decide))).trans (endAt_main_arg0 m c),
      (h c _ (mem_uc main_arg1 (by decide))).trans (endAt_main_arg1 m c),
      (h c _ (mem_uc main_arg2 (by decide))).trans (endAt_main_arg2 m c),
      (h c _ (mem_uc main_arg3 (by decide))).trans (endAt_main_arg3 m c),
      (h c _ (mem_uc main_arg4 (by decide))).trans (endAt_main_arg4 m c),
      (h c _ (mem_uc main_arg5 (by decide))).trans (endAt_main_arg5 m c),
      (h c _ (mem_uc main_arg6 (by decide))).trans (endAt_main_arg6 m c),
      (h c _ (mem_uc main_arg7 (by decide))).trans (endAt_main_arg7 m c)⟩) (run m ρ)

/-- THE FRAME: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (runValue m ρ)

end Cert.KernelIdeal.Hand

end
-- ==== Proof.LibColumn.lean ====
/-
  Two layout operations of a keepdims reduction read at an index: a vector `[a]` recast as a column `[a, 1]`, and a
  column `[a, 1]` broadcast along its rows to `[a, b]`. Both read the operand at the row's coordinate.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.PrepValuePay.lean ====
/-
  The projection kernel's arithmetic, read at an index over the extended reals.

  At one grid point the kernel holds a block x of 1024 rows of X, and the whole of W, b, we, be. Its three stored values are
  h = x Wᵀ + b (stored after a change of float format, which is the identity here), the column h we1 + be1, and the row
  (h we2 + be2)ᵀ computed as we2ᵀ hᵀ + be2. This module reads each of them at an index: a matrix product into a zero
  accumulator is the sum over the contracted coordinate of the operands' products, a bias recast and broadcast reads
  the bias at the surviving coordinate, and the addition is pointwise.
-/
import proofs.«166967_j31688268710357_2_alg».proof.Proof.Gen.KernelIdeal.Skeleton
import proofs.«166967_j31688268710357_2_alg».proof.Proof.LibColumn
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The three matrix products at an index

For each product: the operand coordinates an output index and a contraction coordinate name, one axis at a time, then the
product into a zero accumulator as the sum over the contracted coordinate. -/

/-- In x Wᵀ the left operand's free coordinate is the output's first coordinate. -/
theorem dotXWt_lhsFree (i : S1024x256.Idx) (κ : dot_S1024x256_S256x256_S1024x256_1_1_0_0_n_n.contr.Idx) :
    (dot_S1024x256_S256x256_S1024x256_1_1_0_0_n_n.lhsIdx i κ 0).val = (i 0).val := by
  unfold DotDims.lhsIdx
  rw [dif_neg (show ¬(0 : Fin S1024x256.rank) ∈ dot_S1024x256_S256x256_S1024x256_1_1_0_0_n_n.lhsBatch by decide),
    dif_pos (show (0 : Fin S1024x256.rank) ∈ dot_S1024x256_S256x256_S1024x256_1_1_0_0_n_n.lhsNonContracting by decide)]
  rfl
/-- In x Wᵀ the right operand's free coordinate is the output's second coordinate. -/
theorem dotXWt_rhsFree (i : S1024x256.Idx) (κ : dot_S1024x256_S256x256_S1024x256_1_1_0_0_n_n.contr.Idx) :
    (dot_S1024x256_S256x256_S1024x256_1_1_0_0_n_n.rhsIdx i κ 0).val = (i 1).val := by
  unfold DotDims.rhsIdx
  rw [dif_neg (show ¬(0 : Fin S256x256.rank) ∈ dot_S1024x256_S256x256_S1024x256_1_1_0_0_n_n.rhsBatch by decide),
    dif_pos (show (0 : Fin S256x256.rank) ∈ dot_S1024x256_S256x256_S1024x256_1_1_0_0_n_n.rhsNonContracting by decide)]
  rfl
/-- In x Wᵀ the left operand's contracted coordinate is the contraction coordinate. -/
theorem dotXWt_lhsContr (i : S1024x256.Idx) (κ : dot_S1024x256_S256x256_S1024x256_1_1_0_0_n_n.contr.Idx) :
    (dot_S1024x256_S256x256_S1024x256_1_1_0_0_n_n.lhsIdx i κ 1).val = (κ ⟨0, by decide⟩).val :=
  dot_S1024x256_S256x256_S1024x256_1_1_0_0_n_n.lhsIdx_val_of_single rfl i κ
/-- In x Wᵀ the right operand's contracted coordinate is the contraction coordinate. -/
theorem dotXWt_rhsContr (i : S1024x256.Idx) (κ : dot_S1024x256_S256x256_S1024x256_1_1_0_0_n_n.contr.Idx) :
    (dot_S1024x256_S256x256_S1024x256_1_1_0_0_n_n.rhsIdx i κ 1).val = (κ ⟨0, by decide⟩).val :=
  dot_S1024x256_S256x256_S1024x256_1_1_0_0_n_n.rhsIdx_val_of_single rfl i κ

/-- x Wᵀ at (p, q): both operands are contracted along their second coordinate, so the entry is Σ_k x(p, k) · W(q, k). -/
theorem dotXWt_apply (l : FVec Ideal S1024x256 .f32) (r : FVec Ideal S256x256 .f32) (p : Fin 1024) (q : Fin 256) :
    matmul dot_S1024x256_S256x256_S1024x256_1_1_0_0_n_n none l r (constant S1024x256 .f32 0x00000000#32) (ix2 p q)
      = ∑ k : Fin 256, l (ix2 p k) * r (ix2 q k) := by
  simp only [matmul]
  rw [Ideal.matmul_constant_zero_apply,
    ← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 p q)
      ((contrEquiv1 dot_S1024x256_S256x256_S1024x256_1_1_0_0_n_n 256 rfl rfl).symm k) = ix2 p k := funext fun a => Fin.ext (by
    match a with
    | ⟨0, _⟩ => exact dotXWt_lhsFree _ _
    | ⟨1, _⟩ => exact (dotXWt_lhsContr _ _).trans hk)
  have er : dot_S1024x256_S256x256_S1024x256_1_1_0_0_n_n.rhsIdx (ix2 p q)
      ((contrEquiv1 dot_S1024x256_S256x256_S1024x256_1_1_0_0_n_n 256 rfl rfl).symm k) = ix2 q k := funext fun a => Fin.ext (by
    match a with
    | ⟨0, _⟩ => exact dotXWt_rhsFree _ _
    | ⟨1, _⟩ => exact (dotXWt_rhsContr _ _).trans hk)
  rw [el, er]

/-- In h we the left operand's free coordinate is the output's first coordinate. -/
theorem dotHCol_lhsFree (i : S1024x1.Idx) (κ : dot_S1024x256_S256x1_S1024x1_1_0_0_1_n_n.contr.Idx) :
    (dot_S1024x256_S256x1_S1024x1_1_0_0_1_n_n.lhsIdx i κ 0).val = (i 0).val := by
  unfold DotDims.lhsIdx
  rw [dif_neg (show ¬(0 : Fin S1024x256.rank) ∈ dot_S1024x256_S256x1_S1024x1_1_0_0_1_n_n.lhsBatch by decide),
    dif_pos (show (0 : Fin S1024x256.rank) ∈ dot_S1024x256_S256x1_S1024x1_1_0_0_1_n_n.lhsNonContracting by decide)]
  rfl
/-- In h we the right operand's free coordinate is the output's second coordinate. -/
theorem dotHCol_rhsFree (i : S1024x1.Idx) (κ : dot_S1024x256_S256x1_S1024x1_1_0_0_1_n_n.contr.Idx) :
    (dot_S1024x256_S256x1_S1024x1_1_0_0_1_n_n.rhsIdx i κ 1).val = (i 1).val := by
  unfold DotDims.rhsIdx
  rw [dif_neg (show ¬(1 : Fin S256x1.rank) ∈ dot_S1024x256_S256x1_S1024x1_1_0_0_1_n_n.rhsBatch by decide),
    dif_pos (show (1 : Fin S256x1.rank) ∈ dot_S1024x256_S256x1_S1024x1_1_0_0_1_n_n.rhsNonContracting by decide)]
  rfl
/-- In h we the left operand's contracted coordinate is the contraction coordinate. -/
theorem dotHCol_lhsContr (i : S1024x1.Idx) (κ : dot_S1024x256_S256x1_S1024x1_1_0_0_1_n_n.contr.Idx) :
    (dot_S1024x256_S256x1_S1024x1_1_0_0_1_n_n.lhsIdx i κ 1).val = (κ ⟨0, by decide⟩).val :=
  dot_S1024x256_S256x1_S1024x1_1_0_0_1_n_n.lhsIdx_val_of_single rfl i κ
/-- In h we the right operand's contracted coordinate is the contraction coordinate. -/
theorem dotHCol_rhsContr (i : S1024x1.Idx) (κ : dot_S1024x256_S256x1_S1024x1_1_0_0_1_n_n.contr.Idx) :
    (dot_S1024x256_S256x1_S1024x1_1_0_0_1_n_n.rhsIdx i κ 0).val = (κ ⟨0, by decide⟩).val :=
  dot_S1024x256_S256x1_S1024x1_1_0_0_1_n_n.rhsIdx_val_of_single rfl i κ

/-- h we at (p, 0): the entry is Σ_d h(p, d) · we(d, 0). -/
theorem dotHCol_apply (l : FVec Ideal S1024x256 .f32) (r : FVec Ideal S256x1 .f32) (p : Fin 1024) (u : Fin 1) :
    matmul dot_S1024x256_S256x1_S1024x1_1_0_0_1_n_n none l r (constant S1024x1 .f32 0x00000000#32) (ix2 p u)
      = ∑ d : Fin 256, l (ix2 p d) * r (ix2 d u) := by
  simp only [matmul]
  rw [Ideal.matmul_constant_zero_apply,
    ← Equiv.sum_comp (contrEquiv1 dot_S1024x256_S256x1_S1024x1_1_0_0_1_n_n 256 rfl rfl).symm]
  refine Finset.sum_congr rfl fun d _ => ?_
  have hk := contrEquiv1_symm_val dot_S1024x256_S256x1_S1024x1_1_0_0_1_n_n 256 rfl rfl d
  have el : dot_S1024x256_S256x1_S1024x1_1_0_0_1_n_n.lhsIdx (ix2 p u)
      ((contrEquiv1 dot_S1024x256_S256x1_S1024x1_1_0_0_1_n_n 256 rfl rfl).symm d) = ix2 p d := funext fun a => Fin.ext (by
    match a with
    | ⟨0, _⟩ => exact dotHCol_lhsFree _ _
    | ⟨1, _⟩ => exact (dotHCol_lhsContr _ _).trans hk)
  have er : dot_S1024x256_S256x1_S1024x1_1_0_0_1_n_n.rhsIdx (ix2 p u)
      ((contrEquiv1 dot_S1024x256_S256x1_S1024x1_1_0_0_1_n_n 256 rfl rfl).symm d) = ix2 d u := funext fun a => Fin.ext (by
    match a with
    | ⟨0, _⟩ => exact (dotHCol_rhsContr _ _).trans hk
    | ⟨1, _⟩ => exact dotHCol_rhsFree _ _)
  rw [el, er]

/-- In weᵀ hᵀ the left operand's free coordinate is the output's first coordinate. -/
theorem dotColH_lhsFree (i : S1x1024.Idx) (κ : dot_S256x1_S1024x256_S1x1024_0_1_1_0_n_n.contr.Idx) :
    (dot_S256x1_S1024x256_S1x1024_0_1_1_0_n_n.lhsIdx i κ 1).val = (i 0).val := by
  unfold DotDims.lhsIdx
  rw [dif_neg (show ¬(1 : Fin S256x1.rank) ∈ dot_S256x1_S1024x256_S1x1024_0_1_1_0_n_n.lhsBatch by decide),
    dif_pos (show (1 : Fin S256x1.rank) ∈ dot_S256x1_S1024x256_S1x1024_0_1_1_0_n_n.lhsNonContracting by decide)]
  rfl
/-- In weᵀ hᵀ the right operand's free coordinate is the output's second coordinate. -/
theorem dotColH_rhsFree (i : S1x1024.Idx) (κ : dot_S256x1_S1024x256_S1x1024_0_1_1_0_n_n.contr.Idx) :
    (dot_S256x1_S1024x256_S1x1024_0_1_1_0_n_n.rhsIdx i κ 0).val = (i 1).val := by
  unfold DotDims.rhsIdx
  rw [dif_neg (show ¬(0 : Fin S1024x256.rank) ∈ dot_S256x1_S1024x256_S1x1024_0_1_1_0_n_n.rhsBatch by decide),
    dif_pos (show (0 : Fin S1024x256.rank) ∈ dot_S256x1_S1024x256_S1x1024_0_1_1_0_n_n.rhsNonContracting by decide)]
  rfl
/-- In weᵀ hᵀ the left operand's contracted coordinate is the contraction coordinate. -/
theorem dotColH_lhsContr (i : S1x1024.Idx) (κ : dot_S256x1_S1024x256_S1x1024_0_1_1_0_n_n.contr.Idx) :
    (dot_S256x1_S1024x256_S1x1024_0_1_1_0_n_n.lhsIdx i κ 0).val = (κ ⟨0, by decide⟩).val :=
  dot_S256x1_S1024x256_S1x1024_0_1_1_0_n_n.lhsIdx_val_of_single rfl i κ
/-- In weᵀ hᵀ the right operand's contracted coordinate is the contraction coordinate. -/
theorem dotColH_rhsContr (i : S1x1024.Idx) (κ : dot_S256x1_S1024x256_S1x1024_0_1_1_0_n_n.contr.Idx) :
    (dot_S256x1_S1024x256_S1x1024_0_1_1_0_n_n.rhsIdx i κ 1).val = (κ ⟨0, by decide⟩).val :=
  dot_S256x1_S1024x256_S1x1024_0_1_1_0_n_n.rhsIdx_val_of_single rfl i κ

/-- weᵀ hᵀ at (0, p): the column we is contracted along its first coordinate against h's second, so the entry is
    Σ_d we(d, 0) · h(p, d). -/
theorem dotColH_apply (l : FVec Ideal S256x1 .f32) (r : FVec Ideal S1024x256 .f32) (u : Fin 1) (p : Fin 1024) :
    matmul dot_S256x1_S1024x256_S1x1024_0_1_1_0_n_n none l r (constant S1x1024 .f32 0x00000000#32) (ix2 u p)
      = ∑ d : Fin 256, l (ix2 d u) * r (ix2 p d) := by
  simp only [matmul]
  rw [Ideal.matmul_constant_zero_apply,
    ← Equiv.sum_comp (contrEquiv1 dot_S256x1_S1024x256_S1x1024_0_1_1_0_n_n 256 rfl rfl).symm]
  refine Finset.sum_congr rfl fun d _ => ?_
  have hk := contrEquiv1_symm_val dot_S256x1_S1024x256_S1x1024_0_1_1_0_n_n 256 rfl rfl d
  have el : dot_S256x1_S1024x256_S1x1024_0_1_1_0_n_n.lhsIdx (ix2 u p)
      ((contrEquiv1 dot_S256x1_S1024x256_S1x1024_0_1_1_0_n_n 256 rfl rfl).symm d) = ix2 d u := funext fun a => Fin.ext (by
    match a with
    | ⟨0, _⟩ => exact (dotColH_lhsContr _ _).trans hk
    | ⟨1, _⟩ => exact dotColH_lhsFree _ _)
  have er : dot_S256x1_S1024x256_S1x1024_0_1_1_0_n_n.rhsIdx (ix2 u p)
      ((contrEquiv1 dot_S256x1_S1024x256_S1x1024_0_1_1_0_n_n 256 rfl rfl).symm d) = ix2 p d := funext fun a => Fin.ext (by
    match a with
    | ⟨0, _⟩ => exact dotColH_rhsFree _ _
    | ⟨1, _⟩ => exact (dotColH_rhsContr _ _).trans hk)
  rw [el, er]

/-! ## The stored values at an index -/

/-- h = x Wᵀ + b at (p, q) is Σ_k x(p, k) · W(q, k) + b(q). -/
theorem prepPayH_apply (x0 : Vec Ideal S1024x256 .f32) (x1 : Vec Ideal S256x256 .f32) (x2 : Vec Ideal S256 .f32)
    (p : Fin 1024) (q : Fin 256) :
    k0_pay1 (F := Ideal) x0 x1 x2 (ix2 p q) = (∑ k : Fin 256, x0 (ix2 p k) * x1 (ix2 q k)) + x2 (ix1 q) := by
  unfold k0_pay1
  rw [addf_apply, dotXWt_apply, broadcastTo_1b_ab_apply, shapeCast_a_1a_apply]

/-- The stored block of h is h itself: the change of float format is the identity on the extended reals. -/
theorem prepPayHStored_apply (x0 : Vec Ideal S1024x256 .f32) (x1 : Vec Ideal S256x256 .f32) (x2 : Vec Ideal S256 .f32)
    (p : Fin 1024) (q : Fin 256) :
    k0_pay4 (F := Ideal) x0 x1 x2 (ix2 p q) = (∑ k : Fin 256, x0 (ix2 p k) * x1 (ix2 q k)) + x2 (ix1 q) := by
  unfold k0_pay4
  rw [truncf_apply]
  exact prepPayH_apply x0 x1 x2 p q

/-- The column h we + be at (p, 0) is Σ_d h(p, d) · we(d, 0) + be(0); the second coordinate, of extent one, is 0. -/
theorem prepPayE1_apply (x0 : Vec Ideal S1024x256 .f32) (x1 : Vec Ideal S256x256 .f32) (x2 : Vec Ideal S256 .f32)
    (x3 : Vec Ideal S256x1 .f32) (x4 : Vec Ideal S1 .f32) (p : Fin 1024) (u : Fin 1) :
    k0_pay2 (F := Ideal) x0 x1 x2 x3 x4 (ix2 p u)
      = (∑ d : Fin 256, ((∑ k : Fin 256, x0 (ix2 p k) * x1 (ix2 d k)) + x2 (ix1 d)) * x3 (ix2 d (0 : Fin 1))) + x4 (ix1 (0 : Fin 1)) := by
  unfold k0_pay2
  rw [addf_apply, dotHCol_apply, broadcastTo_1b_ab_apply, shapeCast_a_1a_apply]
  have hu : u = 0 := Subsingleton.elim _ _
  subst hu
  exact congrArg (· + x4 (ix1 (0 : Fin 1))) (Finset.sum_congr rfl fun d _ => by rw [prepPayH_apply])

/-- The row weᵀ hᵀ + be at (0, p) is Σ_d we(d, 0) · h(p, d) + be(0); the first coordinate, of extent one, is 0. -/
theorem prepPayE2_apply (x0 : Vec Ideal S1024x256 .f32) (x1 : Vec Ideal S256x256 .f32) (x2 : Vec Ideal S256 .f32)
    (x5 : Vec Ideal S256x1 .f32) (x6 : Vec Ideal S1 .f32) (u : Fin 1) (p : Fin 1024) :
    k0_pay3 (F := Ideal) x0 x1 x2 x5 x6 (ix2 u p)
      = (∑ d : Fin 256, x5 (ix2 d (0 : Fin 1)) * ((∑ k : Fin 256, x0 (ix2 p k) * x1 (ix2 d k)) + x2 (ix1 d))) + x6 (ix1 (0 : Fin 1)) := by
  unfold k0_pay3
  rw [addf_apply, dotColH_apply, broadcastTo_a1_ab_apply, shapeCast_a_1a_apply]
  have hu : u = 0 := Subsingleton.elim _ _
  subst hu
  exact congrArg (· + x6 (ix1 (0 : Fin 1))) (Finset.sum_congr rfl fun d _ => by rw [prepPayH_apply])

end Cert.KernelIdeal.Hand

end
-- ==== Proof.LibOnlineSoftmax.lean ====
import Mathlib.Data.EReal.Inv
import Mathlib.Analysis.SpecialFunctions.Pow.Real
import Mathlib.Algebra.BigOperators.Group.Finset.Basic
import Mathlib.Algebra.BigOperators.Fin
import Mathlib.Algebra.BigOperators.Field
import Mathlib.Data.Finset.Fold

/-!
# The online softmax

A row of scores is cut into blocks `0, 1, 2, …` of keys; block `k` has scores `s k j` and
values `v k j`, `j` ranging over a finite nonempty type `ι`. Walking the blocks from left to
right one keeps a running maximum `m`, a running denominator `l` and a running numerator `a`:

* `m₀ = max_j s 0 j`, `l₀ = ∑_j exp (s 0 j - m₀)`, `a₀ = ∑_j exp (s 0 j - m₀) * v 0 j`;
* `m_{k+1} = max m_k (max_j s (k+1) j)`, `α = exp (m_k - m_{k+1})`,
  `l_{k+1} = α * l_k + ∑_j exp (s (k+1) j - m_{k+1})`,
  `a_{k+1} = α * a_k + ∑_j exp (s (k+1) j - m_{k+1}) * v (k+1) j`.

This file proves that `a_n / l_n` is the softmax-weighted sum of the values over all the keys of
blocks `0 … n`, first over the reals, then for the same recurrence run in the extended reals
from the state `(⊥, 0, 0)`.
-/

noncomputable section

namespace OnlineSoftmax

open scoped BigOperators

variable {ι : Type*} [Fintype ι] [Nonempty ι]

/-! ### The recurrence over the reals -/

/-- The maximum of one block of scores. -/
def blockMax (s : ι → ℝ) : ℝ := Finset.univ.sup' Finset.univ_nonempty s

/-- The running maximum: `m₀ = max_j s 0 j`, `m_{k+1} = max m_k (max_j s (k+1) j)`. -/
def runMax (s : ℕ → ι → ℝ) : ℕ → ℝ
  | 0 => blockMax (s 0)
  | k + 1 => max (runMax s k) (blockMax (s (k + 1)))

/-- The running denominator: `l₀ = ∑_j exp (s 0 j - m₀)`,
    `l_{k+1} = exp (m_k - m_{k+1}) * l_k + ∑_j exp (s (k+1) j - m_{k+1})`. -/
def runDen (s : ℕ → ι → ℝ) : ℕ → ℝ
  | 0 => ∑ j, Real.exp (s 0 j - runMax s 0)
  | k + 1 => Real.exp (runMax s k - runMax s (k + 1)) * runDen s k
      + ∑ j, Real.exp (s (k + 1) j - runMax s (k + 1))

/-- The running numerator: `a₀ = ∑_j exp (s 0 j - m₀) * v 0 j`,
    `a_{k+1} = exp (m_k - m_{k+1}) * a_k + ∑_j exp (s (k+1) j - m_{k+1}) * v (k+1) j`. -/
def runNum (s v : ℕ → ι → ℝ) : ℕ → ℝ
  | 0 => ∑ j, Real.exp (s 0 j - runMax s 0) * v 0 j
  | k + 1 => Real.exp (runMax s k - runMax s (k + 1)) * runNum s v k
      + ∑ j, Real.exp (s (k + 1) j - runMax s (k + 1)) * v (k + 1) j

/-- The running maximum after the first block is that block's maximum. -/
theorem runMax_zero (s : ℕ → ι → ℝ) : runMax s 0 = blockMax (s 0) := rfl

/-- One step of the running maximum. -/
theorem runMax_succ (s : ℕ → ι → ℝ) (k : ℕ) :
    runMax s (k + 1) = max (runMax s k) (blockMax (s (k + 1))) := rfl

/-- The running denominator after the first block. -/
theorem runDen_zero (s : ℕ → ι → ℝ) :
    runDen s 0 = ∑ j, Real.exp (s 0 j - runMax s 0) := rfl

/-- One step of the running denominator. -/
theorem runDen_succ (s : ℕ → ι → ℝ) (k : ℕ) :
    runDen s (k + 1) = Real.exp (runMax s k - runMax s (k + 1)) * runDen s k
      + ∑ j, Real.exp (s (k + 1) j - runMax s (k + 1)) := rfl

/-- The running numerator after the first block. -/
theorem runNum_zero (s v : ℕ → ι → ℝ) :
    runNum s v 0 = ∑ j, Real.exp (s 0 j - runMax s 0) * v 0 j := rfl

/-- One step of the running numerator. -/
theorem runNum_succ (s v : ℕ → ι → ℝ) (k : ℕ) :
    runNum s v (k + 1) = Real.exp (runMax s k - runMax s (k + 1)) * runNum s v k
      + ∑ j, Real.exp (s (k + 1) j - runMax s (k + 1)) * v (k + 1) j := rfl

/-- Every score of a block is at most the block's maximum. -/
theorem le_blockMax (s : ι → ℝ) (j : ι) : s j ≤ blockMax s :=
  Finset.le_sup' s (Finset.mem_univ j)

/-- The block's maximum is one of its scores. -/
theorem exists_eq_blockMax (s : ι → ℝ) : ∃ j, blockMax s = s j := by
  obtain ⟨j, -, hj⟩ := Finset.exists_mem_eq_sup' (Finset.univ_nonempty (α := ι)) s
  exact ⟨j, hj⟩

/-- The running maximum does not decrease. -/
theorem runMax_le_succ (s : ℕ → ι → ℝ) (k : ℕ) : runMax s k ≤ runMax s (k + 1) :=
  le_max_left _ _

/-- The running maximum after block `k` bounds every score of the blocks `0 … k`. -/
theorem le_runMax (s : ℕ → ι → ℝ) {k' k : ℕ} (h : k' ≤ k) (j : ι) : s k' j ≤ runMax s k := by
  induction k with
  | zero =>
    obtain rfl : k' = 0 := Nat.le_zero.mp h
    exact le_blockMax (s 0) j
  | succ k ih =>
    rcases Nat.of_le_succ h with h' | rfl
    · exact le_trans (ih h') (runMax_le_succ s k)
    · exact le_trans (le_blockMax (s (k + 1)) j) (le_max_right _ _)

/-- The running maximum after block `k` is one of the scores of the blocks `0 … k`. -/
theorem exists_eq_runMax (s : ℕ → ι → ℝ) (k : ℕ) : ∃ k' ≤ k, ∃ j, runMax s k = s k' j := by
  induction k with
  | zero =>
    obtain ⟨j, hj⟩ := exists_eq_blockMax (s 0)
    exact ⟨0, le_rfl, j, hj⟩
  | succ k ih =>
    rcases max_choice (runMax s k) (blockMax (s (k + 1))) with h | h
    · obtain ⟨k', hk', j, hj⟩ := ih
      exact ⟨k', Nat.le_succ_of_le hk', j, by rw [runMax_succ, h, hj]⟩
    · obtain ⟨j, hj⟩ := exists_eq_blockMax (s (k + 1))
      exact ⟨k + 1, le_rfl, j, by rw [runMax_succ, h, hj]⟩

/-- The running maximum after block `k` is the maximum over the blocks `0 … k` of the block
    maxima. -/
theorem runMax_eq_sup' (s : ℕ → ι → ℝ) (k : ℕ) :
    runMax s k = (Finset.range (k + 1)).sup' Finset.nonempty_range_add_one
      (fun k' => blockMax (s k')) := by
  apply le_antisymm
  · obtain ⟨k', hk', j, hj⟩ := exists_eq_runMax s k
    rw [hj]
    exact le_trans (le_blockMax (s k') j)
      (Finset.le_sup' (fun k' => blockMax (s k')) (Finset.mem_range.mpr (Nat.lt_succ_of_le hk')))
  · refine Finset.sup'_le _ _ (fun k' hk' => ?_)
    obtain ⟨j, hj⟩ := exists_eq_blockMax (s k')
    rw [hj]
    exact le_runMax s (Nat.lt_succ_iff.mp (Finset.mem_range.mp hk')) j

/-- A number that bounds every score of the blocks `0 … k` and is one of them is the running
    maximum after block `k`. -/
theorem eq_runMax (s : ℕ → ι → ℝ) (k : ℕ) (M : ℝ) (hle : ∀ k' ≤ k, ∀ j, s k' j ≤ M)
    (hex : ∃ k' ≤ k, ∃ j, M = s k' j) : M = runMax s k := by
  apply le_antisymm
  · obtain ⟨k', hk', j, hj⟩ := hex
    rw [hj]
    exact le_runMax s hk' j
  · obtain ⟨k', hk', j, hj⟩ := exists_eq_runMax s k
    rw [hj]
    exact hle k' hk' j

/-- Rescaling: `exp (m - m') * exp (x - m) = exp (x - m')`. -/
theorem exp_sub_mul_exp_sub (m m' x : ℝ) :
    Real.exp (m - m') * Real.exp (x - m) = Real.exp (x - m') := by
  rw [← Real.exp_add]
  congr 1
  ring

/-- The invariant of the denominator: after block `k`,
    `l_k = ∑_{k' ≤ k} ∑_j exp (s k' j - m_k)`. -/
theorem runDen_eq (s : ℕ → ι → ℝ) (k : ℕ) :
    runDen s k = ∑ k' ∈ Finset.range (k + 1), ∑ j, Real.exp (s k' j - runMax s k) := by
  induction k with
  | zero => rw [Finset.sum_range_one, runDen_zero]
  | succ k ih =>
    rw [runDen_succ, ih, Finset.sum_range_succ _ (k + 1), Finset.mul_sum]
    congr 1
    refine Finset.sum_congr rfl (fun k' _ => ?_)
    rw [Finset.mul_sum]
    exact Finset.sum_congr rfl (fun j _ => exp_sub_mul_exp_sub _ _ _)

/-- The invariant of the numerator: after block `k`,
    `a_k = ∑_{k' ≤ k} ∑_j exp (s k' j - m_k) * v k' j`. -/
theorem runNum_eq (s v : ℕ → ι → ℝ) (k : ℕ) :
    runNum s v k
      = ∑ k' ∈ Finset.range (k + 1), ∑ j, Real.exp (s k' j - runMax s k) * v k' j := by
  induction k with
  | zero => rw [Finset.sum_range_one, runNum_zero]
  | succ k ih =>
    rw [runNum_succ, ih, Finset.sum_range_succ _ (k + 1), Finset.mul_sum]
    congr 1
    refine Finset.sum_congr rfl (fun k' _ => ?_)
    rw [Finset.mul_sum]
    refine Finset.sum_congr rfl (fun j _ => ?_)
    rw [← mul_assoc, exp_sub_mul_exp_sub]

/-- The denominator is positive. -/
theorem runDen_pos (s : ℕ → ι → ℝ) (k : ℕ) : 0 < runDen s k := by
  rw [runDen_eq]
  refine Finset.sum_pos (fun k' _ => ?_) Finset.nonempty_range_add_one
  exact Finset.sum_pos (fun j _ => Real.exp_pos _) Finset.univ_nonempty

/-- The denominator is not zero. -/
theorem runDen_ne_zero (s : ℕ → ι → ℝ) (k : ℕ) : runDen s k ≠ 0 :=
  (runDen_pos s k).ne'

/-- The denominator is at least `1`: the key that attains the maximum contributes `exp 0`. -/
theorem one_le_runDen (s : ℕ → ι → ℝ) (k : ℕ) : 1 ≤ runDen s k := by
  obtain ⟨k', hk', j, hj⟩ := exists_eq_runMax s k
  rw [runDen_eq]
  have h1 : (1 : ℝ) = Real.exp (s k' j - runMax s k) := by rw [hj, sub_self, Real.exp_zero]
  rw [h1]
  have h2 : Real.exp (s k' j - runMax s k) ≤ ∑ j', Real.exp (s k' j' - runMax s k) :=
    Finset.single_le_sum (f := fun j' => Real.exp (s k' j' - runMax s k))
      (fun j' _ => (Real.exp_pos _).le) (Finset.mem_univ j)
  refine le_trans h2 ?_
  exact Finset.single_le_sum (f := fun k'' => ∑ j', Real.exp (s k'' j' - runMax s k))
    (fun k'' _ => Finset.sum_nonneg (fun j' _ => (Real.exp_pos _).le))
    (Finset.mem_range.mpr (Nat.lt_succ_of_le hk'))

/-- The law of the online softmax over the reals: with `M` the maximum of all the scores of the
    blocks `0 … n`, `e k j = exp (s k j - M)` and `L = ∑_{k ≤ n} ∑_j e k j`, the quotient of the
    running numerator by the running denominator after block `n` is
    `∑_{k ≤ n} ∑_j (e k j / L) * v k j`. -/
theorem runNum_div_runDen (s v : ℕ → ι → ℝ) (n : ℕ) :
    runNum s v n / runDen s n
      = ∑ k ∈ Finset.range (n + 1), ∑ j,
          (Real.exp (s k j - runMax s n)
            / ∑ k' ∈ Finset.range (n + 1), ∑ j', Real.exp (s k' j' - runMax s n)) * v k j := by
  rw [runNum_eq, runDen_eq, Finset.sum_div]
  refine Finset.sum_congr rfl (fun k _ => ?_)
  rw [Finset.sum_div]
  refine Finset.sum_congr rfl (fun j _ => ?_)
  rw [div_mul_eq_mul_div]

/-! ### Coercions from the reals to the extended reals -/

/-- The coercion of a finite sum of reals is the sum of the coercions. -/
theorem coe_finset_sum {κ : Type*} (S : Finset κ) (f : κ → ℝ) :
    ((∑ i ∈ S, f i : ℝ) : EReal) = ∑ i ∈ S, (f i : EReal) := by
  classical
  induction S using Finset.induction_on with
  | empty => rw [Finset.sum_empty, Finset.sum_empty, EReal.coe_zero]
  | insert a S ha ih => rw [Finset.sum_insert ha, Finset.sum_insert ha, EReal.coe_add, ih]

/-- The coercion of a maximum of two reals is the maximum of the coercions. -/
theorem coe_max (x y : ℝ) : ((max x y : ℝ) : EReal) = max (x : EReal) (y : EReal) :=
  EReal.coe_strictMono.monotone.map_max

/-- Folding `max` from `⊥` over the coercions of a nonempty finite family of reals gives the
    coercion of the family's maximum. -/
theorem fold_max_bot_coe {κ : Type*} (S : Finset κ) (hS : S.Nonempty) (f : κ → ℝ) :
    S.fold max (⊥ : EReal) (fun i => (f i : EReal)) = ((S.sup' hS f : ℝ) : EReal) := by
  apply le_antisymm
  · rw [Finset.fold_max_le]
    exact ⟨bot_le, fun i hi => EReal.coe_le_coe_iff.mpr (Finset.le_sup' f hi)⟩
  · obtain ⟨i, hi, h⟩ := Finset.exists_mem_eq_sup' hS f
    rw [Finset.le_fold_max]
    exact Or.inr ⟨i, hi, by rw [h]⟩

/-- The fold of `max` from `⊥` over one block of scores is the coercion of the block's maximum. -/
theorem fold_max_bot_block (s : ι → ℝ) :
    Finset.univ.fold max (⊥ : EReal) (fun j => (s j : EReal)) = ((blockMax s : ℝ) : EReal) :=
  fold_max_bot_coe Finset.univ Finset.univ_nonempty s

/-! ### The exponential on the extended reals

The exponential is a function `E : EReal → EReal` known by its values at the reals,
`E x = exp x`; its value `E ⊥ = 0` is used by `E_bot_sub` alone, since in the first step the
rescaling factor multiplies `0`. -/

/-- `E (x - y) = exp (x - y)` at reals `x`, `y`. -/
theorem E_coe_sub_coe (E : EReal → EReal)
    (hE : ∀ x : ℝ, E (x : EReal) = ((Real.exp x : ℝ) : EReal)) (x y : ℝ) :
    E ((x : EReal) - (y : EReal)) = ((Real.exp (x - y) : ℝ) : EReal) := by
  rw [← EReal.coe_sub, hE]

/-- `E (⊥ - y) = 0`. -/
theorem E_bot_sub (E : EReal → EReal) (hE0 : E ⊥ = 0) (y : EReal) : E (⊥ - y) = 0 := by
  rw [EReal.bot_sub, hE0]

/-! ### One step of the recurrence in the extended reals -/

/-- One step of the recurrence, written with the extended reals' own operations: from the state
    `(m, l, a)` and a block with scores `sb` and values `vb`, the new maximum is
    `m' = max m (fold max ⊥ sb)`, and with `α = E (m - m')` the new denominator is
    `α * l + ∑_j E (sb j - m')` and the new numerator `α * a + ∑_j E (sb j - m') * vb j`. -/
def estep (E : EReal → EReal) (st : EReal × EReal × EReal) (sb vb : ι → EReal) :
    EReal × EReal × EReal :=
  (max st.1 (Finset.univ.fold max ⊥ sb),
   E (st.1 - max st.1 (Finset.univ.fold max ⊥ sb)) * st.2.1
     + ∑ j, E (sb j - max st.1 (Finset.univ.fold max ⊥ sb)),
   E (st.1 - max st.1 (Finset.univ.fold max ⊥ sb)) * st.2.2
     + ∑ j, E (sb j - max st.1 (Finset.univ.fold max ⊥ sb)) * vb j)

/-- The first step, componentwise: from the maximum `⊥` the new maximum is the first block's. -/
theorem first_max (s : ℕ → ι → ℝ) :
    max (⊥ : EReal) (Finset.univ.fold max (⊥ : EReal) (fun j => (s 0 j : EReal)))
      = ((runMax s 0 : ℝ) : EReal) := by
  rw [fold_max_bot_block, max_eq_right bot_le, runMax_zero]

/-- The first step, componentwise: from the state `(⊥, 0, _)` the new denominator is `l₀`: the
    old denominator `0` absorbs the rescaling factor `E (⊥ - m₀)` whatever its value (it is
    `E ⊥ = 0`, by `E_bot_sub`), because `x * 0 = 0` for every extended real `x`. -/
theorem first_den (E : EReal → EReal)
    (hE : ∀ x : ℝ, E (x : EReal) = ((Real.exp x : ℝ) : EReal)) (s : ℕ → ι → ℝ) :
    E (⊥ - ((runMax s 0 : ℝ) : EReal)) * 0
        + ∑ j, E ((s 0 j : EReal) - ((runMax s 0 : ℝ) : EReal))
      = ((runDen s 0 : ℝ) : EReal) := by
  rw [mul_zero, zero_add, runDen_zero, coe_finset_sum]
  exact Finset.sum_congr rfl (fun j _ => E_coe_sub_coe E hE _ _)

/-- The first step, componentwise: from the state `(⊥, _, 0)` the new numerator is `a₀`. -/
theorem first_num (E : EReal → EReal)
    (hE : ∀ x : ℝ, E (x : EReal) = ((Real.exp x : ℝ) : EReal)) (s v : ℕ → ι → ℝ) :
    E (⊥ - ((runMax s 0 : ℝ) : EReal)) * 0
        + ∑ j, E ((s 0 j : EReal) - ((runMax s 0 : ℝ) : EReal)) * (v 0 j : EReal)
      = ((runNum s v 0 : ℝ) : EReal) := by
  rw [mul_zero, zero_add, runNum_zero, coe_finset_sum]
  refine Finset.sum_congr rfl (fun j _ => ?_)
  rw [E_coe_sub_coe E hE, EReal.coe_mul]

/-- A later step, componentwise: the new maximum. -/
theorem step_max (s : ℕ → ι → ℝ) (k : ℕ) :
    max ((runMax s k : ℝ) : EReal)
        (Finset.univ.fold max (⊥ : EReal) (fun j => (s (k + 1) j : EReal)))
      = ((runMax s (k + 1) : ℝ) : EReal) := by
  rw [fold_max_bot_block, ← coe_max, runMax_succ]

/-- A later step, componentwise: the new denominator. -/
theorem step_den (E : EReal → EReal)
    (hE : ∀ x : ℝ, E (x : EReal) = ((Real.exp x : ℝ) : EReal)) (s : ℕ → ι → ℝ) (k : ℕ) :
    E (((runMax s k : ℝ) : EReal) - ((runMax s (k + 1) : ℝ) : EReal)) * ((runDen s k : ℝ) : EReal)
        + ∑ j, E ((s (k + 1) j : EReal) - ((runMax s (k + 1) : ℝ) : EReal))
      = ((runDen s (k + 1) : ℝ) : EReal) := by
  rw [runDen_succ, EReal.coe_add, EReal.coe_mul, coe_finset_sum, E_coe_sub_coe E hE]
  congr 1
  exact Finset.sum_congr rfl (fun j _ => E_coe_sub_coe E hE _ _)

/-- A later step, componentwise: the new numerator. -/
theorem step_num (E : EReal → EReal)
    (hE : ∀ x : ℝ, E (x : EReal) = ((Real.exp x : ℝ) : EReal)) (s v : ℕ → ι → ℝ) (k : ℕ) :
    E (((runMax s k : ℝ) : EReal) - ((runMax s (k + 1) : ℝ) : EReal))
          * ((runNum s v k : ℝ) : EReal)
        + ∑ j, E ((s (k + 1) j : EReal) - ((runMax s (k + 1) : ℝ) : EReal))
            * (v (k + 1) j : EReal)
      = ((runNum s v (k + 1) : ℝ) : EReal) := by
  rw [runNum_succ, EReal.coe_add, EReal.coe_mul, coe_finset_sum, E_coe_sub_coe E hE]
  congr 1
  refine Finset.sum_congr rfl (fun j _ => ?_)
  rw [E_coe_sub_coe E hE, EReal.coe_mul]

/-- The first step from `(⊥, 0, 0)` lands on the coercion of `(m₀, l₀, a₀)`. -/
theorem estep_bot (E : EReal → EReal)
    (hE : ∀ x : ℝ, E (x : EReal) = ((Real.exp x : ℝ) : EReal)) (s v : ℕ → ι → ℝ) :
    estep E ((⊥ : EReal), (0 : EReal), (0 : EReal))
        (fun j => (s 0 j : EReal)) (fun j => (v 0 j : EReal))
      = (((runMax s 0 : ℝ) : EReal), ((runDen s 0 : ℝ) : EReal), ((runNum s v 0 : ℝ) : EReal)) := by
  unfold estep
  simp only []
  rw [first_max, first_den E hE, first_num E hE]

/-- A later step takes the coercion of `(m_k, l_k, a_k)` to that of
    `(m_{k+1}, l_{k+1}, a_{k+1})`. -/
theorem estep_coe (E : EReal → EReal)
    (hE : ∀ x : ℝ, E (x : EReal) = ((Real.exp x : ℝ) : EReal)) (s v : ℕ → ι → ℝ) (k : ℕ) :
    estep E (((runMax s k : ℝ) : EReal), ((runDen s k : ℝ) : EReal), ((runNum s v k : ℝ) : EReal))
        (fun j => (s (k + 1) j : EReal)) (fun j => (v (k + 1) j : EReal))
      = (((runMax s (k + 1) : ℝ) : EReal), ((runDen s (k + 1) : ℝ) : EReal),
          ((runNum s v (k + 1) : ℝ) : EReal)) := by
  unfold estep
  simp only []
  rw [step_max, step_den E hE, step_num E hE]

/-- The recurrence in the extended reals, started from `(⊥, 0, 0)`: the state after block `k`. -/
def erun (E : EReal → EReal) (s v : ℕ → ι → ℝ) : ℕ → EReal × EReal × EReal
  | 0 => estep E ((⊥ : EReal), (0 : EReal), (0 : EReal))
      (fun j => (s 0 j : EReal)) (fun j => (v 0 j : EReal))
  | k + 1 => estep E (erun E s v k)
      (fun j => (s (k + 1) j : EReal)) (fun j => (v (k + 1) j : EReal))

/-- After every block the state of the extended-real recurrence started from `(⊥, 0, 0)` is the
    coercion of the real state `(m_k, l_k, a_k)`. -/
theorem erun_eq (E : EReal → EReal)
    (hE : ∀ x : ℝ, E (x : EReal) = ((Real.exp x : ℝ) : EReal)) (s v : ℕ → ι → ℝ) (k : ℕ) :
    erun E s v k
      = (((runMax s k : ℝ) : EReal), ((runDen s k : ℝ) : EReal), ((runNum s v k : ℝ) : EReal)) := by
  induction k with
  | zero => exact estep_bot E hE s v
  | succ k ih =>
    show estep E (erun E s v k) _ _ = _
    rw [ih, estep_coe E hE]

/-! ### The final quotient -/

/-- The coercion of the denominator is not zero. -/
theorem coe_runDen_ne_zero (s : ℕ → ι → ℝ) (k : ℕ) : ((runDen s k : ℝ) : EReal) ≠ 0 :=
  EReal.coe_ne_zero.mpr (runDen_ne_zero s k)

/-- The final quotient in the extended reals, `a_n * l_n⁻¹`, is the coercion of the
    softmax-weighted sum of the values. -/
theorem coe_runNum_mul_inv (s v : ℕ → ι → ℝ) (n : ℕ) :
    ((runNum s v n : ℝ) : EReal) * ((runDen s n : ℝ) : EReal)⁻¹
      = ((∑ k ∈ Finset.range (n + 1), ∑ j,
          (Real.exp (s k j - runMax s n)
            / ∑ k' ∈ Finset.range (n + 1), ∑ j', Real.exp (s k' j' - runMax s n)) * v k j : ℝ)
          : EReal) := by
  rw [← EReal.coe_inv, ← EReal.coe_mul, ← div_eq_mul_inv, runNum_div_runDen]

/-- The softmax-weighted sum written with the extended reals' own operations over any finite
    family: `∑_i (E (t i - M) * (∑_i' E (t i' - M))⁻¹) * w i` is the coercion of
    `∑_i (exp (t i - M) / ∑_i' exp (t i' - M)) * w i`. -/
theorem softmax_sum_coe {κ : Type*} (E : EReal → EReal)
    (hE : ∀ x : ℝ, E (x : EReal) = ((Real.exp x : ℝ) : EReal)) (S : Finset κ) (t w : κ → ℝ)
    (M : ℝ) :
    ∑ i ∈ S, (E ((t i : EReal) - (M : EReal))
        * (∑ i' ∈ S, E ((t i' : EReal) - (M : EReal)))⁻¹) * (w i : EReal)
      = ((∑ i ∈ S, (Real.exp (t i - M) / ∑ i' ∈ S, Real.exp (t i' - M)) * w i : ℝ) : EReal) := by
  have hden : ∑ i' ∈ S, E ((t i' : EReal) - (M : EReal))
      = ((∑ i' ∈ S, Real.exp (t i' - M) : ℝ) : EReal) := by
    rw [coe_finset_sum]
    exact Finset.sum_congr rfl (fun i _ => E_coe_sub_coe E hE _ _)
  rw [hden, coe_finset_sum S (fun i => (Real.exp (t i - M) / ∑ i' ∈ S, Real.exp (t i' - M)) * w i)]
  refine Finset.sum_congr rfl (fun i _ => ?_)
  rw [E_coe_sub_coe E hE, ← EReal.coe_inv, ← EReal.coe_mul, ← EReal.coe_mul, div_eq_mul_inv]

/-- The same over the blocks `0 … n`: the softmax-weighted sum of all their keys, written with the
    extended reals' own operations around any real `M`, is the coercion of the real one. -/
theorem softmax_sum_blocks_coe (E : EReal → EReal)
    (hE : ∀ x : ℝ, E (x : EReal) = ((Real.exp x : ℝ) : EReal)) (s v : ℕ → ι → ℝ) (n : ℕ)
    (M : ℝ) :
    ∑ k ∈ Finset.range (n + 1), ∑ j, (E ((s k j : EReal) - (M : EReal))
        * (∑ k' ∈ Finset.range (n + 1), ∑ j', E ((s k' j' : EReal) - (M : EReal)))⁻¹)
        * (v k j : EReal)
      = ((∑ k ∈ Finset.range (n + 1), ∑ j,
          (Real.exp (s k j - M)
            / ∑ k' ∈ Finset.range (n + 1), ∑ j', Real.exp (s k' j' - M)) * v k j : ℝ)
          : EReal) := by
  have hden : ∑ k' ∈ Finset.range (n + 1), ∑ j', E ((s k' j' : EReal) - (M : EReal))
      = ((∑ k' ∈ Finset.range (n + 1), ∑ j', Real.exp (s k' j' - M) : ℝ) : EReal) := by
    rw [coe_finset_sum]
    refine Finset.sum_congr rfl (fun k' _ => ?_)
    rw [coe_finset_sum]
    exact Finset.sum_congr rfl (fun j' _ => E_coe_sub_coe E hE _ _)
  rw [hden, coe_finset_sum (Finset.range (n + 1)) (fun k => ∑ j,
    (Real.exp (s k j - M)
      / ∑ k' ∈ Finset.range (n + 1), ∑ j', Real.exp (s k' j' - M)) * v k j)]
  refine Finset.sum_congr rfl (fun k _ => ?_)
  rw [coe_finset_sum Finset.univ (fun j =>
    (Real.exp (s k j - M)
      / ∑ k' ∈ Finset.range (n + 1), ∑ j', Real.exp (s k' j' - M)) * v k j)]
  refine Finset.sum_congr rfl (fun j _ => ?_)
  rw [E_coe_sub_coe E hE, ← EReal.coe_inv, ← EReal.coe_mul, ← EReal.coe_mul, div_eq_mul_inv]

/-- The online softmax is the softmax: the final quotient `a_n * l_n⁻¹` of the running state
    equals the whole-row expression `∑_{k ≤ n} ∑_j (E (s k j - M) * (∑ E (s - M))⁻¹) * v k j`
    around the maximum `M = m_n` of all the scores, everything in the extended reals. -/
theorem coe_runNum_mul_inv_eq_softmax (E : EReal → EReal)
    (hE : ∀ x : ℝ, E (x : EReal) = ((Real.exp x : ℝ) : EReal)) (s v : ℕ → ι → ℝ) (n : ℕ) :
    ((runNum s v n : ℝ) : EReal) * ((runDen s n : ℝ) : EReal)⁻¹
      = ∑ k ∈ Finset.range (n + 1), ∑ j,
          (E ((s k j : EReal) - ((runMax s n : ℝ) : EReal))
            * (∑ k' ∈ Finset.range (n + 1), ∑ j',
                E ((s k' j' : EReal) - ((runMax s n : ℝ) : EReal)))⁻¹)
          * (v k j : EReal) := by
  rw [coe_runNum_mul_inv, softmax_sum_blocks_coe E hE]

/-- The same for the state of the extended-real recurrence started from `(⊥, 0, 0)`: after block
    `n` its numerator times the inverse of its denominator is the whole-row softmax-weighted sum
    around its maximum. -/
theorem erun_quotient_eq_softmax (E : EReal → EReal)
    (hE : ∀ x : ℝ, E (x : EReal) = ((Real.exp x : ℝ) : EReal)) (s v : ℕ → ι → ℝ) (n : ℕ) :
    (erun E s v n).2.2 * ((erun E s v n).2.1)⁻¹
      = ∑ k ∈ Finset.range (n + 1), ∑ j,
          (E ((s k j : EReal) - (erun E s v n).1)
            * (∑ k' ∈ Finset.range (n + 1), ∑ j', E ((s k' j' : EReal) - (erun E s v n).1))⁻¹)
          * (v k j : EReal) := by
  rw [erun_eq E hE]
  exact coe_runNum_mul_inv_eq_softmax E hE s v n

/-! ### The same laws with the blocks indexed by `Fin (n + 1)` -/

/-- The denominator's invariant as a sum over `Fin (k + 1)`. -/
theorem runDen_eq_fin (s : ℕ → ι → ℝ) (k : ℕ) :
    runDen s k = ∑ k' : Fin (k + 1), ∑ j, Real.exp (s k' j - runMax s k) := by
  rw [runDen_eq]
  exact (Fin.sum_univ_eq_sum_range (fun k' => ∑ j, Real.exp (s k' j - runMax s k)) (k + 1)).symm

/-- The numerator's invariant as a sum over `Fin (k + 1)`. -/
theorem runNum_eq_fin (s v : ℕ → ι → ℝ) (k : ℕ) :
    runNum s v k = ∑ k' : Fin (k + 1), ∑ j, Real.exp (s k' j - runMax s k) * v k' j := by
  rw [runNum_eq]
  exact (Fin.sum_univ_eq_sum_range
    (fun k' => ∑ j, Real.exp (s k' j - runMax s k) * v k' j) (k + 1)).symm

/-- The law of the online softmax over the reals, blocks indexed by `Fin (n + 1)`. -/
theorem runNum_div_runDen_fin (s v : ℕ → ι → ℝ) (n : ℕ) :
    runNum s v n / runDen s n
      = ∑ k : Fin (n + 1), ∑ j,
          (Real.exp (s k j - runMax s n)
            / ∑ k' : Fin (n + 1), ∑ j', Real.exp (s k' j' - runMax s n)) * v k j := by
  rw [← runDen_eq_fin s n, runNum_div_runDen, ← runDen_eq s n]
  exact (Fin.sum_univ_eq_sum_range
    (fun k => ∑ j, (Real.exp (s k j - runMax s n) / runDen s n) * v k j) (n + 1)).symm

/-- The final quotient in the extended reals, blocks indexed by `Fin (n + 1)`. -/
theorem coe_runNum_mul_inv_fin (s v : ℕ → ι → ℝ) (n : ℕ) :
    ((runNum s v n : ℝ) : EReal) * ((runDen s n : ℝ) : EReal)⁻¹
      = ((∑ k : Fin (n + 1), ∑ j,
          (Real.exp (s k j - runMax s n)
            / ∑ k' : Fin (n + 1), ∑ j', Real.exp (s k' j' - runMax s n)) * v k j : ℝ)
          : EReal) := by
  rw [← EReal.coe_inv, ← EReal.coe_mul, ← div_eq_mul_inv, runNum_div_runDen_fin]

/-- The online softmax is the softmax, blocks indexed by `Fin (n + 1)`. -/
theorem coe_runNum_mul_inv_eq_softmax_fin (E : EReal → EReal)
    (hE : ∀ x : ℝ, E (x : EReal) = ((Real.exp x : ℝ) : EReal)) (s v : ℕ → ι → ℝ) (n : ℕ) :
    ((runNum s v n : ℝ) : EReal) * ((runDen s n : ℝ) : EReal)⁻¹
      = ∑ k : Fin (n + 1), ∑ j,
          (E ((s k j : EReal) - ((runMax s n : ℝ) : EReal))
            * (∑ k' : Fin (n + 1), ∑ j',
                E ((s k' j' : EReal) - ((runMax s n : ℝ) : EReal)))⁻¹)
          * (v k j : EReal) := by
  rw [coe_runNum_mul_inv_eq_softmax E hE,
    Fin.sum_univ_eq_sum_range
      (fun k' => ∑ j', E ((s k' j' : EReal) - ((runMax s n : ℝ) : EReal))) (n + 1)]
  exact (Fin.sum_univ_eq_sum_range
    (fun k => ∑ j, (E ((s k j : EReal) - ((runMax s n : ℝ) : EReal))
      * (∑ k' ∈ Finset.range (n + 1), ∑ j',
          E ((s k' j' : EReal) - ((runMax s n : ℝ) : EReal)))⁻¹) * (v k j : EReal)) (n + 1)).symm

/-! ### The denominators are not zero

The whole-row expression divides by `∑ E (s - M)`; these lemmas give its value and that it is
not zero, so that a division defined by cases on a zero divisor takes its ordinary branch. -/

/-- The whole-row denominator over any finite family, written with the extended reals' own
    operations, is the coercion of the real one. -/
theorem softmax_den_coe {κ : Type*} (E : EReal → EReal)
    (hE : ∀ x : ℝ, E (x : EReal) = ((Real.exp x : ℝ) : EReal)) (S : Finset κ) (t : κ → ℝ)
    (M : ℝ) :
    ∑ i ∈ S, E ((t i : EReal) - (M : EReal)) = ((∑ i ∈ S, Real.exp (t i - M) : ℝ) : EReal) := by
  rw [coe_finset_sum]
  exact Finset.sum_congr rfl (fun i _ => E_coe_sub_coe E hE _ _)

/-- Over a nonempty family the whole-row denominator is not zero. -/
theorem softmax_den_ne_zero {κ : Type*} (E : EReal → EReal)
    (hE : ∀ x : ℝ, E (x : EReal) = ((Real.exp x : ℝ) : EReal)) (S : Finset κ)
    (hS : S.Nonempty) (t : κ → ℝ) (M : ℝ) :
    ∑ i ∈ S, E ((t i : EReal) - (M : EReal)) ≠ 0 := by
  rw [softmax_den_coe E hE]
  exact EReal.coe_ne_zero.mpr (Finset.sum_pos (fun i _ => Real.exp_pos _) hS).ne'

/-- The whole-row denominator over the blocks `0 … n` is the coercion of the real one. -/
theorem softmax_den_blocks_coe (E : EReal → EReal)
    (hE : ∀ x : ℝ, E (x : EReal) = ((Real.exp x : ℝ) : EReal)) (s : ℕ → ι → ℝ) (n : ℕ)
    (M : ℝ) :
    ∑ k ∈ Finset.range (n + 1), ∑ j, E ((s k j : EReal) - (M : EReal))
      = ((∑ k ∈ Finset.range (n + 1), ∑ j, Real.exp (s k j - M) : ℝ) : EReal) := by
  rw [coe_finset_sum]
  refine Finset.sum_congr rfl (fun k _ => ?_)
  rw [coe_finset_sum]
  exact Finset.sum_congr rfl (fun j _ => E_coe_sub_coe E hE _ _)

/-- The whole-row denominator over the blocks `0 … n` is not zero. -/
theorem softmax_den_blocks_ne_zero (E : EReal → EReal)
    (hE : ∀ x : ℝ, E (x : EReal) = ((Real.exp x : ℝ) : EReal)) (s : ℕ → ι → ℝ) (n : ℕ)
    (M : ℝ) :
    ∑ k ∈ Finset.range (n + 1), ∑ j, E ((s k j : EReal) - (M : EReal)) ≠ 0 := by
  rw [softmax_den_blocks_coe E hE]
  refine EReal.coe_ne_zero.mpr (Finset.sum_pos (fun k _ => ?_) Finset.nonempty_range_add_one).ne'
  exact Finset.sum_pos (fun j _ => Real.exp_pos _) Finset.univ_nonempty

/-! ### The recurrence counted by steps

`efold E s v t` is the state after `t` steps from `(⊥, 0, 0)`: step `t` consumes block `t`. -/

/-- The state after `t` steps of the extended-real recurrence from `(⊥, 0, 0)`. -/
def efold (E : EReal → EReal) (s v : ℕ → ι → ℝ) : ℕ → EReal × EReal × EReal
  | 0 => ((⊥ : EReal), (0 : EReal), (0 : EReal))
  | t + 1 => estep E (efold E s v t) (fun j => (s t j : EReal)) (fun j => (v t j : EReal))

/-- No step taken: the state is `(⊥, 0, 0)`. -/
theorem efold_zero (E : EReal → EReal) (s v : ℕ → ι → ℝ) :
    efold E s v 0 = ((⊥ : EReal), (0 : EReal), (0 : EReal)) := rfl

/-- One more step consumes the next block. -/
theorem efold_succ (E : EReal → EReal) (s v : ℕ → ι → ℝ) (t : ℕ) :
    efold E s v (t + 1)
      = estep E (efold E s v t) (fun j => (s t j : EReal)) (fun j => (v t j : EReal)) := rfl

/-- After `t + 1` steps the state is the coercion of the real state `(m_t, l_t, a_t)`. -/
theorem efold_succ_eq (E : EReal → EReal)
    (hE : ∀ x : ℝ, E (x : EReal) = ((Real.exp x : ℝ) : EReal)) (s v : ℕ → ι → ℝ) (t : ℕ) :
    efold E s v (t + 1)
      = (((runMax s t : ℝ) : EReal), ((runDen s t : ℝ) : EReal), ((runNum s v t : ℝ) : EReal)) := by
  induction t with
  | zero => rw [efold_succ, efold_zero, estep_bot E hE]
  | succ t ih => rw [efold_succ, ih, estep_coe E hE]

end OnlineSoftmax
-- ==== Proof.Ref.Spec.lean ====
import Idealize.ShloMosaic.PureOps.Ideal
import Idealize.ShloMosaic.Lib.ValueIdx
import proofs.«166967_j31688268710357_2_alg».proof.Proof.LibOnlineSoftmax

/-!
# Graph attention over a dense adjacency mask: the specification, index by index

Node features `X` (8192 × 256) are projected, `h = X Wᵀ + b`; two columns `e₁ = h we₁ + be₁` and
`e₂ = h we₂ + be₂` give the additive score `e₁ i + e₂ j` of the pair `(i, j)`, which goes through a
leaky rectifier and is replaced by a large negative constant where the adjacency entry is not
positive; row `i` of the result is the softmax over `j` of the scores, applied to `h`.

Everything here is stated over extended-real arrays indexed by literal shapes, so that two programs
computing this value can both be compared with it. Under the hypothesis that every entry of the
float arrays is a real, each quantity is the coercion of a real companion (suffix `R`), defined
from the same arrays by `EReal.toReal`.
-/

noncomputable section

namespace AttnSpec

open scoped BigOperators
open Idealize.ShloMosaic Idealize.ShloMosaic.ValueIdx

/-- The shape of the node features and of the result: 8192 nodes, 256 features. -/
abbrev SX : Shape := ⟨2, ![8192, 256]⟩
/-- The shape of the adjacency matrix. -/
abbrev SAdj : Shape := ⟨2, ![8192, 8192]⟩
/-- The shape of the projection matrix. -/
abbrev SW : Shape := ⟨2, ![256, 256]⟩
/-- The shape of the projection's bias. -/
abbrev Sb : Shape := ⟨1, ![256]⟩
/-- The shape of a score column's weights. -/
abbrev Swe : Shape := ⟨2, ![256, 1]⟩
/-- The shape of a score column's bias. -/
abbrev Sbe : Shape := ⟨1, ![1]⟩

/-! ### The value over the extended reals -/

/-- The projected feature `h n d = (∑ k, X n k * W d k) + b d`. -/
def projH (X : SX.Idx → EReal) (W : SW.Idx → EReal) (b : Sb.Idx → EReal) (n : Fin 8192)
    (d : Fin 256) : EReal :=
  (∑ k : Fin 256, X (ix2 n k) * W (ix2 d k)) + b (ix1 d)

/-- A score column `e n = (∑ d, h n d * we d) + be`. -/
def colE (X : SX.Idx → EReal) (W : SW.Idx → EReal) (b : Sb.Idx → EReal) (we : Swe.Idx → EReal)
    (be : Sbe.Idx → EReal) (n : Fin 8192) : EReal :=
  (∑ d : Fin 256, projH X W b n d * we (ix2 d (0 : Fin 1))) + be (ix1 (0 : Fin 1))

/-- The score of one pair from its adjacency word `a` and its additive score `x`: the leaky
    rectifier `x` if `x ≥ 0` else `c * x`, kept where `a > 0` (signed) and replaced by the masking
    constant elsewhere. The two constants are kept as the single-precision words that denote them. -/
def scoreOf (a : BitVec 32) (x : EReal) : EReal :=
  Scalar.select (IntOp.cmpi .sgt a 0#32)
    (Scalar.select (FloatOps.cmpf (F := Ideal) (φ := .f32) .oge x (Ideal.ofBits .f32 0x00000000#32)) x
      (Ideal.ofBits .f32 0x3C23D70A#32 * x))
    (Ideal.ofBits .f32 0xD9FFCB9E#32)

/-- The same expression as the float operations spell it before they are unfolded. -/
theorem scoreOf_raw (a : BitVec 32) (x : EReal) :
    Scalar.select (IntOp.cmpi .sgt a 0#32)
      (Scalar.select
        (FloatOps.cmpf (F := Ideal) (φ := .f32) .oge x (FloatOps.ofBits (F := Ideal) .f32 0x00000000#32)) x
        (FloatOps.mulf (F := Ideal) (φ := .f32) (FloatOps.ofBits (F := Ideal) .f32 0x3C23D70A#32) x))
      (FloatOps.ofBits (F := Ideal) .f32 0xD9FFCB9E#32)
    = scoreOf a x := rfl

/-- The score of the pair `(i, j)`. -/
def score (adj : SAdj.Idx → BitVec 32) (X : SX.Idx → EReal) (W : SW.Idx → EReal)
    (b : Sb.Idx → EReal) (we1 : Swe.Idx → EReal) (be1 : Sbe.Idx → EReal) (we2 : Swe.Idx → EReal)
    (be2 : Sbe.Idx → EReal) (i j : Fin 8192) : EReal :=
  scoreOf (adj (ix2 i j)) (colE X W b we1 be1 i + colE X W b we2 be2 j)

/-- The maximum of row `i` of the scores as a program computes it: a fold of `max` from `⊥` over
    the row, then once more `max` with `⊥`. -/
def rowMax (adj : SAdj.Idx → BitVec 32) (X : SX.Idx → EReal) (W : SW.Idx → EReal)
    (b : Sb.Idx → EReal) (we1 : Swe.Idx → EReal) (be1 : Sbe.Idx → EReal) (we2 : Swe.Idx → EReal)
    (be2 : Sbe.Idx → EReal) (i : Fin 8192) : EReal :=
  max ⊥ ((Finset.univ : Finset (Fin 8192)).fold max ⊥
    (fun j => score adj X W b we1 be1 we2 be2 i j))

/-! ### Real entries -/

/-- Every entry of the array is (the coercion of) a real. -/
def IsReal {α : Type} (f : α → EReal) : Prop := ∀ i, ∃ r : ℝ, f i = (r : EReal)

/-- An entry of an array of reals is the coercion of its real part. -/
theorem IsReal.eq_coe {α : Type} {f : α → EReal} (h : IsReal f) (i : α) :
    f i = (((f i).toReal : ℝ) : EReal) := by
  obtain ⟨r, hr⟩ := h i
  rw [hr, EReal.toReal_coe]

/-- The rectifier's slope as a real. -/
def slopeR : ℝ := (Ideal.ofBits .f32 0x3C23D70A#32).toReal
/-- The masking constant as a real. -/
def maskR : ℝ := (Ideal.ofBits .f32 0xD9FFCB9E#32).toReal

/-- The word of the rectifier's slope denotes a real. -/
theorem ofBits_slope : Ideal.ofBits .f32 0x3C23D70A#32 = ((slopeR : ℝ) : EReal) := by
  have h1 : Ideal.ofBits .f32 0x3C23D70A#32 ≠ ⊤ := by
    simp [Ideal.ofBits, Ideal.ieee, -EReal.coe_mul]
  have h2 : Ideal.ofBits .f32 0x3C23D70A#32 ≠ ⊥ := by
    simp [Ideal.ofBits, Ideal.ieee, -EReal.coe_mul]
  exact (EReal.coe_toReal h1 h2).symm

/-- The word of the masking constant denotes a real. -/
theorem ofBits_mask : Ideal.ofBits .f32 0xD9FFCB9E#32 = ((maskR : ℝ) : EReal) := by
  have h1 : Ideal.ofBits .f32 0xD9FFCB9E#32 ≠ ⊤ := by
    simp [Ideal.ofBits, Ideal.ieee, -EReal.coe_mul]
  have h2 : Ideal.ofBits .f32 0xD9FFCB9E#32 ≠ ⊥ := by
    simp [Ideal.ofBits, Ideal.ieee, -EReal.coe_mul]
  exact (EReal.coe_toReal h1 h2).symm

/-- The score of one pair over the reals: `x` if `x ≥ 0` else `c * x` where the adjacency word is
    positive, the masking constant elsewhere. -/
def scoreOfR (a : BitVec 32) (x : ℝ) : ℝ :=
  if IntOp.cmpi .sgt a 0#32 = 1 then (if 0 ≤ x then x else slopeR * x) else maskR

/-- At a real additive score the score is the coercion of the real one. -/
theorem scoreOf_coe (a : BitVec 32) (x : ℝ) :
    scoreOf a (x : EReal) = ((scoreOfR a x : ℝ) : EReal) := by
  have h0 : Ideal.ofBits .f32 0x00000000#32 = 0 := by simp [Ideal.ofBits, Ideal.ieee]
  have hc : (FloatOps.cmpf (F := Ideal) (φ := .f32) .oge (x : EReal) 0 = 1) ↔ 0 ≤ x := by
    show (BitVec.ofBool (decide ((0 : EReal) ≤ (x : EReal))) = 1#1) ↔ 0 ≤ x
    have h : ((0 : EReal) ≤ (x : EReal)) ↔ 0 ≤ x := by
      rw [← EReal.coe_zero, EReal.coe_le_coe_iff]
    by_cases hx : 0 ≤ x
    · have hx' : (0 : EReal) ≤ (x : EReal) := h.mpr hx
      simp [hx, hx']
    · have hx' : ¬ (0 : EReal) ≤ (x : EReal) := mt h.mp hx
      simp [hx, hx']
  unfold scoreOf scoreOfR Scalar.select
  rw [ofBits_slope, ofBits_mask, h0]
  by_cases ha : IntOp.cmpi .sgt a 0#32 = 1
  · rw [if_pos ha, if_pos ha]
    by_cases hx : 0 ≤ x
    · rw [if_pos (hc.mpr hx), if_pos hx]
    · rw [if_neg (mt hc.mp hx), if_neg hx, EReal.coe_mul]
  · rw [if_neg ha, if_neg ha]

/-- The projected feature over the reals. -/
def projHR (X : SX.Idx → EReal) (W : SW.Idx → EReal) (b : Sb.Idx → EReal) (n : Fin 8192)
    (d : Fin 256) : ℝ :=
  (∑ k : Fin 256, (X (ix2 n k)).toReal * (W (ix2 d k)).toReal) + (b (ix1 d)).toReal

/-- A score column over the reals. -/
def colER (X : SX.Idx → EReal) (W : SW.Idx → EReal) (b : Sb.Idx → EReal) (we : Swe.Idx → EReal)
    (be : Sbe.Idx → EReal) (n : Fin 8192) : ℝ :=
  (∑ d : Fin 256, projHR X W b n d * (we (ix2 d (0 : Fin 1))).toReal) + (be (ix1 (0 : Fin 1))).toReal

/-- The score of the pair `(i, j)` over the reals. -/
def scoreR (adj : SAdj.Idx → BitVec 32) (X : SX.Idx → EReal) (W : SW.Idx → EReal)
    (b : Sb.Idx → EReal) (we1 : Swe.Idx → EReal) (be1 : Sbe.Idx → EReal) (we2 : Swe.Idx → EReal)
    (be2 : Sbe.Idx → EReal) (i j : Fin 8192) : ℝ :=
  scoreOfR (adj (ix2 i j)) (colER X W b we1 be1 i + colER X W b we2 be2 j)

/-- The maximum of row `i` of the real scores. -/
def rowMaxR (adj : SAdj.Idx → BitVec 32) (X : SX.Idx → EReal) (W : SW.Idx → EReal)
    (b : Sb.Idx → EReal) (we1 : Swe.Idx → EReal) (be1 : Sbe.Idx → EReal) (we2 : Swe.Idx → EReal)
    (be2 : Sbe.Idx → EReal) (i : Fin 8192) : ℝ :=
  (Finset.univ : Finset (Fin 8192)).sup' Finset.univ_nonempty
    (fun j => scoreR adj X W b we1 be1 we2 be2 i j)

/-- With real entries the projected feature is the coercion of the real one. -/
theorem projH_eq_coe {X : SX.Idx → EReal} {W : SW.Idx → EReal} {b : Sb.Idx → EReal}
    (hX : IsReal X) (hW : IsReal W) (hb : IsReal b) (n : Fin 8192) (d : Fin 256) :
    projH X W b n d = ((projHR X W b n d : ℝ) : EReal) := by
  unfold projH projHR
  rw [EReal.coe_add, OnlineSoftmax.coe_finset_sum, ← hb.eq_coe]
  congr 1
  refine Finset.sum_congr rfl (fun k _ => ?_)
  rw [EReal.coe_mul, ← hX.eq_coe, ← hW.eq_coe]

/-- With real entries a score column is the coercion of the real one. -/
theorem colE_eq_coe {X : SX.Idx → EReal} {W : SW.Idx → EReal} {b : Sb.Idx → EReal}
    {we : Swe.Idx → EReal} {be : Sbe.Idx → EReal}
    (hX : IsReal X) (hW : IsReal W) (hb : IsReal b) (hwe : IsReal we) (hbe : IsReal be)
    (n : Fin 8192) :
    colE X W b we be n = ((colER X W b we be n : ℝ) : EReal) := by
  unfold colE colER
  rw [EReal.coe_add, OnlineSoftmax.coe_finset_sum, ← hbe.eq_coe]
  congr 1
  refine Finset.sum_congr rfl (fun d _ => ?_)
  rw [EReal.coe_mul, ← hwe.eq_coe, projH_eq_coe hX hW hb]

/-- With real entries the score of a pair is the coercion of the real one. -/
theorem score_eq_coe (adj : SAdj.Idx → BitVec 32) {X : SX.Idx → EReal} {W : SW.Idx → EReal}
    {b : Sb.Idx → EReal} {we1 : Swe.Idx → EReal} {be1 : Sbe.Idx → EReal} {we2 : Swe.Idx → EReal}
    {be2 : Sbe.Idx → EReal}
    (hX : IsReal X) (hW : IsReal W) (hb : IsReal b) (hwe1 : IsReal we1) (hbe1 : IsReal be1)
    (hwe2 : IsReal we2) (hbe2 : IsReal be2) (i j : Fin 8192) :
    score adj X W b we1 be1 we2 be2 i j
      = ((scoreR adj X W b we1 be1 we2 be2 i j : ℝ) : EReal) := by
  unfold score scoreR
  rw [colE_eq_coe hX hW hb hwe1 hbe1, colE_eq_coe hX hW hb hwe2 hbe2, ← EReal.coe_add,
    scoreOf_coe]

/-- With real entries the row maximum a program computes is the coercion of the maximum of the
    real scores of the row. -/
theorem rowMax_eq_coe (adj : SAdj.Idx → BitVec 32) {X : SX.Idx → EReal} {W : SW.Idx → EReal}
    {b : Sb.Idx → EReal} {we1 : Swe.Idx → EReal} {be1 : Sbe.Idx → EReal} {we2 : Swe.Idx → EReal}
    {be2 : Sbe.Idx → EReal}
    (hX : IsReal X) (hW : IsReal W) (hb : IsReal b) (hwe1 : IsReal we1) (hbe1 : IsReal be1)
    (hwe2 : IsReal we2) (hbe2 : IsReal be2) (i : Fin 8192) :
    rowMax adj X W b we1 be1 we2 be2 i
      = ((rowMaxR adj X W b we1 be1 we2 be2 i : ℝ) : EReal) := by
  unfold rowMax rowMaxR
  rw [max_eq_right bot_le]
  have h : (fun j => score adj X W b we1 be1 we2 be2 i j)
      = fun j => ((scoreR adj X W b we1 be1 we2 be2 i j : ℝ) : EReal) :=
    funext (fun j => score_eq_coe adj hX hW hb hwe1 hbe1 hwe2 hbe2 i j)
  rw [h]
  exact OnlineSoftmax.fold_max_bot_coe Finset.univ Finset.univ_nonempty _

/-! ### The row cut into eight blocks of 1024 keys -/

/-- Row `i` of the real scores by blocks: block `k < 8`, key `j` of the block is pair
    `(i, 1024 * k + j)`; beyond the eighth block the value is `0` and is never read. -/
def sR (adj : SAdj.Idx → BitVec 32) (X : SX.Idx → EReal) (W : SW.Idx → EReal)
    (b : Sb.Idx → EReal) (we1 : Swe.Idx → EReal) (be1 : Sbe.Idx → EReal) (we2 : Swe.Idx → EReal)
    (be2 : Sbe.Idx → EReal) (i : Fin 8192) : ℕ → Fin 1024 → ℝ := fun k j =>
  if h : k < 8 then
    scoreR adj X W b we1 be1 we2 be2 i ⟨1024 * k + j.val, by have := j.isLt; omega⟩
  else 0

/-- Column `d` of the real projected features by blocks of 1024 nodes, likewise. -/
def vR (X : SX.Idx → EReal) (W : SW.Idx → EReal) (b : Sb.Idx → EReal) (d : Fin 256) :
    ℕ → Fin 1024 → ℝ := fun k j =>
  if h : k < 8 then projHR X W b ⟨1024 * k + j.val, by have := j.isLt; omega⟩ d else 0

/-- Inside the eight blocks `sR` is the real score at key `1024 * k + j`. -/
theorem sR_of_lt (adj : SAdj.Idx → BitVec 32) (X : SX.Idx → EReal) (W : SW.Idx → EReal)
    (b : Sb.Idx → EReal) (we1 : Swe.Idx → EReal) (be1 : Sbe.Idx → EReal) (we2 : Swe.Idx → EReal)
    (be2 : Sbe.Idx → EReal) (i : Fin 8192) {k : ℕ} (h : k < 8) (j : Fin 1024) :
    sR adj X W b we1 be1 we2 be2 i k j
      = scoreR adj X W b we1 be1 we2 be2 i ⟨1024 * k + j.val, by have := j.isLt; omega⟩ := by
  unfold sR
  rw [dif_pos h]

/-- Inside the eight blocks `vR` is the real projected feature of node `1024 * k + j`. -/
theorem vR_of_lt (X : SX.Idx → EReal) (W : SW.Idx → EReal) (b : Sb.Idx → EReal) (d : Fin 256)
    {k : ℕ} (h : k < 8) (j : Fin 1024) :
    vR X W b d k j = projHR X W b ⟨1024 * k + j.val, by have := j.isLt; omega⟩ d := by
  unfold vR
  rw [dif_pos h]

end AttnSpec
-- ==== Proof.KI.PrepValue.lean ====
/-
  The projection kernel's three output arrays after its last grid point, index by index.

  Point t of the 8 reads rows 1024 t … 1024 t + 1023 of X and the whole of W, b, we1, be1, we2, be2, and writes rows
  1024 t … of h = X Wᵀ + b, entries 1024 t … of the column h we1 + be1, and entries 1024 t … of the row (h we2 + be2)ᵀ.
  Each written block is therefore the block, at the same place, of ONE function of the whole arrays: the projected
  feature, respectively the score column, of the specification. The 8 blocks tile each output array (row r lies in the
  block of point r / 1024), so each array ends holding that function.
-/
import proofs.«166967_j31688268710357_2_alg».proof.Proof.KI.Prep
import proofs.«166967_j31688268710357_2_alg».proof.Proof.KI.PrepValuePay
import proofs.«166967_j31688268710357_2_alg».proof.Proof.Ref.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offset on two axes, spelt as a vector, is the constant zero. -/
theorem prepZero2 : (![0, 0] : Fin 2 → Nat) = fun _ => 0 := funext fun a => by fin_cases a <;> rfl
/-- The zero offset on one axis, spelt as a vector, is the constant zero. -/
theorem prepZero1 : (![0] : Fin 1 → Nat) = fun _ => 0 := funext fun a => by fin_cases a <;> rfl

/-! ## The blocks' index maps over the grid -/

/-- Point t's block of X, of h and of the column sits at block row t; its block of the row sits at block column t; every
    other window's block is its whole array, at block index zero. -/
theorem prepIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = 0 ∧ win0_9.index t (1 : Fin 2) = t.val :=
  (by decide +kernel : ∀ t : Fin grid0.N, _)

/-! ## The input blocks as entries of the whole arrays -/

/-- Point t's block of X at (p, k) is X at (1024 t + p, k). -/
theorem prepBlkX_apply (c : Dev nD) (t : Fin cfg0.N) (p : Fin 1024) (k : Fin 256) (n : Fin 8192) (hn : n.val = 1024 * t.val + p.val) :
    (prepBlk V c 0 t : Vec Ideal S1024x256 .f32) (ix2 p k) = (V c main_arg0 : S8192x256.Idx → EReal) (ix2 n k) := by
  unfold prepBlk
  rw [View.read_apply]
  show V c main_arg0 (((cfg0.win 0).blk t).view.emb (ix2 p k)) = V c main_arg0 (ix2 n k)
  refine congrArg (V c main_arg0) (funext fun a => Fin.ext ?_)
  obtain ⟨e0, e1, -⟩ := prepIdx t
  match a with
  | ⟨0, _⟩ => show win0_0.index t (0 : Fin 2) * 1024 + 1 * p.val = n.val; rw [e0, hn]; omega
  | ⟨1, _⟩ => show win0_0.index t (1 : Fin 2) * 256 + 1 * k.val = k.val; rw [e1]; omega

/-- Every point's block of W is W. -/
theorem prepBlkW_apply (c : Dev nD) (t : Fin cfg0.N) (q : Fin 256) (k : Fin 256) :
    (prepBlk V c 1 t : Vec Ideal S256x256 .f32) (ix2 q k) = (V c main_arg2 : S256x256.Idx → EReal) (ix2 q k) := by
  unfold prepBlk
  rw [View.read_apply]
  show V c main_arg2 (((cfg0.win 1).blk t).view.emb (ix2 q k)) = V c main_arg2 (ix2 q k)
  refine congrArg (V c main_arg2) (funext fun a => Fin.ext ?_)
  obtain ⟨-, -, e0, e1, -⟩ := prepIdx t
  match a with
  | ⟨0, _⟩ => show win0_1.index t (0 : Fin 2) * 256 + 1 * q.val = q.val; rw [e0]; omega
  | ⟨1, _⟩ => show win0_1.index t (1 : Fin 2) * 256 + 1 * k.val = k.val; rw [e1]; omega

/-- Every point's block of b is b. -/
theorem prepBlkB_apply (c : Dev nD) (t : Fin cfg0.N) (q : Fin 256) :
    (prepBlk V c 2 t : Vec Ideal S256 .f32) (ix1 q) = (V c main_arg3 : S256.Idx → EReal) (ix1 q) := by
  unfold prepBlk
  rw [View.read_apply]
  show V c main_arg3 (((cfg0.win 2).blk t).view.emb (ix1 q)) = V c main_arg3 (ix1 q)
  refine congrArg (V c main_arg3) (funext fun a => Fin.ext ?_)
  obtain ⟨-, -, -, -, e0, -⟩ := prepIdx t
  match a with
  | ⟨0, _⟩ => show win0_2.index t (0 : Fin 1) * 256 + 1 * q.val = q.val; rw [e0]; omega

/-- Every point's block of we1 is we1. -/
theorem prepBlkWe1_apply (c : Dev nD) (t : Fin cfg0.N) (d : Fin 256) (u : Fin 1) :
    (prepBlk V c 3 t : Vec Ideal S256x1 .f32) (ix2 d u) = (V c main_arg4 : S256x1.Idx → EReal) (ix2 d u) := by
  unfold prepBlk
  rw [View.read_apply]
  show V c main_arg4 (((cfg0.win 3).blk t).view.emb (ix2 d u)) = V c main_arg4 (ix2 d u)
  refine congrArg (V c main_arg4) (funext fun a => Fin.ext ?_)
  obtain ⟨-, -, -, -, -, e0, e1, -⟩ := prepIdx t
  match a with
  | ⟨0, _⟩ => show win0_3.index t (0 : Fin 2) * 256 + 1 * d.val = d.val; rw [e0]; omega
  | ⟨1, _⟩ => show win0_3.index t (1 : Fin 2) * 1 + 1 * u.val = u.val; rw [e1]; omega

/-- Every point's block of be1 is be1. -/
theorem prepBlkBe1_apply (c : Dev nD) (t : Fin cfg0.N) (u : Fin 1) :
    (prepBlk V c 4 t : Vec Ideal S1 .f32) (ix1 u) = (V c main_arg5 : S1.Idx → EReal) (ix1 u) := by
  unfold prepBlk
  rw [View.read_apply]
  show V c main_arg5 (((cfg0.win 4).blk t).view.emb (ix1 u)) = V c main_arg5 (ix1 u)
  refine congrArg (V c main_arg5) (funext fun a => Fin.ext ?_)
  obtain ⟨-, -, -, -, -, -, -, e0, -⟩ := prepIdx t
  match a with
  | ⟨0, _⟩ => show win0_4.index t (0 : Fin 1) * 1 + 1 * u.val = u.val; rw [e0]; omega

/-- Every point's block of we2 is we2. -/
theorem prepBlkWe2_apply (c : Dev nD) (t : Fin cfg0.N) (d : Fin 256) (u : Fin 1) :
    (prepBlk V c 5 t : Vec Ideal S256x1 .f32) (ix2 d u) = (V c main_arg6 : S256x1.Idx → EReal) (ix2 d u) := by
  unfold prepBlk
  rw [View.read_apply]
  show V c main_arg6 (((cfg0.win 5).blk t).view.emb (ix2 d u)) = V c main_arg6 (ix2 d u)
  refine congrArg (V c main_arg6) (funext fun a => Fin.ext ?_)
  obtain ⟨-, -, -, -, -, -, -, -, e0, e1, -⟩ := prepIdx t
  match a with
  | ⟨0, _⟩ => show win0_5.index t (0 : Fin 2) * 256 + 1 * d.val = d.val; rw [e0]; omega
  | ⟨1, _⟩ => show win0_5.index t (1 : Fin 2) * 1 + 1 * u.val = u.val; rw [e1]; omega

/-- Every point's block of be2 is be2. -/
theorem prepBlkBe2_apply (c : Dev nD) (t : Fin cfg0.N) (u : Fin 1) :
    (prepBlk V c 6 t : Vec Ideal S1 .f32) (ix1 u) = (V c main_arg7 : S1.Idx → EReal) (ix1 u) := by
  unfold prepBlk
  rw [View.read_apply]
  show V c main_arg7 (((cfg0.win 6).blk t).view.emb (ix1 u)) = V c main_arg7 (ix1 u)
  refine congrArg (V c main_arg7) (funext fun a => Fin.ext ?_)
  obtain ⟨-, -, -, -, -, -, -, -, -, -, e0, -⟩ := prepIdx t
  match a with
  | ⟨0, _⟩ => show win0_6.index t (0 : Fin 1) * 1 + 1 * u.val = u.val; rw [e0]; omega

/-! ## The block of h -/

/-- The projected features as one array: the specification's h at the index's two coordinates. -/
def prepSpecH (X : S8192x256.Idx → EReal) (W : S256x256.Idx → EReal) (b : S256.Idx → EReal) : S8192x256.Idx → EReal :=
  fun i => AttnSpec.projH X W b ⟨(i 0).val, (i 0).isLt⟩ ⟨(i 1).val, (i 1).isLt⟩

/-- At an index whose coordinates are n and d the array of projected features is the specification's h(n, d). -/
theorem prepSpecH_of (X : S8192x256.Idx → EReal) (W : S256x256.Idx → EReal) (b : S256.Idx → EReal) (i : S8192x256.Idx)
    (n : Fin 8192) (d : Fin 256) (h0 : (i 0).val = n.val) (h1 : (i 1).val = d.val) :
    prepSpecH X W b i = AttnSpec.projH X W b n d := by
  unfold prepSpecH
  have e0 : (⟨(i 0).val, (i 0).isLt⟩ : Fin 8192) = n := Fin.ext h0
  have e1 : (⟨(i 1).val, (i 1).isLt⟩ : Fin 256) = d := Fin.ext h1
  rw [e0, e1]

/-- What point t writes back to h is the block, at block row t, of the specification's h of the whole arrays. -/
theorem prepFlushedH (c : Dev nD) (t : Fin cfg0.N) :
    (prepDat V c).flushed 7 t
      = ((cfg0.win 7).blk t).view.read (Elt Ideal) (prepSpecH (V c main_arg0) (V c main_arg2) (V c main_arg3)) := by
  show (cfg0.win 7).cut (grid0.coords t) ((prepDat V c).after 7 t) = _
  rw [prepAfter7]
  unfold prepOutH
  rw [View.canon_unit_zero prepZero2]
  simp only [View.ld_unit_zero (S := S1024x256) prepZero2, View.ld_unit_zero (S := S256x256) prepZero2,
    View.ld_unit_zero (S := S256) prepZero1]
  funext j
  rw [View.read_apply]
  have hj0 : (j 0).val < 1024 := (j 0).isLt
  have hj1 : (j 1).val < 256 := (j 1).isLt
  have hN : cfg0.N = 8 := N_0
  have ht : t.val < 8 := hN ▸ t.isLt
  have ej : (cfg0.win 7).xinj (grid0.coords t) j = ix2 (⟨(j 0).val, hj0⟩ : Fin 1024) (⟨(j 1).val, hj1⟩ : Fin 256) :=
    funext fun a => by match a with | ⟨0, _⟩ => rfl | ⟨1, _⟩ => rfl
  show k0_pay4 (prepBlk V c 0 t) (prepBlk V c 1 t) (prepBlk V c 2 t) ((cfg0.win 7).xinj (grid0.coords t) j)
    = prepSpecH (V c main_arg0) (V c main_arg2) (V c main_arg3) (((cfg0.win 7).blk t).view.emb j)
  rw [ej]
  refine (prepPayHStored_apply (prepBlk V c 0 t) (prepBlk V c 1 t) (prepBlk V c 2 t) ⟨(j 0).val, hj0⟩ ⟨(j 1).val, hj1⟩).trans ?_
  obtain ⟨-, -, -, -, -, -, -, -, -, -, -, e0, e1, -⟩ := prepIdx t
  have hn : 1024 * t.val + (j 0).val < 8192 := by omega
  rw [prepSpecH_of _ _ _ (((cfg0.win 7).blk t).view.emb j) ⟨1024 * t.val + (j 0).val, hn⟩ ⟨(j 1).val, hj1⟩
    (by show win0_7.index t (0 : Fin 2) * 1024 + 1 * (j 0).val = 1024 * t.val + (j 0).val; rw [e0]; omega)
    (by show win0_7.index t (1 : Fin 2) * 256 + 1 * (j 1).val = (j 1).val; rw [e1]; omega)]
  unfold AttnSpec.projH
  rw [prepBlkB_apply]
  refine congrArg (· + _) (Finset.sum_congr rfl fun k _ => ?_)
  rw [prepBlkX_apply V c t ⟨(j 0).val, hj0⟩ k ⟨1024 * t.val + (j 0).val, hn⟩ rfl, prepBlkW_apply]

/-- An index of h is in point t's block iff each coordinate is in the block's range on its axis. -/
theorem prepMemH (t : Fin cfg0.N) (i : S8192x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v0_0).slice (win0_7.rect t)).set ↔ _
  rw [View.set_slice_whole, Rect.mem_set_unit]
  exact Iff.rfl

/-- After the last point h holds the specification's h of the whole arrays: row r is written by point r / 1024. -/
theorem prepFinalH (c : Dev nD) :
    (prepDat V c).arrAt 7 cfg0.N = prepSpecH (V c main_arg0) (V c main_arg2) (V c main_arg3) :=
  (prepDat V c).arrAt_eq_of_cover 7 _ (fun t _ => prepFlushedH V c t) fun i => by
    have hN : cfg0.N = 8 := N_0
    have hi0 : (i 0).val < 8192 := (i 0).isLt
    have hi1 : (i 1).val < 256 := (i 1).isLt
    have hlt : (i 0).val / 1024 < cfg0.N := by omega
    obtain ⟨-, -, -, -, -, -, -, -, -, -, -, e0, e1, -⟩ := prepIdx ⟨(i 0).val / 1024, hlt⟩
    refine ⟨⟨(i 0).val / 1024, hlt⟩, flush0_7 _, ?_⟩
    rw [prepMemH]
    intro a
    match a with
    | ⟨0, _⟩ =>
      show win0_7.index ⟨(i 0).val / 1024, hlt⟩ (0 : Fin 2) * 1024 ≤ (i 0).val
        ∧ (i 0).val < win0_7.index ⟨(i 0).val / 1024, hlt⟩ (0 : Fin 2) * 1024 + 1024
      rw [e0]; show (i 0).val / 1024 * 1024 ≤ (i 0).val ∧ (i 0).val < (i 0).val / 1024 * 1024 + 1024; omega
    | ⟨1, _⟩ =>
      show win0_7.index ⟨(i 0).val / 1024, hlt⟩ (1 : Fin 2) * 256 ≤ (i 1).val
        ∧ (i 1).val < win0_7.index ⟨(i 0).val / 1024, hlt⟩ (1 : Fin 2) * 256 + 256
      rw [e1]; omega

/-- The array h after the last grid point, entry by entry: the specification's projected feature. -/
theorem prepH_value (c : Dev nD) (n : Fin 8192) (d : Fin 256) :
    (prepDat V c).arrAt 7 cfg0.N (ix2 n d) = AttnSpec.projH (V c main_arg0) (V c main_arg2) (V c main_arg3) n d := by
  rw [prepFinalH]
  exact prepSpecH_of _ _ _ _ n d rfl rfl

/-! ## The block of the column e1 -/

/-- A score column as one column array: the specification's column at the index's first coordinate. -/
def prepSpecE1 (X : S8192x256.Idx → EReal) (W : S256x256.Idx → EReal) (b : S256.Idx → EReal) (we : S256x1.Idx → EReal)
    (be : S1.Idx → EReal) : S8192x1.Idx → EReal :=
  fun i => AttnSpec.colE X W b we be ⟨(i 0).val, (i 0).isLt⟩

/-- At an index whose first coordinate is n the column array is the specification's column at n. -/
theorem prepSpecE1_of (X : S8192x256.Idx → EReal) (W : S256x256.Idx → EReal) (b : S256.Idx → EReal) (we : S256x1.Idx → EReal)
    (be : S1.Idx → EReal) (i : S8192x1.Idx) (n : Fin 8192) (h0 : (i 0).val = n.val) :
    prepSpecE1 X W b we be i = AttnSpec.colE X W b we be n := by
  unfold prepSpecE1
  have e0 : (⟨(i 0).val, (i 0).isLt⟩ : Fin 8192) = n := Fin.ext h0
  rw [e0]

/-- What point t writes back to the column is the block, at block row t, of the specification's column of the whole arrays. -/
theorem prepFlushedE1 (c : Dev nD) (t : Fin cfg0.N) :
    (prepDat V c).flushed 8 t
      = ((cfg0.win 8).blk t).view.read (Elt Ideal)
          (prepSpecE1 (V c main_arg0) (V c main_arg2) (V c main_arg3) (V c main_arg4) (V c main_arg5)) := by
  show (cfg0.win 8).cut (grid0.coords t) ((prepDat V c).after 8 t) = _
  rw [prepAfter8]
  unfold prepOutE1
  rw [View.canon_unit_zero prepZero2]
  simp only [View.ld_unit_zero (S := S1024x256) prepZero2, View.ld_unit_zero (S := S256x256) prepZero2,
    View.ld_unit_zero (S := S256) prepZero1, View.ld_unit_zero (S := S256x1) prepZero2, View.ld_unit_zero (S := S1) prepZero1]
  funext j
  rw [View.read_apply]
  have hj0 : (j 0).val < 1024 := (j 0).isLt
  have hj1 : (j 1).val < 1 := (j 1).isLt
  have hN : cfg0.N = 8 := N_0
  have ht : t.val < 8 := hN ▸ t.isLt
  have ej : (cfg0.win 8).xinj (grid0.coords t) j = ix2 (⟨(j 0).val, hj0⟩ : Fin 1024) (⟨(j 1).val, hj1⟩ : Fin 1) :=
    funext fun a => by match a with | ⟨0, _⟩ => rfl | ⟨1, _⟩ => rfl
  show k0_pay2 (prepBlk V c 0 t) (prepBlk V c 1 t) (prepBlk V c 2 t) (prepBlk V c 3 t) (prepBlk V c 4 t)
      ((cfg0.win 8).xinj (grid0.coords t) j)
    = prepSpecE1 (V c main_arg0) (V c main_arg2) (V c main_arg3) (V c main_arg4) (V c main_arg5)
      (((cfg0.win 8).blk t).view.emb j)
  rw [ej]
  refine (prepPayE1_apply (prepBlk V c 0 t) (prepBlk V c 1 t) (prepBlk V c 2 t) (prepBlk V c 3 t) (prepBlk V c 4 t)
    ⟨(j 0).val, hj0⟩ ⟨(j 1).val, hj1⟩).trans ?_
  obtain ⟨-, -, -, -, -, -, -, -, -, -, -, -, -, e0, e1, -⟩ := prepIdx t
  have hn : 1024 * t.val + (j 0).val < 8192 := by omega
  rw [prepSpecE1_of _ _ _ _ _ (((cfg0.win 8).blk t).view.emb j) ⟨1024 * t.val + (j 0).val, hn⟩
    (by show win0_8.index t (0 : Fin 2) * 1024 + 1 * (j 0).val = 1024 * t.val + (j 0).val; rw [e0]; omega)]
  unfold AttnSpec.colE AttnSpec.projH
  rw [prepBlkBe1_apply]
  refine congrArg (· + _) (Finset.sum_congr rfl fun d _ => ?_)
  rw [prepBlkWe1_apply, prepBlkB_apply]
  refine congrArg (· * _) (congrArg (· + _) (Finset.sum_congr rfl fun k _ => ?_))
  rw [prepBlkX_apply V c t ⟨(j 0).val, hj0⟩ k ⟨1024 * t.val + (j 0).val, hn⟩ rfl, prepBlkW_apply]

/-- An index of the column is in point t's block iff each coordinate is in the block's range on its axis. -/
theorem prepMemE1 (t : Fin cfg0.N) (i : S8192x1.Idx) :
    i ∈ ((cfg0.win 8).blk t).view.set ↔ ∀ a : Fin 2, win0_8.index t a * S1024x1.size a ≤ (i a).val
      ∧ (i a).val < win0_8.index t a * S1024x1.size a + S1024x1.size a := by
  show i ∈ ((View.whole main_v0_1).slice (win0_8.rect t)).set ↔ _
  rw [View.set_slice_whole, Rect.mem_set_unit]
  exact Iff.rfl

/-- After the last point the column holds the specification's column: entry r is written by point r / 1024. -/
theorem prepFinalE1 (c : Dev nD) :
    (prepDat V c).arrAt 8 cfg0.N
      = prepSpecE1 (V c main_arg0) (V c main_arg2) (V c main_arg3) (V c main_arg4) (V c main_arg5) :=
  (prepDat V c).arrAt_eq_of_cover 8 _ (fun t _ => prepFlushedE1 V c t) fun i => by
    have hN : cfg0.N = 8 := N_0
    have hi0 : (i 0).val < 8192 := (i 0).isLt
    have hi1 : (i 1).val < 1 := (i 1).isLt
    have hlt : (i 0).val / 1024 < cfg0.N := by omega
    obtain ⟨-, -, -, -, -, -, -, -, -, -, -, -, -, e0, e1, -⟩ := prepIdx ⟨(i 0).val / 1024, hlt⟩
    refine ⟨⟨(i 0).val / 1024, hlt⟩, flush0_8 _, ?_⟩
    rw [prepMemE1]
    intro a
    match a with
    | ⟨0, _⟩ =>
      show win0_8.index ⟨(i 0).val / 1024, hlt⟩ (0 : Fin 2) * 1024 ≤ (i 0).val
        ∧ (i 0).val < win0_8.index ⟨(i 0).val / 1024, hlt⟩ (0 : Fin 2) * 1024 + 1024
      rw [e0]; show (i 0).val / 1024 * 1024 ≤ (i 0).val ∧ (i 0).val < (i 0).val / 1024 * 1024 + 1024; omega
    | ⟨1, _⟩ =>
      show win0_8.index ⟨(i 0).val / 1024, hlt⟩ (1 : Fin 2) * 1 ≤ (i 1).val
        ∧ (i 1).val < win0_8.index ⟨(i 0).val / 1024, hlt⟩ (1 : Fin 2) * 1 + 1
      rw [e1]; omega

/-- The column e1 after the last grid point, entry by entry: the specification's score column of we1, be1. -/
theorem prepE1_value (c : Dev nD) (n : Fin 8192) :
    (prepDat V c).arrAt 8 cfg0.N (ix2 n (0 : Fin 1))
      = AttnSpec.colE (V c main_arg0) (V c main_arg2) (V c main_arg3) (V c main_arg4) (V c main_arg5) n := by
  rw [prepFinalE1]
  exact prepSpecE1_of _ _ _ _ _ _ n rfl

/-! ## The block of the row e2ᵀ -/

/-- A score column laid out as one row array: the specification's column at the index's second coordinate. -/
def prepSpecE2 (X : S8192x256.Idx → EReal) (W : S256x256.Idx → EReal) (b : S256.Idx → EReal) (we : S256x1.Idx → EReal)
    (be : S1.Idx → EReal) : S1x8192.Idx → EReal :=
  fun i => AttnSpec.colE X W b we be ⟨(i 1).val, (i 1).isLt⟩

/-- At an index whose second coordinate is n the row array is the specification's column at n. -/
theorem prepSpecE2_of (X : S8192x256.Idx → EReal) (W : S256x256.Idx → EReal) (b : S256.Idx → EReal) (we : S256x1.Idx → EReal)
    (be : S1.Idx → EReal) (i : S1x8192.Idx) (n : Fin 8192) (h1 : (i 1).val = n.val) :
    prepSpecE2 X W b we be i = AttnSpec.colE X W b we be n := by
  unfold prepSpecE2
  have e1 : (⟨(i 1).val, (i 1).isLt⟩ : Fin 8192) = n := Fin.ext h1
  rw [e1]

/-- What point t writes back to the row is the block, at block column t, of the specification's column of the whole
    arrays laid out as a row; the kernel's products we2(d, 0) · h(n, d) are the specification's h(n, d) · we2(d, 0). -/
theorem prepFlushedE2 (c : Dev nD) (t : Fin cfg0.N) :
    (prepDat V c).flushed 9 t
      = ((cfg0.win 9).blk t).view.read (Elt Ideal)
          (prepSpecE2 (V c main_arg0) (V c main_arg2) (V c main_arg3) (V c main_arg6) (V c main_arg7)) := by
  show (cfg0.win 9).cut (grid0.coords t) ((prepDat V c).after 9 t) = _
  rw [prepAfter9]
  unfold prepOutE2
  rw [View.canon_unit_zero prepZero2]
  simp only [View.ld_unit_zero (S := S1024x256) prepZero2, View.ld_unit_zero (S := S256x256) prepZero2,
    View.ld_unit_zero (S := S256) prepZero1, View.ld_unit_zero (S := S256x1) prepZero2, View.ld_unit_zero (S := S1) prepZero1]
  funext j
  rw [View.read_apply]
  have hj0 : (j 0).val < 1 := (j 0).isLt
  have hj1 : (j 1).val < 1024 := (j 1).isLt
  have hN : cfg0.N = 8 := N_0
  have ht : t.val < 8 := hN ▸ t.isLt
  have ej : (cfg0.win 9).xinj (grid0.coords t) j = ix2 (⟨(j 0).val, hj0⟩ : Fin 1) (⟨(j 1).val, hj1⟩ : Fin 1024) :=
    funext fun a => by match a with | ⟨0, _⟩ => rfl | ⟨1, _⟩ => rfl
  show k0_pay3 (prepBlk V c 0 t) (prepBlk V c 1 t) (prepBlk V c 2 t) (prepBlk V c 5 t) (prepBlk V c 6 t)
      ((cfg0.win 9).xinj (grid0.coords t) j)
    = prepSpecE2 (V c main_arg0) (V c main_arg2) (V c main_arg3) (V c main_arg6) (V c main_arg7)
      (((cfg0.win 9).blk t).view.emb j)
  rw [ej]
  refine (prepPayE2_apply (prepBlk V c 0 t) (prepBlk V c 1 t) (prepBlk V c 2 t) (prepBlk V c 5 t) (prepBlk V c 6 t)
    ⟨(j 0).val, hj0⟩ ⟨(j 1).val, hj1⟩).trans ?_
  obtain ⟨-, -, -, -, -, -, -, -, -, -, -, -, -, -, -, e0, e1⟩ := prepIdx t
  have hn : 1024 * t.val + (j 1).val < 8192 := by omega
  rw [prepSpecE2_of _ _ _ _ _ (((cfg0.win 9).blk t).view.emb j) ⟨1024 * t.val + (j 1).val, hn⟩
    (by show win0_9.index t (1 : Fin 2) * 1024 + 1 * (j 1).val = 1024 * t.val + (j 1).val; rw [e1]; omega)]
  unfold AttnSpec.colE AttnSpec.projH
  rw [prepBlkBe2_apply]
  refine congrArg (· + _) (Finset.sum_congr rfl fun d _ => ?_)
  rw [prepBlkWe2_apply, prepBlkB_apply]
  refine (mul_comm _ _).trans ?_
  refine congrArg (· * _) (congrArg (· + _) (Finset.sum_congr rfl fun k _ => ?_))
  rw [prepBlkX_apply V c t ⟨(j 1).val, hj1⟩ k ⟨1024 * t.val + (j 1).val, hn⟩ rfl, prepBlkW_apply]

/-- An index of the row is in point t's block iff each coordinate is in the block's range on its axis. -/
theorem prepMemE2 (t : Fin cfg0.N) (i : S1x8192.Idx) :
    i ∈ ((cfg0.win 9).blk t).view.set ↔ ∀ a : Fin 2, win0_9.index t a * S1x1024.size a ≤ (i a).val
      ∧ (i a).val < win0_9.index t a * S1x1024.size a + S1x1024.size a := by
  show i ∈ ((View.whole main_v0_2).slice (win0_9.rect t)).set ↔ _
  rw [View.set_slice_whole, Rect.mem_set_unit]
  exact Iff.rfl

/-- After the last point the row holds the specification's column laid out as a row: entry r is written by point r / 1024. -/
theorem prepFinalE2 (c : Dev nD) :
    (prepDat V c).arrAt 9 cfg0.N
      = prepSpecE2 (V c main_arg0) (V c main_arg2) (V c main_arg3) (V c main_arg6) (V c main_arg7) :=
  (prepDat V c).arrAt_eq_of_cover 9 _ (fun t _ => prepFlushedE2 V c t) fun i => by
    have hN : cfg0.N = 8 := N_0
    have hi0 : (i 0).val < 1 := (i 0).isLt
    have hi1 : (i 1).val < 8192 := (i 1).isLt
    have hlt : (i 1).val / 1024 < cfg0.N := by omega
    obtain ⟨-, -, -, -, -, -, -, -, -, -, -, -, -, -, -, e0, e1⟩ := prepIdx ⟨(i 1).val / 1024, hlt⟩
    refine ⟨⟨(i 1).val / 1024, hlt⟩, flush0_9 _, ?_⟩
    rw [prepMemE2]
    intro a
    match a with
    | ⟨0, _⟩ =>
      show win0_9.index ⟨(i 1).val / 1024, hlt⟩ (0 : Fin 2) * 1 ≤ (i 0).val
        ∧ (i 0).val < win0_9.index ⟨(i 1).val / 1024, hlt⟩ (0 : Fin 2) * 1 + 1
      rw [e0]; omega
    | ⟨1, _⟩ =>
      show win0_9.index ⟨(i 1).val / 1024, hlt⟩ (1 : Fin 2) * 1024 ≤ (i 1).val
        ∧ (i 1).val < win0_9.index ⟨(i 1).val / 1024, hlt⟩ (1 : Fin 2) * 1024 + 1024
      rw [e1]; show (i 1).val / 1024 * 1024 ≤ (i 1).val ∧ (i 1).val < (i 1).val / 1024 * 1024 + 1024; omega

/-- The row e2ᵀ after the last grid point, entry by entry: the specification's score column of we2, be2. -/
theorem prepE2_value (c : Dev nD) (n : Fin 8192) :
    (prepDat V c).arrAt 9 cfg0.N (ix2 (0 : Fin 1) n)
      = AttnSpec.colE (V c main_arg0) (V c main_arg2) (V c main_arg3) (V c main_arg6) (V c main_arg7) n := by
  rw [prepFinalE2]
  exact prepSpecE2_of _ _ _ _ _ _ n rfl

end Cert.KernelIdeal.Hand

end
-- ==== Proof.KI.AttnPieces.lean ====
/-
  What each case of the attention body leaves, as pure functions of the input blocks and of what the point before left in the
  scratch buffers: the new running maximum, the new denominator, the new accumulator and, at a last key tile, the output tile.
  At a first key tile the previous values are the reset ones.
-/
import proofs.«166967_j31688268710357_2_alg».proof.Proof.KI.Attn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzero2 : (![0, 0] : Fin 2 → Nat) = fun _ => 0 := funext fun a => by fin_cases a <;> rfl

/-- The key tile of h the body reads at a point: 1024 rows of the resident array, from the row the key-tile coordinate names. -/
def keyTile (i : grid1.Coords) (x3 : Vec F S8192x256 .bf16) : Vec F S1024x256 .bf16 :=
  View.ld x3 (Rect.unit (s := S8192x256) (k1_off1 i) S1024x256.size (k1_off1_inb i))

/-- First key tile. The new running maximum: the previous one against this key tile's row maxima of the masked scores. The previous value is the reset one. -/
theorem attnMaxA_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) :
    attnMaxA c i arg2 harg2 arg3 harg3 arg4 harg4 arg5 harg5 arg6 harg6 arg7 harg7 arg8 harg8 arg9 harg9 hc0 hc1 x0 x1 x2 x3 = k1_pay2 (k1_pay8 x1 x2 x0 (k1_pay4 (F := F))) := by
  unfold attnMaxA
  rw [View.read_writes_eq_canon _ _ _ (attnCoverMaxA c i arg2 harg2 arg3 harg3 arg4 harg4 arg5 harg5 arg6 harg6 arg7 harg7 arg8 harg8 arg9 harg9 hc0 hc1 x0 x1 x2 x3)]
  unfold attnRunA
  dsimp only
  sl_unfold_words
  rw [View.canon_cons_unit_zero hzero2]
  simp only [View.readCov_unit_zero (S := S1024x1) _ hzero2, View.readCov_unit_zero (S := S1024x256) _ hzero2, View.readAt_eq_ld, Memref.IsWhole.read_unread, View.ld_unit_zero (S := S1024x1) hzero2, View.ld_unit_zero (S := S1x1024) hzero2, View.ld_unit_zero (S := S1024x1024) hzero2, View.ld_unit_zero (S := S1024x256) hzero2]
  try rfl

/-- First key tile. The new denominator: the previous one rescaled by the exponential of the maximum's change, plus this key tile's row sums of exponentials. The previous value is the reset one. -/
theorem attnDenA_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) :
    attnDenA c i arg2 harg2 arg3 harg3 arg4 harg4 arg5 harg5 arg6 harg6 arg7 harg7 arg8 harg8 arg9 harg9 hc0 hc1 x0 x1 x2 x3 = k1_pay11 x1 x2 x0 (k1_pay4 (F := F)) (k1_pay5 (F := F)) := by
  unfold attnDenA
  rw [View.read_writes_eq_canon _ _ _ (attnCoverDenA c i arg2 harg2 arg3 harg3 arg4 harg4 arg5 harg5 arg6 harg6 arg7 harg7 arg8 harg8 arg9 harg9 hc0 hc1 x0 x1 x2 x3)]
  unfold attnRunA
  dsimp only
  sl_unfold_words
  rw [View.canon_cons_unit_zero hzero2]
  simp only [View.readCov_unit_zero (S := S1024x1) _ hzero2, View.readCov_unit_zero (S := S1024x256) _ hzero2, View.readAt_eq_ld, Memref.IsWhole.read_unread, View.ld_unit_zero (S := S1024x1) hzero2, View.ld_unit_zero (S := S1x1024) hzero2, View.ld_unit_zero (S := S1024x1024) hzero2, View.ld_unit_zero (S := S1024x256) hzero2]
  try rfl

/-- First key tile. The new accumulator: the previous one rescaled the same way, plus the exponentials times this key tile of h. The previous value is the reset one. -/
theorem attnAccA_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : attnFirst i) (hc1 : ¬attnLast i)
    (x0 : Vec F S1024x1024 .i32) (x1 : Vec F S1024x1 .f32) (x2 : Vec F S1x1024 .f32) (x3 : Vec F S8192x256 .bf16) :
    attnAccA c i arg2 harg2 arg3 harg3 arg4 harg4 arg5 harg5 arg6 harg6 arg7 harg7 arg8 harg8 arg9 harg9 hc0 hc1 x0 x1 x2 x3 = k1_pay1 (k1_pay9 x1 x2 x0 (k1_pay4 (F := F))) (k1_pay10 x1 x2 x0 (k1_pay4 (F := F))) (keyTile i x3) (k1_pay6 (F := F)) := by
  unfold attnAccA
  rw [View.read_writes_eq_canon _ _ _ (attnCoverAccA c i arg2 harg2 arg3 harg3 arg4 harg4 arg5 harg5 arg6 harg6 arg7 harg7 arg8 harg8 arg9 harg9 hc0 hc1 x0 x1 x2 x3)]
  unfold attnRunA
  dsimp only
  sl_unfold_words
  rw [View.canon_cons_unit_zero hzero2]
  simp only [View.readCov_unit_zero (S := S1024x1) _ hzero2, View.readCov_unit_zero (S := S1024x256) _ hzero2, View.readAt_eq_ld, Memref.IsWhole.read_unread, View.ld_unit_zero (S := S1024x1) hzero2, View.ld_unit_zero (S := S1x1024) hzero2, View.ld_unit_zero (S := S1024x1024) hzero2, View.ld_unit_zero (S := S1024x256) hzero2]
  try rfl
/-- Middle key tile. The new running maximum: the previous one against this key tile's row maxima of the masked scores. -/
theorem attnMaxB_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    attnMaxB c i arg2 harg2 arg3 harg3 arg4 harg4 arg5 harg5 arg6 harg6 arg7 harg7 arg8 harg8 arg9 harg9 hc0 hc1 x0 x1 x2 x3 xs0 xs1 xs2 = k1_pay2 (k1_pay8 x1 x2 x0 xs0) := by
  unfold attnMaxB
  rw [View.read_writes_eq_canon _ _ _ (attnCoverMaxB c i arg2 harg2 arg3 harg3 arg4 harg4 arg5 harg5 arg6 harg6 arg7 harg7 arg8 harg8 arg9 harg9 hc0 hc1 x0 x1 x2 x3 xs0 xs1 xs2)]
  unfold attnRunB
  dsimp only
  sl_unfold_words
  rw [View.canon_unit_zero hzero2]
  simp only [View.readAt_eq_ld, Memref.IsWhole.read_unread, View.ld_unit_zero (S := S1024x1) hzero2, View.ld_unit_zero (S := S1x1024) hzero2, View.ld_unit_zero (S := S1024x1024) hzero2, View.ld_unit_zero (S := S1024x256) hzero2]
  try rfl

/-- Middle key tile. The new denominator: the previous one rescaled by the exponential of the maximum's change, plus this key tile's row sums of exponentials. -/
theorem attnDenB_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    attnDenB c i arg2 harg2 arg3 harg3 arg4 harg4 arg5 harg5 arg6 harg6 arg7 harg7 arg8 harg8 arg9 harg9 hc0 hc1 x0 x1 x2 x3 xs0 xs1 xs2 = k1_pay11 x1 x2 x0 xs0 xs1 := by
  unfold attnDenB
  rw [View.read_writes_eq_canon _ _ _ (attnCoverDenB c i arg2 harg2 arg3 harg3 arg4 harg4 arg5 harg5 arg6 harg6 arg7 harg7 arg8 harg8 arg9 harg9 hc0 hc1 x0 x1 x2 x3 xs0 xs1 xs2)]
  unfold attnRunB
  dsimp only
  sl_unfold_words
  rw [View.canon_unit_zero hzero2]
  simp only [View.readAt_eq_ld, Memref.IsWhole.read_unread, View.ld_unit_zero (S := S1024x1) hzero2, View.ld_unit_zero (S := S1x1024) hzero2, View.ld_unit_zero (S := S1024x1024) hzero2, View.ld_unit_zero (S := S1024x256) hzero2]
  try rfl

/-- Middle key tile. The new accumulator: the previous one rescaled the same way, plus the exponentials times this key tile of h. -/
theorem attnAccB_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : ¬attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    attnAccB c i arg2 harg2 arg3 harg3 arg4 harg4 arg5 harg5 arg6 harg6 arg7 harg7 arg8 harg8 arg9 harg9 hc0 hc1 x0 x1 x2 x3 xs0 xs1 xs2 = k1_pay1 (k1_pay9 x1 x2 x0 xs0) (k1_pay10 x1 x2 x0 xs0) (keyTile i x3) xs2 := by
  unfold attnAccB
  rw [View.read_writes_eq_canon _ _ _ (attnCoverAccB c i arg2 harg2 arg3 harg3 arg4 harg4 arg5 harg5 arg6 harg6 arg7 harg7 arg8 harg8 arg9 harg9 hc0 hc1 x0 x1 x2 x3 xs0 xs1 xs2)]
  unfold attnRunB
  dsimp only
  sl_unfold_words
  rw [View.canon_unit_zero hzero2]
  simp only [View.readAt_eq_ld, Memref.IsWhole.read_unread, View.ld_unit_zero (S := S1024x1) hzero2, View.ld_unit_zero (S := S1x1024) hzero2, View.ld_unit_zero (S := S1024x1024) hzero2, View.ld_unit_zero (S := S1024x256) hzero2]
  try rfl
/-- Last key tile. The new running maximum: the previous one against this key tile's row maxima of the masked scores. -/
theorem attnMaxC_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    attnMaxC c i arg2 harg2 arg3 harg3 arg4 harg4 arg5 harg5 arg6 harg6 arg7 harg7 arg8 harg8 arg9 harg9 hc0 hc1 x0 x1 x2 x3 xs0 xs1 xs2 = k1_pay2 (k1_pay8 x1 x2 x0 xs0) := by
  unfold attnMaxC
  rw [View.read_writes_eq_canon _ _ _ (attnCoverMaxC c i arg2 harg2 arg3 harg3 arg4 harg4 arg5 harg5 arg6 harg6 arg7 harg7 arg8 harg8 arg9 harg9 hc0 hc1 x0 x1 x2 x3 xs0 xs1 xs2)]
  unfold attnRunC
  dsimp only
  sl_unfold_words
  rw [View.canon_unit_zero hzero2]
  simp only [View.readAt_eq_ld, Memref.IsWhole.read_unread, View.ld_unit_zero (S := S1024x1) hzero2, View.ld_unit_zero (S := S1x1024) hzero2, View.ld_unit_zero (S := S1024x1024) hzero2, View.ld_unit_zero (S := S1024x256) hzero2]
  try rfl

/-- Last key tile. The new denominator: the previous one rescaled by the exponential of the maximum's change, plus this key tile's row sums of exponentials. -/
theorem attnDenC_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    attnDenC c i arg2 harg2 arg3 harg3 arg4 harg4 arg5 harg5 arg6 harg6 arg7 harg7 arg8 harg8 arg9 harg9 hc0 hc1 x0 x1 x2 x3 xs0 xs1 xs2 = k1_pay11 x1 x2 x0 xs0 xs1 := by
  unfold attnDenC
  rw [View.read_writes_eq_canon _ _ _ (attnCoverDenC c i arg2 harg2 arg3 harg3 arg4 harg4 arg5 harg5 arg6 harg6 arg7 harg7 arg8 harg8 arg9 harg9 hc0 hc1 x0 x1 x2 x3 xs0 xs1 xs2)]
  unfold attnRunC
  dsimp only
  sl_unfold_words
  rw [View.canon_unit_zero hzero2]
  simp only [View.readAt_eq_ld, Memref.IsWhole.read_unread, View.ld_unit_zero (S := S1024x1) hzero2, View.ld_unit_zero (S := S1x1024) hzero2, View.ld_unit_zero (S := S1024x1024) hzero2, View.ld_unit_zero (S := S1024x256) hzero2]
  try rfl

/-- Last key tile. The new accumulator: the previous one rescaled the same way, plus the exponentials times this key tile of h. -/
theorem attnAccC_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    attnAccC c i arg2 harg2 arg3 harg3 arg4 harg4 arg5 harg5 arg6 harg6 arg7 harg7 arg8 harg8 arg9 harg9 hc0 hc1 x0 x1 x2 x3 xs0 xs1 xs2 = k1_pay1 (k1_pay9 x1 x2 x0 xs0) (k1_pay10 x1 x2 x0 xs0) (keyTile i x3) xs2 := by
  unfold attnAccC
  rw [View.read_writes_eq_canon _ _ _ (attnCoverAccC c i arg2 harg2 arg3 harg3 arg4 harg4 arg5 harg5 arg6 harg6 arg7 harg7 arg8 harg8 arg9 harg9 hc0 hc1 x0 x1 x2 x3 xs0 xs1 xs2)]
  unfold attnRunC
  dsimp only
  sl_unfold_words
  rw [View.canon_unit_zero hzero2]
  simp only [View.readAt_eq_ld, Memref.IsWhole.read_unread, View.ld_unit_zero (S := S1024x1) hzero2, View.ld_unit_zero (S := S1x1024) hzero2, View.ld_unit_zero (S := S1024x1024) hzero2, View.ld_unit_zero (S := S1024x256) hzero2]
  try rfl
/-- The output tile at a last key tile: the new accumulator divided by the new denominator. -/
theorem attnOutC_eq (c : Dev nD) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬attnFirst i) (hc1 : attnLast i)
    (x0 : Vec F S1024x1024 .i32) (x1 : Vec F S1024x1 .f32) (x2 : Vec F S1x1024 .f32) (x3 : Vec F S8192x256 .bf16) (xs0 : Vec F S1024x1 .f32) (xs1 : Vec F S1024x1 .f32) (xs2 : Vec F S1024x256 .f32) :
    attnOutC c i arg2 harg2 arg3 harg3 arg4 harg4 arg5 harg5 arg6 harg6 arg7 harg7 arg8 harg8 arg9 harg9 hc0 hc1 x0 x1 x2 x3 xs0 xs1 xs2 = k1_pay3 (k1_pay1 (k1_pay9 x1 x2 x0 xs0) (k1_pay10 x1 x2 x0 xs0) (keyTile i x3) xs2) (k1_pay11 x1 x2 x0 xs0 xs1) := by
  unfold attnOutC
  rw [View.read_writes_eq_canon _ _ _ (attnCoverOutC c i arg2 harg2 arg3 harg3 arg4 harg4 arg5 harg5 arg6 harg6 arg7 harg7 arg8 harg8 arg9 harg9 hc0 hc1 x0 x1 x2 x3 xs0 xs1 xs2)]
  unfold attnRunC
  dsimp only
  sl_unfold_words
  rw [View.canon_unit_zero hzero2]
  simp only [View.readCov_unit_zero (S := S1024x1) _ hzero2, View.readCov_unit_zero (S := S1024x256) _ hzero2, View.readAt_eq_ld, Memref.IsWhole.read_unread, View.ld_unit_zero (S := S1024x1) hzero2, View.ld_unit_zero (S := S1x1024) hzero2, View.ld_unit_zero (S := S1024x1024) hzero2, View.ld_unit_zero (S := S1024x256) hzero2]
  try rfl

end Cert.KernelIdeal.Hand

end
-- ==== Proof.KI.AttnBlocks.lean ====
/-
  The attention kernel's blocks as entries of the whole arrays, and its output array after the last grid point.

  Point t of the 64 is query tile t / 8 and key tile t % 8. Its block of the adjacency matrix is rows 1024 (t / 8) … and
  columns 1024 (t % 8) …; its block of the query column is entries 1024 (t / 8) …; its block of the key row is entries
  1024 (t % 8) …; the projected features are resident whole, and the body reads their rows 1024 (t % 8) …. The output tile
  of query tile q is written back once, at its last key tile (point 8 q + 7), to rows 1024 q … of the output: these eight
  blocks tile the output array, so it ends holding any function whose block at each such point is the tile left there.
-/
import proofs.«166967_j31688268710357_2_alg».proof.Proof.KI.AttnPieces
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ## Rows and columns of a point's tiles -/

/-- Row p of point t's query tile is row 1024 (t / 8) + p of the whole arrays. -/
def qRow (t : Fin cfg1.N) (p : Fin 1024) : Fin 8192 :=
  ⟨1024 * (t.val / 8) + p.val, by have hN : cfg1.N = 64 := N_1; have ht := t.isLt; have hp := p.isLt; omega⟩

/-- Key j of point t's key tile is key 1024 (t % 8) + j of the whole arrays. -/
def kCol (t : Fin cfg1.N) (j : Fin 1024) : Fin 8192 :=
  ⟨1024 * (t.val % 8) + j.val, by have hj := j.isLt; omega⟩

/-! ## The blocks' index maps over the grid -/

/-- Point t's adjacency block sits at block (t / 8, t % 8); its query-column block at block row t / 8; its key-row block at
    block column t % 8; the projected features are one block; its output block sits at block row t / 8; and the rows of
    the projected features the body reads start at 1024 (t % 8). -/
theorem attnIdx : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = 0 ∧ win1_3.index t (1 : Fin 2) = 0
    ∧ win1_4.index t (0 : Fin 2) = t.val / 8 ∧ win1_4.index t (1 : Fin 2) = 0
    ∧ k1_off1 (grid1.coords t) (0 : Fin 2) = 1024 * (t.val % 8) ∧ k1_off1 (grid1.coords t) (1 : Fin 2) = 0 :=
  (by decide +kernel : ∀ t : Fin grid1.N, _)

/-! ## The input blocks as entries of the whole arrays -/

/-- Point t's adjacency block at (p, j) is the adjacency matrix at (row p of the query tile, key j of the key tile). -/
theorem attnBlkAdj (c : Dev nD) (t : Fin cfg1.N) (p j : Fin 1024) :
    (attnBlk V c 0 t : Vec F S1024x1024 .i32) (ix2 p j) = (V c main_arg1 : S8192x8192.Idx → Elt F .i32) (ix2 (qRow t p) (kCol t j)) := by
  unfold attnBlk
  rw [View.read_apply]
  show V c main_arg1 (((cfg1.win 0).blk t).view.emb (ix2 p j)) = V c main_arg1 (ix2 (qRow t p) (kCol t j))
  refine congrArg (V c main_arg1) (funext fun a => Fin.ext ?_)
  obtain ⟨e0, e1, -⟩ := attnIdx t
  match a with
  | ⟨0, _⟩ => show win1_0.index t (0 : Fin 2) * 1024 + 1 * p.val = 1024 * (t.val / 8) + p.val; rw [e0]; omega
  | ⟨1, _⟩ => show win1_0.index t (1 : Fin 2) * 1024 + 1 * j.val = 1024 * (t.val % 8) + j.val; rw [e1]; omega

/-- Point t's block of the query column at (p, 0) is the column at row p of the query tile. -/
theorem attnBlkE1 (c : Dev nD) (t : Fin cfg1.N) (p : Fin 1024) :
    (attnBlk V c 1 t : Vec F S1024x1 .f32) (ix2 p (0 : Fin 1)) = (V c main_v0_1 : S8192x1.Idx → Elt F .f32) (ix2 (qRow t p) (0 : Fin 1)) := by
  unfold attnBlk
  rw [View.read_apply]
  show V c main_v0_1 (((cfg1.win 1).blk t).view.emb (ix2 p (0 : Fin 1))) = V c main_v0_1 (ix2 (qRow t p) (0 : Fin 1))
  refine congrArg (V c main_v0_1) (funext fun a => Fin.ext ?_)
  obtain ⟨-, -, e0, e1, -⟩ := attnIdx t
  match a with
  | ⟨0, _⟩ => show win1_1.index t (0 : Fin 2) * 1024 + 1 * p.val = 1024 * (t.val / 8) + p.val; rw [e0]; omega
  | ⟨1, _⟩ => show win1_1.index t (1 : Fin 2) * 1 + 1 * 0 = 0; rw [e1]

/-- Point t's block of the key row at (0, j) is the row at key j of the key tile. -/
theorem attnBlkE2 (c : Dev nD) (t : Fin cfg1.N) (j : Fin 1024) :
    (attnBlk V c 2 t : Vec F S1x1024 .f32) (ix2 (0 : Fin 1) j) = (V c main_v0_2 : S1x8192.Idx → Elt F .f32) (ix2 (0 : Fin 1) (kCol t j)) := by
  unfold attnBlk
  rw [View.read_apply]
  show V c main_v0_2 (((cfg1.win 2).blk t).view.emb (ix2 (0 : Fin 1) j)) = V c main_v0_2 (ix2 (0 : Fin 1) (kCol t j))
  refine congrArg (V c main_v0_2) (funext fun a => Fin.ext ?_)
  obtain ⟨-, -, -, -, e0, e1, -⟩ := attnIdx t
  match a with
  | ⟨0, _⟩ => show win1_2.index t (0 : Fin 2) * 1 + 1 * 0 = 0; rw [e0]
  | ⟨1, _⟩ => show win1_2.index t (1 : Fin 2) * 1024 + 1 * j.val = 1024 * (t.val % 8) + j.val; rw [e1]; omega

/-- Every point's block of the projected features is the whole array. -/
theorem attnBlkH (c : Dev nD) (t : Fin cfg1.N) (r : Fin 8192) (d : Fin 256) :
    (attnBlk V c 3 t : Vec F S8192x256 .bf16) (ix2 r d) = (V c main_v0_0 : S8192x256.Idx → Elt F .bf16) (ix2 r d) := by
  unfold attnBlk
  rw [View.read_apply]
  show V c main_v0_0 (((cfg1.win 3).blk t).view.emb (ix2 r d)) = V c main_v0_0 (ix2 r d)
  refine congrArg (V c main_v0_0) (funext fun a => Fin.ext ?_)
  obtain ⟨-, -, -, -, -, -, e0, e1, -⟩ := attnIdx t
  match a with
  | ⟨0, _⟩ => show win1_3.index t (0 : Fin 2) * 8192 + 1 * r.val = r.val; rw [e0]; omega
  | ⟨1, _⟩ => show win1_3.index t (1 : Fin 2) * 256 + 1 * d.val = d.val; rw [e1]; omega

/-- The key tile the body reads at point t, at (j, d), is the projected features at (key j of the key tile, d). -/
theorem attnKeyTile (c : Dev nD) (t : Fin cfg1.N) (j : Fin 1024) (d : Fin 256) :
    keyTile (grid1.coords t) (attnBlk V c 3 t) (ix2 j d) = (V c main_v0_0 : S8192x256.Idx → Elt F .bf16) (ix2 (kCol t j) d) := by
  obtain ⟨-, -, -, -, -, -, -, -, -, -, o0, o1⟩ := attnIdx t
  have e : (Rect.unit (s := S8192x256) (k1_off1 (grid1.coords t)) S1024x256.size (k1_off1_inb (grid1.coords t))).emb (ix2 j d)
      = ix2 (kCol t j) d := funext fun a => Fin.ext (by
    rw [Rect.emb_apply]
    match a with
    | ⟨0, _⟩ => show k1_off1 (grid1.coords t) (0 : Fin 2) + 1 * j.val = 1024 * (t.val % 8) + j.val; rw [o0]; omega
    | ⟨1, _⟩ => show k1_off1 (grid1.coords t) (1 : Fin 2) + 1 * d.val = d.val; rw [o1]; omega)
  unfold keyTile
  show (attnBlk V c 3 t : Vec F S8192x256 .bf16)
    ((Rect.unit (s := S8192x256) (k1_off1 (grid1.coords t)) S1024x256.size (k1_off1_inb (grid1.coords t))).emb (ix2 j d)) = _
  rw [e]
  exact attnBlkH V c t (kCol t j) d

/-! ## From the output tiles to the output array -/

/-- An index of the output is in point t's block iff each coordinate is in the block's range on its axis. -/
theorem attnMemOut (t : Fin cfg1.N) (i : S8192x256.Idx) :
    i ∈ ((cfg1.win 4).blk t).view.set ↔ ∀ a : Fin 2, win1_4.index t a * S1024x256.size a ≤ (i a).val
      ∧ (i a).val < win1_4.index t a * S1024x256.size a + S1024x256.size a := by
  show i ∈ ((View.whole main_v1).slice (win1_4.rect t)).set ↔ _
  rw [View.set_slice_whole, Rect.mem_set_unit]
  exact Iff.rfl

/-- What a last-key-tile point t writes back is the block, at block row t / 8, of any array G whose entries on those rows
    are the output tile left at t. -/
theorem attnFlushedOut (c : Dev nD) (G : S8192x256.Idx → Elt F .f32) (t : Fin cfg1.N)
    (hG : ∀ (p : Fin 1024) (d : Fin 256), (attnOuts V c t.val t.isLt).1 (ix2 p d) = G (ix2 (qRow t p) d)) :
    (attnDat V c).flushed 4 t = ((cfg1.win 4).blk t).view.read (Elt F) G := by
  show (cfg1.win 4).cut (grid1.coords t) ((attnDat V c).after 4 t) = _
  rw [attnAfter4]
  funext j
  rw [View.read_apply]
  have hj0 : (j 0).val < 1024 := (j 0).isLt
  have hj1 : (j 1).val < 256 := (j 1).isLt
  have ej : (cfg1.win 4).xinj (grid1.coords t) j = ix2 (⟨(j 0).val, hj0⟩ : Fin 1024) (⟨(j 1).val, hj1⟩ : Fin 256) :=
    funext fun a => by match a with | ⟨0, _⟩ => rfl | ⟨1, _⟩ => rfl
  show (attnOuts V c t.val t.isLt).1 ((cfg1.win 4).xinj (grid1.coords t) j) = G (((cfg1.win 4).blk t).view.emb j)
  rw [ej]
  refine (hG ⟨(j 0).val, hj0⟩ ⟨(j 1).val, hj1⟩).trans (congrArg G (funext fun a => Fin.ext ?_))
  obtain ⟨-, -, -, -, -, -, -, -, e0, e1, -⟩ := attnIdx t
  match a with
  | ⟨0, _⟩ => show 1024 * (t.val / 8) + (j 0).val = win1_4.index t (0 : Fin 2) * 1024 + 1 * (j 0).val; rw [e0]; omega
  | ⟨1, _⟩ => show (j 1).val = win1_4.index t (1 : Fin 2) * 256 + 1 * (j 1).val; rw [e1]; omega

/-- After the last point the output array holds G, for any G whose rows 1024 q … are the output tile left at the last key
    tile of query tile q: row r is written by point 8 (r / 1024) + 7, and by no point that is not a last key tile. -/
theorem attnFinal (c : Dev nD) (G : S8192x256.Idx → Elt F .f32)
    (hG : ∀ t : Fin cfg1.N, t.val % 8 = 7 → ∀ (p : Fin 1024) (d : Fin 256),
      (attnOuts V c t.val t.isLt).1 (ix2 p d) = G (ix2 (qRow t p) d)) :
    (attnDat V c).arrAt 4 cfg1.N = G :=
  (attnDat V c).arrAt_eq_of_cover 4 G (fun t hf => attnFlushedOut V c G t (hG t ((flush1_4 t).mp hf))) fun i => by
    have hN : cfg1.N = 64 := N_1
    have hi0 : (i 0).val < 8192 := (i 0).isLt
    have hi1 : (i 1).val < 256 := (i 1).isLt
    have hlt : 8 * ((i 0).val / 1024) + 7 < cfg1.N := by omega
    obtain ⟨-, -, -, -, -, -, -, -, e0, e1, -⟩ := attnIdx ⟨8 * ((i 0).val / 1024) + 7, hlt⟩
    refine ⟨⟨8 * ((i 0).val / 1024) + 7, hlt⟩, (flush1_4 _).mpr (by show (8 * ((i 0).val / 1024) + 7) % 8 = 7; omega), ?_⟩
    rw [attnMemOut]
    intro a
    match a with
    | ⟨0, _⟩ =>
      show win1_4.index ⟨8 * ((i 0).val / 1024) + 7, hlt⟩ (0 : Fin 2) * 1024 ≤ (i 0).val
        ∧ (i 0).val < win1_4.index ⟨8 * ((i 0).val / 1024) + 7, hlt⟩ (0 : Fin 2) * 1024 + 1024
      rw [e0]
      show (8 * ((i 0).val / 1024) + 7) / 8 * 1024 ≤ (i 0).val ∧ (i 0).val < (8 * ((i 0).val / 1024) + 7) / 8 * 1024 + 1024
      omega
    | ⟨1, _⟩ =>
      show win1_4.index ⟨8 * ((i 0).val / 1024) + 7, hlt⟩ (1 : Fin 2) * 256 ≤ (i 1).val
        ∧ (i 1).val < win1_4.index ⟨8 * ((i 0).val / 1024) + 7, hlt⟩ (1 : Fin 2) * 256 + 256
      rw [e1]; omega

end Cert.KernelIdeal.Hand

end
-- ==== Proof.KI.AttnIdx.lean ====
/-
  The attention body's arithmetic read at one index, at the exact instance (floats are extended reals).

  Row p of a query tile meets key j of a key tile in the masked score; the new running maximum of row p is the old one
  against the tile's row maximum; the rescaling factor is the exponential of the maximum's change; the new denominator and
  accumulator are the old ones rescaled plus the tile's sums of exponentials (times the tile of h). Read at a row p and an
  output column d these are exactly one step of the online-softmax recurrence on the triple (maximum, denominator,
  numerator), with the tile's scores of row p as the block's scores and column d of the tile of h as its values.
-/
import proofs.«166967_j31688268710357_2_alg».proof.Proof.Gen.KernelIdeal.Skeleton
import proofs.«166967_j31688268710357_2_alg».proof.Proof.LibColumn
import proofs.«166967_j31688268710357_2_alg».proof.Proof.LibOnlineSoftmax
import proofs.«166967_j31688268710357_2_alg».proof.Proof.Ref.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.ShloMosaic.ValueIdx

/-! ## Layout operations of the body at an index -/

/-- A column broadcast along the keys reads the column's row. -/
theorem colToKeys (v : FVec Ideal S1024x1 .f32) (p j : Fin 1024) :
    broadcastTo S1024x1024 v broadcasts_S1024x1_S1024x1024 (ix2 p j) = v (ix2 p 0) :=
  broadcastTo_a1_ab_apply _ broadcasts_S1024x1_S1024x1024 p j

/-- A column broadcast along the features reads the column's row. -/
theorem colToFeat (v : FVec Ideal S1024x1 .f32) (p : Fin 1024) (d : Fin 256) :
    broadcastTo S1024x256 v broadcasts_S1024x1_S1024x256 (ix2 p d) = v (ix2 p 0) :=
  broadcastTo_a1_ab_apply _ broadcasts_S1024x1_S1024x256 p d

/-- The query column e1, recast and broadcast along the keys. -/
theorem queryCol (v3 : FVec Ideal S1024x1 .f32) (p j : Fin 1024) :
    broadcastTo S1024x1024 (shapeCast S1024x1 v3 shapeCasts_S1024x1_S1024x1) broadcasts_S1024x1_S1024x1024 (ix2 p j) = v3 (ix2 p 0) := by
  refine (broadcastTo_a1_ab_apply _ broadcasts_S1024x1_S1024x1024 p j).trans ?_
  rw [shapeCast_self]

/-- The key row e2ᵀ, recast and broadcast along the queries. -/
theorem keyRow (v5 : FVec Ideal S1x1024 .f32) (p j : Fin 1024) :
    broadcastTo S1024x1024 (shapeCast S1x1024 v5 shapeCasts_S1x1024_S1x1024) broadcasts_S1x1024_S1024x1024 (ix2 p j) = v5 (ix2 0 j) := by
  refine (broadcastTo_1b_ab_apply _ broadcasts_S1x1024_S1024x1024 p j).trans ?_
  rw [shapeCast_self]

/-- The bit pattern of minus infinity is the bottom of the extended reals. -/
theorem negInf : Ideal.ofBits .f32 0xFF800000#32 = ⊥ := by
  simp [Ideal.ofBits, Ideal.ieee]

/-- A row index with the key coordinate put back. -/
theorem rowLift (h : S1024x1024.Reduces [1] S1024) (p : Fin 1024) (k : Fin (S1024x1024.size 1)) :
    h.lift (ix1 p) k = ix2 p (⟨k.val, k.isLt⟩ : Fin 1024) := by
  funext c
  apply Fin.ext
  fin_cases c <;> rfl

/-- The exponential of a vector, at an index. -/
theorem exp_at {s : Shape} (v : FVec Ideal s .f32) (i : s.Idx) : exp v i = Ideal.exp (v i) := rfl

/-! ## The masked score -/

theorem pay7_apply (v3 : FVec Ideal S1024x1 .f32) (v5 : FVec Ideal S1x1024 .f32) (v15 : IVec S1024x1024 32) (p j : Fin 1024) :
    k1_pay7 (F := Ideal) v3 v5 v15 (ix2 p j) = AttnSpec.scoreOf (v15 (ix2 p j)) (v3 (ix2 p 0) + v5 (ix2 0 j)) := by
  have h1 : k1_pay7 (F := Ideal) v3 v5 v15 (ix2 p j)
      = AttnSpec.scoreOf (v15 (ix2 p j))
          (broadcastTo S1024x1024 (shapeCast S1024x1 v3 shapeCasts_S1024x1_S1024x1) broadcasts_S1024x1_S1024x1024 (ix2 p j)
            + broadcastTo S1024x1024 (shapeCast S1x1024 v5 shapeCasts_S1x1024_S1x1024) broadcasts_S1x1024_S1024x1024 (ix2 p j)) := rfl
  rw [h1, queryCol, keyRow]

/-! ## The running maximum, the rescaling factor, the exponentials -/

theorem pay8_apply (v3 : FVec Ideal S1024x1 .f32) (v5 : FVec Ideal S1x1024 .f32) (v15 : IVec S1024x1024 32) (v20 : FVec Ideal S1024x1 .f32) (p : Fin 1024) :
    k1_pay8 (F := Ideal) v3 v5 v15 v20 (ix2 p 0) = max (v20 (ix2 p 0)) ((Finset.univ : Finset (Fin 1024)).fold max ⊥ (fun j => k1_pay7 (F := Ideal) v3 v5 v15 (ix2 p j))) := by
  have h1 : k1_pay8 (F := Ideal) v3 v5 v15 v20 (ix2 p 0)
      = maximumf v20 (shapeCast S1024x1 (multiReduction .maximumf [1] S1024 (k1_pay7 (F := Ideal) v3 v5 v15) 0xFF800000#32 reduces_S1024x1024_S1024 (.inl rfl) rfl) shapeCasts_S1024_S1024x1) (ix2 p 0) := rfl
  rw [h1, maximumf_apply, shapeCast_a_a1_apply]
  refine congrArg (max (v20 (ix2 p 0))) ?_
  refine (Ideal.multiReduction_maximumf_single (k1_pay7 (F := Ideal) v3 v5 v15) 0xFF800000#32 reduces_S1024x1024_S1024 (.inl rfl) rfl (ix1 p)).trans ?_
  rw [show FloatOps.ofBits (F := Ideal) .f32 0xFF800000#32 = (⊥ : EReal) from negInf]
  show (Finset.univ : Finset (Fin 1024)).fold max ⊥ (fun k => k1_pay7 (F := Ideal) v3 v5 v15 (reduces_S1024x1024_S1024.lift (ix1 p) k)) = _
  refine congrArg (fun f => (Finset.univ : Finset (Fin 1024)).fold max (⊥ : EReal) f) (funext fun k => ?_)
  exact congrArg (k1_pay7 (F := Ideal) v3 v5 v15) (rowLift _ p k)

theorem pay9_apply (v3 : FVec Ideal S1024x1 .f32) (v5 : FVec Ideal S1x1024 .f32) (v15 : IVec S1024x1024 32) (v20 : FVec Ideal S1024x1 .f32) (p : Fin 1024) :
    k1_pay9 (F := Ideal) v3 v5 v15 v20 (ix2 p 0) = Ideal.exp (v20 (ix2 p 0) - k1_pay8 (F := Ideal) v3 v5 v15 v20 (ix2 p 0)) := by
  have h1 : k1_pay9 (F := Ideal) v3 v5 v15 v20 (ix2 p 0) = exp (subf v20 (k1_pay8 (F := Ideal) v3 v5 v15 v20)) (ix2 p 0) := rfl
  rw [h1, exp_at, subf_apply]

theorem pay10_apply (v3 : FVec Ideal S1024x1 .f32) (v5 : FVec Ideal S1x1024 .f32) (v15 : IVec S1024x1024 32) (v20 : FVec Ideal S1024x1 .f32) (p j : Fin 1024) :
    k1_pay10 (F := Ideal) v3 v5 v15 v20 (ix2 p j) = Ideal.exp (k1_pay7 (F := Ideal) v3 v5 v15 (ix2 p j) - k1_pay8 (F := Ideal) v3 v5 v15 v20 (ix2 p 0)) := by
  have h1 : k1_pay10 (F := Ideal) v3 v5 v15 v20 (ix2 p j)
      = exp (subf (k1_pay7 (F := Ideal) v3 v5 v15) (broadcastTo S1024x1024 (k1_pay8 (F := Ideal) v3 v5 v15 v20) broadcasts_S1024x1_S1024x1024)) (ix2 p j) := rfl
  rw [h1, exp_at, subf_apply, colToKeys]

/-! ## The denominator and the accumulator -/

theorem pay11_apply (v3 : FVec Ideal S1024x1 .f32) (v5 : FVec Ideal S1x1024 .f32) (v15 : IVec S1024x1024 32) (v20 : FVec Ideal S1024x1 .f32) (v29 : FVec Ideal S1024x1 .f32) (p : Fin 1024) :
    k1_pay11 (F := Ideal) v3 v5 v15 v20 v29 (ix2 p 0) = k1_pay9 (F := Ideal) v3 v5 v15 v20 (ix2 p 0) * v29 (ix2 p 0) + ∑ j : Fin 1024, k1_pay10 (F := Ideal) v3 v5 v15 v20 (ix2 p j) := by
  have h1 : k1_pay11 (F := Ideal) v3 v5 v15 v20 v29 (ix2 p 0)
      = shapeCast S1024x1 (addf (mulf (k1_pay9 (F := Ideal) v3 v5 v15 v20) v29) (shapeCast S1024x1 (multiReduction .add [1] S1024 (k1_pay10 (F := Ideal) v3 v5 v15 v20) 0x00000000#32 reduces_S1024x1024_S1024 (.inl rfl) rfl) shapeCasts_S1024_S1024x1)) shapeCasts_S1024x1_S1024x1 (ix2 p 0) := rfl
  rw [h1, shapeCast_self, addf_apply, mulf_apply, shapeCast_a_a1_apply]
  refine congrArg (k1_pay9 (F := Ideal) v3 v5 v15 v20 (ix2 p 0) * v29 (ix2 p 0) + ·) ?_
  refine (Ideal.multiReduction_add_single (k1_pay10 (F := Ideal) v3 v5 v15 v20) 0x00000000#32 reduces_S1024x1024_S1024 (.inl rfl) rfl (ix1 p)).trans ?_
  show ∑ k : Fin 1024, k1_pay10 (F := Ideal) v3 v5 v15 v20 (reduces_S1024x1024_S1024.lift (ix1 p) k) = _
  exact Finset.sum_congr rfl fun k _ => congrArg (k1_pay10 (F := Ideal) v3 v5 v15 v20) (rowLift _ p k)

/-- The matmul of the exponentials with a tile of h. -/
abbrev attnDot : DotDims S1024x1024 S1024x256 S1024x256 := dot_S1024x1024_S1024x256_S1024x256_1_0_0_1_n_n

theorem attnDot_lhs0 (i : S1024x256.Idx) (q : attnDot.contr.Idx) : (attnDot.lhsIdx i q 0).val = (i 0).val := by
  unfold DotDims.lhsIdx
  rw [dif_neg (show ¬(0 : Fin S1024x1024.rank) ∈ attnDot.lhsBatch by decide), dif_pos (show (0 : Fin S1024x1024.rank) ∈ attnDot.lhsNonContracting by decide)]
  rfl
theorem attnDot_lhs1 (i : S1024x256.Idx) (q : attnDot.contr.Idx) : (attnDot.lhsIdx i q 1).val = (q ⟨0, by decide⟩).val :=
  attnDot.lhsIdx_val_of_single rfl i q
theorem attnDot_rhs0 (i : S1024x256.Idx) (q : attnDot.contr.Idx) : (attnDot.rhsIdx i q 0).val = (q ⟨0, by decide⟩).val :=
  attnDot.rhsIdx_val_of_single rfl i q
theorem attnDot_rhs1 (i : S1024x256.Idx) (q : attnDot.contr.Idx) : (attnDot.rhsIdx i q 1).val = (i 1).val := by
  unfold DotDims.rhsIdx
  rw [dif_neg (show ¬(1 : Fin S1024x256.rank) ∈ attnDot.rhsBatch by decide), dif_pos (show (1 : Fin S1024x256.rank) ∈ attnDot.rhsNonContracting by decide)]
  rfl

theorem attnMatmul_apply (lhs : FVec Ideal S1024x1024 .bf16) (rhs : FVec Ideal S1024x256 .bf16) (p : Fin 1024) (d : Fin 256) :
    matmul attnDot none lhs rhs (constant S1024x256 .f32 0x00000000#32) (ix2 p d) = ∑ j : Fin 1024, lhs (ix2 p j) * rhs (ix2 j d) := by
  simp only [matmul]
  rw [Ideal.matmul_constant_zero_apply, ← Equiv.sum_comp (ValueIdx.contrEquiv1 attnDot 1024 rfl rfl).symm]
  refine Finset.sum_congr rfl fun k _ => ?_
  have hk := ValueIdx.contrEquiv1_symm_val attnDot 1024 rfl rfl k
  have el : attnDot.lhsIdx (ix2 p d) ((ValueIdx.contrEquiv1 attnDot 1024 rfl rfl).symm k) = ix2 p k := funext fun a => Fin.ext (by
    match a with
    | ⟨0, _⟩ => exact attnDot_lhs0 _ _
    | ⟨1, _⟩ => exact (attnDot_lhs1 _ _).trans hk)
  have er : attnDot.rhsIdx (ix2 p d) ((ValueIdx.contrEquiv1 attnDot 1024 rfl rfl).symm k) = ix2 k d := funext fun a => Fin.ext (by
    match a with
    | ⟨0, _⟩ => exact (attnDot_rhs0 _ _).trans hk
    | ⟨1, _⟩ => exact attnDot_rhs1 _ _)
  rw [el, er]

theorem pay1_apply (v25 : FVec Ideal S1024x1 .f32) (v28 : FVec Ideal S1024x1024 .f32) (v40 : FVec Ideal S1024x256 .bf16) (v42 : FVec Ideal S1024x256 .f32) (p : Fin 1024) (d : Fin 256) :
    k1_pay1 (F := Ideal) v25 v28 v40 v42 (ix2 p d) = v25 (ix2 p 0) * v42 (ix2 p d) + ∑ j : Fin 1024, v28 (ix2 p j) * v40 (ix2 j d) := by
  have h1 : k1_pay1 (F := Ideal) v25 v28 v40 v42 (ix2 p d)
      = shapeCast S1024x256 (addf (mulf (broadcastTo S1024x256 v25 broadcasts_S1024x1_S1024x256) v42)
          (matmul attnDot none (truncf .bf16 v28 bitsLt_bf16_f32) (shapeCast S1024x256 v40 shapeCasts_S1024x256_S1024x256) (constant S1024x256 .f32 0x00000000#32)))
          shapeCasts_S1024x256_S1024x256 (ix2 p d) := rfl
  rw [h1, shapeCast_self, shapeCast_self, addf_apply, mulf_apply, colToFeat, attnMatmul_apply]
  simp only [truncf_apply]

theorem pay2_eq (v23 : FVec Ideal S1024x1 .f32) : k1_pay2 (F := Ideal) v23 = v23 := shapeCast_self _ _

theorem pay3_apply (v57 : FVec Ideal S1024x256 .f32) (v58 : FVec Ideal S1024x1 .f32) (p : Fin 1024) (d : Fin 256) :
    k1_pay3 (F := Ideal) v57 v58 (ix2 p d) = Ideal.div (v57 (ix2 p d)) (v58 (ix2 p 0)) := by
  have h1 : k1_pay3 (F := Ideal) v57 v58 (ix2 p d) = divf v57 (broadcastTo S1024x256 v58 broadcasts_S1024x1_S1024x256) (ix2 p d) := rfl
  rw [h1, divf_apply, colToFeat]

/-! ## The reset values -/

theorem pay4_apply (i : S1024x1.Idx) : k1_pay4 (F := Ideal) i = ⊥ := by
  have h1 : k1_pay4 (F := Ideal) i = shapeCast S1024x1 (broadcast S1024x1 (Scalar.ofBits (F := Ideal) .f32 0xFF800000#32)) shapeCasts_S1024x1_S1024x1 i := rfl
  rw [h1, shapeCast_self, broadcast_apply]
  exact negInf

theorem pay5_apply (i : S1024x1.Idx) : k1_pay5 (F := Ideal) i = 0 := by
  have h1 : k1_pay5 (F := Ideal) i = shapeCast S1024x1 (broadcast S1024x1 (Scalar.ofBits (F := Ideal) .f32 0x00000000#32)) shapeCasts_S1024x1_S1024x1 i := rfl
  rw [h1, shapeCast_self, broadcast_apply]
  exact Ideal.ofBits_zero_f32

theorem pay6_apply (i : S1024x256.Idx) : k1_pay6 (F := Ideal) i = 0 := by
  have h1 : k1_pay6 (F := Ideal) i = shapeCast S1024x256 (broadcast S1024x256 (Scalar.ofBits (F := Ideal) .f32 0x00000000#32)) shapeCasts_S1024x256_S1024x256 i := rfl
  rw [h1, shapeCast_self, broadcast_apply]
  exact Ideal.ofBits_zero_f32

/-! ## One body step is one step of the online recurrence -/

/-- At row `p` and output column `d`: the body's new (maximum, denominator, accumulator) is the recurrence's step from the
    old triple, over the tile's masked scores of row `p` and column `d` of the tile of h. -/
theorem body_step (v3 : FVec Ideal S1024x1 .f32) (v5 : FVec Ideal S1x1024 .f32) (v15 : IVec S1024x1024 32) (v20 : FVec Ideal S1024x1 .f32) (v29 : FVec Ideal S1024x1 .f32) (v40 : FVec Ideal S1024x256 .bf16) (v42 : FVec Ideal S1024x256 .f32)
    (p : Fin 1024) (d : Fin 256) :
    (k1_pay8 (F := Ideal) v3 v5 v15 v20 (ix2 p 0), k1_pay11 (F := Ideal) v3 v5 v15 v20 v29 (ix2 p 0), k1_pay1 (F := Ideal) (k1_pay9 (F := Ideal) v3 v5 v15 v20) (k1_pay10 (F := Ideal) v3 v5 v15 v20) v40 v42 (ix2 p d))
      = OnlineSoftmax.estep Ideal.exp (v20 (ix2 p 0), v29 (ix2 p 0), v42 (ix2 p d)) (fun j : Fin 1024 => k1_pay7 (F := Ideal) v3 v5 v15 (ix2 p j)) (fun j : Fin 1024 => v40 (ix2 j d)) := by
  unfold OnlineSoftmax.estep
  rw [pay11_apply, pay1_apply, pay9_apply]
  simp only [pay10_apply, pay8_apply]

end Cert.KernelIdeal.HandValue

end
-- ==== Proof.KI.AttnValue.lean ====
/-
  The attention kernel's result, index by index.

  Fix a query row i = 1024 q + p and an output column d. Walking the eight key tiles of query tile q, the body's three
  running quantities at (p, ·) are the online-softmax recurrence's state over the row's masked scores (real numbers, the
  inputs being finite) and column d of h: after key tile k they are the recurrence's state after block k. At the last key
  tile the stored output is the accumulator over the denominator, which is not zero. The output array is tiled by the
  tiles stored at the eight last key tiles.
-/
import proofs.«166967_j31688268710357_2_alg».proof.Proof.KI.AttnBlocks
import proofs.«166967_j31688268710357_2_alg».proof.Proof.KI.AttnIdx

set_option maxRecDepth 16384

noncomputable section

namespace Cert.KernelIdeal.Hand

open Cert.KernelIdeal Cert.KernelIdeal.Gen Cert.KernelIdeal.HandValue
open Idealize.ShloMosaic Idealize.ShloMosaic.TcCoe Idealize.ShloMosaic.ValueIdx
open AttnSpec

variable (V : (c : Dev nD) → (b : Ref sig .tc) → Buf (Elt Ideal) ((c : Thread nD τ).loc b)) (c : Dev nD)
variable (adj : SAdj.Idx → BitVec 32) (X : SX.Idx → EReal) (W : SW.Idx → EReal) (b : Sb.Idx → EReal)
  (we1 : Swe.Idx → EReal) (be1 : Sbe.Idx → EReal) (we2 : Swe.Idx → EReal) (be2 : Sbe.Idx → EReal)

/-- What the attention kernel finds in its arrays when it is entered: the adjacency as given, h, e1 and e2ᵀ as the
    specification's projections of finite inputs. -/
structure AttnEntry : Prop where
  adj_eq : ∀ i j : Fin 8192, V c main_arg1 (ix2 i j) = adj (ix2 i j)
  h_eq : ∀ (n : Fin 8192) (d : Fin 256), V c main_v0_0 (ix2 n d) = projH X W b n d
  e1_eq : ∀ n : Fin 8192, V c main_v0_1 (ix2 n (0 : Fin 1)) = colE X W b we1 be1 n
  e2_eq : ∀ n : Fin 8192, V c main_v0_2 (ix2 (0 : Fin 1) n) = colE X W b we2 be2 n
  hX : IsReal X
  hW : IsReal W
  hb : IsReal b
  hwe1 : IsReal we1
  hbe1 : IsReal be1
  hwe2 : IsReal we2
  hbe2 : IsReal be2

/-- The result at row `i`, column `d`: the online recurrence's final numerator over its final denominator. -/
def attnResult (i : Fin 8192) (d : Fin 256) : EReal :=
  (OnlineSoftmax.erun Ideal.exp (sR adj X W b we1 be1 we2 be2 i) (vR X W b d) 7).2.2
    * ((OnlineSoftmax.erun Ideal.exp (sR adj X W b we1 be1 we2 be2 i) (vR X W b d) 7).2.1)⁻¹

variable {V c adj X W b we1 be1 we2 be2}

/-- The tile's masked score of row `p` against key `j` is the row's real score at that key. -/
theorem tileScore (he : AttnEntry V c adj X W b we1 be1 we2 be2) (t : Fin cfg1.N) (p j : Fin 1024) :
    k1_pay7 (F := Ideal) (attnBlk V c 1 t) (attnBlk V c 2 t) (attnBlk V c 0 t) (ix2 p j)
      = ((sR adj X W b we1 be1 we2 be2 (qRow t p) (t.val % 8) j : ℝ) : EReal) := by
  refine (pay7_apply _ _ _ p j).trans ?_
  rw [attnBlkAdj, attnBlkE1, attnBlkE2, he.adj_eq, he.e1_eq, he.e2_eq,
    sR_of_lt adj X W b we1 be1 we2 be2 (qRow t p) (Nat.mod_lt _ (by norm_num)) j]
  exact score_eq_coe adj he.hX he.hW he.hb he.hwe1 he.hbe1 he.hwe2 he.hbe2 (qRow t p) (kCol t j)

/-- The key tile of h at key `j`, column `d`, is the real projection. -/
theorem tileVal (he : AttnEntry V c adj X W b we1 be1 we2 be2) (t : Fin cfg1.N) (j : Fin 1024) (d : Fin 256) :
    keyTile (grid1.coords t) (attnBlk V c 3 t) (ix2 j d) = ((vR X W b d (t.val % 8) j : ℝ) : EReal) := by
  rw [attnKeyTile, he.h_eq, vR_of_lt X W b d (Nat.mod_lt _ (by norm_num)) j]
  exact projH_eq_coe he.hX he.hW he.hb (kCol t j) d

/-- One body step at point `t`, from any previous scratch contents, is one step of the recurrence over the row's real scores
    and the column's real values of this key tile. -/
theorem stepState (he : AttnEntry V c adj X W b we1 be1 we2 be2) (t : Fin cfg1.N) (xs0 xs1 : FVec Ideal S1024x1 .f32) (xs2 : FVec Ideal S1024x256 .f32)
    (p : Fin 1024) (d : Fin 256) :
    (k1_pay2 (F := Ideal) (k1_pay8 (F := Ideal) (attnBlk V c 1 t) (attnBlk V c 2 t) (attnBlk V c 0 t) xs0) (ix2 p 0),
      k1_pay11 (F := Ideal) (attnBlk V c 1 t) (attnBlk V c 2 t) (attnBlk V c 0 t) xs0 xs1 (ix2 p 0),
      k1_pay1 (F := Ideal) (k1_pay9 (F := Ideal) (attnBlk V c 1 t) (attnBlk V c 2 t) (attnBlk V c 0 t) xs0) (k1_pay10 (F := Ideal) (attnBlk V c 1 t) (attnBlk V c 2 t) (attnBlk V c 0 t) xs0) (keyTile (grid1.coords t) (attnBlk V c 3 t)) xs2 (ix2 p d))
      = OnlineSoftmax.estep Ideal.exp (xs0 (ix2 p 0), xs1 (ix2 p 0), xs2 (ix2 p d))
          (fun j : Fin 1024 => ((sR adj X W b we1 be1 we2 be2 (qRow t p) (t.val % 8) j : ℝ) : EReal))
          (fun j : Fin 1024 => ((vR X W b d (t.val % 8) j : ℝ) : EReal)) := by
  rw [pay2_eq]
  refine (body_step _ _ _ xs0 xs1 _ xs2 p d).trans ?_
  rw [show (fun j : Fin 1024 => k1_pay7 (F := Ideal) (attnBlk V c 1 t) (attnBlk V c 2 t) (attnBlk V c 0 t) (ix2 p j))
        = (fun j : Fin 1024 => ((sR adj X W b we1 be1 we2 be2 (qRow t p) (t.val % 8) j : ℝ) : EReal)) from funext fun j => tileScore he t p j,
    show (fun j : Fin 1024 => (keyTile (grid1.coords t) (attnBlk V c 3 t)) (ix2 j d))
        = (fun j : Fin 1024 => ((vR X W b d (t.val % 8) j : ℝ) : EReal)) from funext fun j => tileVal he t j d]

/-- At a first key tile the state is the recurrence's state after its first block. -/
theorem firstState (he : AttnEntry V c adj X W b we1 be1 we2 be2) (t : Fin cfg1.N) (h0 : t.val % 8 = 0) (p : Fin 1024) (d : Fin 256) :
    ((attnOuts V c t.val t.isLt).2.1 (ix2 p 0), (attnOuts V c t.val t.isLt).2.2.1 (ix2 p 0), (attnOuts V c t.val t.isLt).2.2.2 (ix2 p d))
      = OnlineSoftmax.erun Ideal.exp (sR adj X W b we1 be1 we2 be2 (qRow t p)) (vR X W b d) (t.val % 8) := by
  have h1 : ¬t.val % 8 = 7 := by omega
  rw [attnOuts_first V c t h0 h1]
  unfold attnAtA; dsimp only
  rw [attnMaxA_eq, attnDenA_eq, attnAccA_eq]
  refine (stepState he t _ _ _ p d).trans ?_
  rw [pay4_apply, pay5_apply, pay6_apply, h0]
  rfl

/-- At a later key tile the state is the recurrence's next state, given the state the point before left. -/
theorem nextState (he : AttnEntry V c adj X W b we1 be1 we2 be2) (t : Fin cfg1.N) (h0 : ¬t.val % 8 = 0)
    (prev : Vec Ideal S1024x256 .f32 × Vec Ideal S1024x1 .f32 × Vec Ideal S1024x1 .f32 × Vec Ideal S1024x256 .f32)
    (hprev : ∀ (p : Fin 1024) (d : Fin 256), (prev.2.1 (ix2 p 0), prev.2.2.1 (ix2 p 0), prev.2.2.2 (ix2 p d))
      = OnlineSoftmax.erun Ideal.exp (sR adj X W b we1 be1 we2 be2 (qRow t p)) (vR X W b d) (t.val % 8 - 1))
    (p : Fin 1024) (d : Fin 256) :
    (k1_pay2 (F := Ideal) (k1_pay8 (F := Ideal) (attnBlk V c 1 t) (attnBlk V c 2 t) (attnBlk V c 0 t) prev.2.1) (ix2 p 0),
      k1_pay11 (F := Ideal) (attnBlk V c 1 t) (attnBlk V c 2 t) (attnBlk V c 0 t) prev.2.1 prev.2.2.1 (ix2 p 0),
      k1_pay1 (F := Ideal) (k1_pay9 (F := Ideal) (attnBlk V c 1 t) (attnBlk V c 2 t) (attnBlk V c 0 t) prev.2.1) (k1_pay10 (F := Ideal) (attnBlk V c 1 t) (attnBlk V c 2 t) (attnBlk V c 0 t) prev.2.1) (keyTile (grid1.coords t) (attnBlk V c 3 t)) prev.2.2.2 (ix2 p d))
      = OnlineSoftmax.erun Ideal.exp (sR adj X W b we1 be1 we2 be2 (qRow t p)) (vR X W b d) (t.val % 8) := by
  refine (stepState he t prev.2.1 prev.2.2.1 prev.2.2.2 p d).trans ?_
  rw [hprev p d]
  obtain ⟨k', hk'⟩ : ∃ k', t.val % 8 = k' + 1 := ⟨t.val % 8 - 1, by omega⟩
  rw [hk', Nat.add_sub_cancel]
  rfl

/-- THE INVARIANT: after the body at position `n` the three running quantities at row `p` (and column `d`) are the recurrence's
    state after block `n % 8` of the row 1024 (n / 8) + p. -/
theorem attnState (he : AttnEntry V c adj X W b we1 be1 we2 be2) : ∀ (n : ℕ) (hn : n < cfg1.N) (p : Fin 1024) (d : Fin 256),
    ((attnOuts V c n hn).2.1 (ix2 p 0), (attnOuts V c n hn).2.2.1 (ix2 p 0), (attnOuts V c n hn).2.2.2 (ix2 p d))
      = OnlineSoftmax.erun Ideal.exp (sR adj X W b we1 be1 we2 be2 (qRow ⟨n, hn⟩ p)) (vR X W b d) (n % 8) := by
  intro n
  induction n with
  | zero => intro hn p d; exact firstState he ⟨0, hn⟩ (Nat.zero_mod 8) p d
  | succ n ih =>
    intro hn p d
    by_cases h0 : (n + 1) % 8 = 0
    · exact firstState he ⟨n + 1, hn⟩ h0 p d
    · have hprev : ∀ (p : Fin 1024) (d : Fin 256),
          ((attnOuts V c n (Nat.lt_of_succ_lt hn)).2.1 (ix2 p 0), (attnOuts V c n (Nat.lt_of_succ_lt hn)).2.2.1 (ix2 p 0), (attnOuts V c n (Nat.lt_of_succ_lt hn)).2.2.2 (ix2 p d))
            = OnlineSoftmax.erun Ideal.exp (sR adj X W b we1 be1 we2 be2 (qRow ⟨n + 1, hn⟩ p)) (vR X W b d) ((n + 1) % 8 - 1) := by
        intro p d
        have h := ih (Nat.lt_of_succ_lt hn) p d
        rw [show qRow ⟨n, Nat.lt_of_succ_lt hn⟩ p = qRow ⟨n + 1, hn⟩ p from Fin.ext (by
              show 1024 * (n / 8) + p.val = 1024 * ((n + 1) / 8) + p.val
              omega),
          show n % 8 = (n + 1) % 8 - 1 from by omega] at h
        exact h
      by_cases h1 : (n + 1) % 8 = 7
      · rw [attnOuts_last V c ⟨n + 1, hn⟩ h0 h1]
        unfold attnAtC; dsimp only
        rw [attnMaxC_eq, attnDenC_eq, attnAccC_eq]
        exact nextState he ⟨n + 1, hn⟩ h0 _ hprev p d
      · rw [attnOuts_middle V c ⟨n + 1, hn⟩ h0 h1]
        unfold attnAtB; dsimp only
        rw [attnMaxB_eq, attnDenB_eq, attnAccB_eq]
        exact nextState he ⟨n + 1, hn⟩ h0 _ hprev p d

/-- At a last key tile the stored output tile is the accumulator over the denominator. -/
theorem outIsQuotient (t : Fin cfg1.N) (h1 : t.val % 8 = 7) :
    (attnOuts V c t.val t.isLt).1 = k1_pay3 (F := Ideal) (attnOuts V c t.val t.isLt).2.2.2 (attnOuts V c t.val t.isLt).2.2.1 := by
  have h0 : ¬t.val % 8 = 0 := by omega
  rw [attnOuts_last V c t h0 h1]
  unfold attnAtC; dsimp only
  rw [attnOutC_eq, attnAccC_eq, attnDenC_eq]

/-- So at a last key tile the output tile holds the result. -/
theorem attnOutLast (he : AttnEntry V c adj X W b we1 be1 we2 be2) (t : Fin cfg1.N) (h1 : t.val % 8 = 7) (p : Fin 1024) (d : Fin 256) :
    (attnOuts V c t.val t.isLt).1 (ix2 p d) = attnResult adj X W b we1 be1 we2 be2 (qRow t p) d := by
  have hs := attnState he t.val t.isLt p d
  rw [h1] at hs
  have hnum : (attnOuts V c t.val t.isLt).2.2.2 (ix2 p d) = (OnlineSoftmax.erun Ideal.exp (sR adj X W b we1 be1 we2 be2 (qRow t p)) (vR X W b d) 7).2.2 :=
    congrArg (fun s => s.2.2) hs
  have hden : (attnOuts V c t.val t.isLt).2.2.1 (ix2 p 0) = (OnlineSoftmax.erun Ideal.exp (sR adj X W b we1 be1 we2 be2 (qRow t p)) (vR X W b d) 7).2.1 :=
    congrArg (fun s => s.2.1) hs
  rw [outIsQuotient t h1]
  refine (pay3_apply _ _ p d).trans ?_
  rw [hnum, hden]
  unfold attnResult
  rw [Ideal.div, if_neg]
  rw [OnlineSoftmax.erun_eq Ideal.exp Ideal.exp_coe]
  exact OnlineSoftmax.coe_runDen_ne_zero _ _

/-- THE ATTENTION KERNEL'S RESULT ARRAY, as one function of the inputs. -/
theorem attn_value (he : AttnEntry V c adj X W b we1 be1 we2 be2) :
    (attnDat V c).arrAt 4 cfg1.N
      = fun idx => attnResult adj X W b we1 be1 we2 be2 ⟨(idx 0).val, (idx 0).isLt⟩ ⟨(idx 1).val, (idx 1).isLt⟩ :=
  attnFinal V c _ fun t h1 p d => attnOutLast he t h1 p d

end Cert.KernelIdeal.Hand

end
-- ==== Proof.Ref.RefValue.lean ====
import proofs.«166967_j31688268710357_2_alg».proof.Proof.Gen.ReferenceIdeal.Read
import proofs.«166967_j31688268710357_2_alg».proof.Proof.Ref.Spec
import Idealize.ShloMosaic.PureOps.Ideal.Laws

/-!
# The reference program computes the specification

Stage by stage, the reference's operations read at an index are the quantities of the
specification: the projection, the two score columns, the masked scores, the row maximum, the
exponentials, their row sum, the quotient, and the final product with the projection. With real
entries the row sum is not zero, and the result at `(i, d)` is the softmax-weighted sum
`∑ j, (exp (score i j - M i) * (∑ j', exp (score i j' - M i))⁻¹) * h j d`.
-/

noncomputable section

namespace AttnRef

open scoped BigOperators
open Cert.ReferenceIdeal Cert.ReferenceIdeal.Gen Cert.ReferenceIdeal.Read Idealize.ShloMosaic Idealize.ShloMosaic.ValueIdx AttnSpec

variable (x0 : (⟨S8192x256, .f32⟩ : BufTy).Contents (Elt Ideal))
  (x1 : (⟨S8192x8192, .i32⟩ : BufTy).Contents (Elt Ideal))
  (x2 : (⟨S256x256, .f32⟩ : BufTy).Contents (Elt Ideal))
  (x3 : (⟨S256, .f32⟩ : BufTy).Contents (Elt Ideal))
  (x4 : (⟨S256x1, .f32⟩ : BufTy).Contents (Elt Ideal))
  (x5 : (⟨S1, .f32⟩ : BufTy).Contents (Elt Ideal))
  (x6 : (⟨S256x1, .f32⟩ : BufTy).Contents (Elt Ideal))
  (x7 : (⟨S1, .f32⟩ : BufTy).Contents (Elt Ideal))

/-- The projection stage at `(n, d)` is the specification's projected feature. -/
theorem v4_eq (n : Fin 8192) (d : Fin 256) :
    val_main_v4 (F := Ideal) x0 x2 x3 (ix2 n d) = projH x0 x2 x3 n d := by
  rw [val_main_v4_apply, val_main_v1_apply, val_main_v3_apply, val_main_v2_apply]
  unfold projH
  simp only [Ideal.addf_def]
  have e3 : idx_main_v2 (idx_main_v3 (ix2 n d)) = ix1 d :=
    funext fun a => Fin.ext (by match a with | ⟨0, _⟩ => rfl)
  rw [e3]
  congr 1
  refine Finset.sum_congr rfl (fun k _ => ?_)
  rw [val_main_v0_apply]
  have el : lidx_main_v1 (ix2 n d) k = ix2 n k :=
    funext fun a => Fin.ext (by match a with | ⟨0, _⟩ => rfl | ⟨1, _⟩ => rfl)
  have er : idx_main_v0 (ridx_main_v1 (ix2 n d) k) = ix2 d k :=
    funext fun a => Fin.ext (by match a with | ⟨0, _⟩ => rfl | ⟨1, _⟩ => rfl)
  rw [el, er]

/-- The first score column's stage at `(n, 0)` is the specification's column. -/
theorem v8_eq (n : Fin 8192) :
    val_main_v8 (F := Ideal) x0 x2 x3 x4 x5 (ix2 n (0 : Fin 1)) = colE x0 x2 x3 x4 x5 n := by
  rw [val_main_v8_apply, val_main_v5_apply, val_main_v7_apply, val_main_v6_apply]
  unfold colE
  simp only [Ideal.addf_def]
  have e7 : idx_main_v6 (idx_main_v7 (ix2 n (0 : Fin 1))) = ix1 (0 : Fin 1) :=
    funext fun a => Fin.ext (by match a with | ⟨0, _⟩ => rfl)
  rw [e7]
  congr 1
  refine Finset.sum_congr rfl (fun k _ => ?_)
  have el : lidx_main_v5 (ix2 n (0 : Fin 1)) k = ix2 n k :=
    funext fun a => Fin.ext (by match a with | ⟨0, _⟩ => rfl | ⟨1, _⟩ => rfl)
  have er : ridx_main_v5 (ix2 n (0 : Fin 1)) k = ix2 k (0 : Fin 1) :=
    funext fun a => Fin.ext (by match a with | ⟨0, _⟩ => rfl | ⟨1, _⟩ => rfl)
  rw [el, er, v4_eq]

/-- The second score column's stage at `(n, 0)` is the specification's column. -/
theorem v12_eq (n : Fin 8192) :
    val_main_v12 (F := Ideal) x0 x2 x3 x6 x7 (ix2 n (0 : Fin 1)) = colE x0 x2 x3 x6 x7 n := by
  rw [val_main_v12_apply, val_main_v9_apply, val_main_v11_apply, val_main_v10_apply]
  unfold colE
  simp only [Ideal.addf_def]
  have e7 : idx_main_v10 (idx_main_v11 (ix2 n (0 : Fin 1))) = ix1 (0 : Fin 1) :=
    funext fun a => Fin.ext (by match a with | ⟨0, _⟩ => rfl)
  rw [e7]
  congr 1
  refine Finset.sum_congr rfl (fun k _ => ?_)
  have el : lidx_main_v9 (ix2 n (0 : Fin 1)) k = ix2 n k :=
    funext fun a => Fin.ext (by match a with | ⟨0, _⟩ => rfl | ⟨1, _⟩ => rfl)
  have er : ridx_main_v9 (ix2 n (0 : Fin 1)) k = ix2 k (0 : Fin 1) :=
    funext fun a => Fin.ext (by match a with | ⟨0, _⟩ => rfl | ⟨1, _⟩ => rfl)
  rw [el, er, v4_eq]

/-- The additive score's stage at `(i, j)` is the sum of the two columns. -/
theorem v16_eq (i j : Fin 8192) :
    val_main_v16 (F := Ideal) x0 x2 x3 x4 x5 x6 x7 (ix2 i j)
      = colE x0 x2 x3 x4 x5 i + colE x0 x2 x3 x6 x7 j := by
  rw [val_main_v16_apply, val_main_v14_apply, val_main_v15_apply, val_main_v13_apply]
  simp only [Ideal.addf_def]
  have e1 : idx_main_v14 (ix2 i j) = ix2 i (0 : Fin 1) :=
    funext fun a => Fin.ext (by match a with | ⟨0, _⟩ => rfl | ⟨1, _⟩ => rfl)
  have e2 : idx_main_v13 (idx_main_v15 (ix2 i j)) = ix2 j (0 : Fin 1) :=
    funext fun a => Fin.ext (by match a with | ⟨0, _⟩ => rfl | ⟨1, _⟩ => rfl)
  rw [e1, e2, v8_eq, v12_eq]

/-- The masked score's stage at `(i, j)` is the specification's score. -/
theorem v24_eq (i j : Fin 8192) :
    val_main_v24 (F := Ideal) x0 x1 x2 x3 x4 x5 x6 x7 (ix2 i j)
      = score x1 x0 x2 x3 x4 x5 x6 x7 i j := by
  rw [val_main_v24_apply, val_main_v23_apply, val_main_v22_apply, val_main_c_apply,
    val_main_v21_apply, val_main_v18_apply, val_main_v20_apply, val_main_v19_apply,
    val_main_cst_0_apply, val_main_v17_apply, val_main_cst_apply, val_main_call1_v1_apply,
    val_main_call1_v0_apply, val_main_cst_1_apply, v16_eq]
  exact scoreOf_raw _ _

/-- The word of minus infinity denotes `⊥`. -/
theorem ofBits_neg_inf : Ideal.ofBits .f32 0xFF800000#32 = ⊥ := by
  simp [Ideal.ofBits, Ideal.ieee]

/-- The row index `i` with the column `k` put back is `(i, k)`. -/
theorem lift_ix1 (h : S8192x8192.Reduces [1] S8192) (i : Fin 8192)
    (k : Fin (S8192x8192.size 1)) :
    h.lift (ix1 i) k = ix2 i (⟨k.val, k.isLt⟩ : Fin 8192) := by
  funext c
  apply Fin.ext
  fin_cases c <;> rfl

/-- The row maximum's stage at `i` is the specification's row maximum. -/
theorem v27_eq (i : Fin 8192) :
    val_main_v27 (F := Ideal) x0 x1 x2 x3 x4 x5 x6 x7 (ix1 i)
      = rowMax x1 x0 x2 x3 x4 x5 x6 x7 i := by
  have h : S8192x8192.Reduces [1] S8192 := by decide
  rw [val_main_v27_apply, val_main_v26_apply, val_main_cst_3_apply]
  unfold val_main_v25
  rw [Host.reduce_eq_fold_single FloatOps.maximumf _ _ _ h _, val_main_cst_2_apply]
  have hf : (val_main_v24 (F := Ideal) x0 x1 x2 x3 x4 x5 x6 x7 ∘ h.lift (ix1 i))
      = fun j : Fin 8192 => score x1 x0 x2 x3 x4 x5 x6 x7 i j :=
    funext fun k => by
      show val_main_v24 (F := Ideal) x0 x1 x2 x3 x4 x5 x6 x7 (h.lift (ix1 i) k) = _
      rw [lift_ix1, v24_eq]
      rfl
  rw [hf]
  simp only [Ideal.ofBits_def, Ideal.maximumf_def]
  rw [ofBits_neg_inf]
  rfl

/-- The exponential's stage at `(i, j)` is `exp (score i j - M i)`. -/
theorem v31_eq (i j : Fin 8192) :
    val_main_v31 (F := Ideal) x0 x1 x2 x3 x4 x5 x6 x7 (ix2 i j)
      = Ideal.exp (score x1 x0 x2 x3 x4 x5 x6 x7 i j - rowMax x1 x0 x2 x3 x4 x5 x6 x7 i) := by
  rw [val_main_v31_apply, val_main_v30_apply, val_main_v29_apply, val_main_v28_apply]
  have e : idx_main_v28 (idx_main_v29 (ix2 i j)) = ix1 i :=
    funext fun a => Fin.ext (by match a with | ⟨0, _⟩ => rfl)
  rw [e, v24_eq, v27_eq]
  simp only [Ideal.hostUnary_exp_def, Ideal.subf_def]

/-- The row sum's stage at `i` is `∑ j, exp (score i j - M i)`. -/
theorem v32_eq (i : Fin 8192) :
    val_main_v32 (F := Ideal) x0 x1 x2 x3 x4 x5 x6 x7 (ix1 i)
      = ∑ j : Fin 8192,
          Ideal.exp (score x1 x0 x2 x3 x4 x5 x6 x7 i j - rowMax x1 x0 x2 x3 x4 x5 x6 x7 i) := by
  rw [val_main_v32_apply, val_main_cst_4_apply]
  simp only [Ideal.ofBits_def]
  rw [Ideal.ofBits_zero_f32, zero_add]
  refine Finset.sum_congr rfl (fun k _ => ?_)
  have e : idx_main_v32 (ix1 i) k = ix2 i k :=
    funext fun a => Fin.ext (by match a with | ⟨0, _⟩ => rfl | ⟨1, _⟩ => rfl)
  rw [e, v31_eq]

/-- The quotient's stage at `(i, j)` is the exponential divided by the row sum. -/
theorem v35_eq (i j : Fin 8192) :
    val_main_v35 (F := Ideal) x0 x1 x2 x3 x4 x5 x6 x7 (ix2 i j)
      = Ideal.div
          (Ideal.exp (score x1 x0 x2 x3 x4 x5 x6 x7 i j - rowMax x1 x0 x2 x3 x4 x5 x6 x7 i))
          (∑ j' : Fin 8192,
            Ideal.exp (score x1 x0 x2 x3 x4 x5 x6 x7 i j' - rowMax x1 x0 x2 x3 x4 x5 x6 x7 i)) := by
  rw [val_main_v35_apply, val_main_v34_apply, val_main_v33_apply]
  have e : idx_main_v33 (idx_main_v34 (ix2 i j)) = ix1 i :=
    funext fun a => Fin.ext (by match a with | ⟨0, _⟩ => rfl)
  rw [e, v31_eq, v32_eq]
  simp only [Ideal.hostDivf_def]

/-- The result's stage at `(i, d)` is the sum over the keys of the quotients times the projected
    features. -/
theorem v36_eq_div (i : Fin 8192) (d : Fin 256) :
    val_main_v36 (F := Ideal) x0 x1 x2 x3 x4 x5 x6 x7 (ix2 i d)
      = ∑ j : Fin 8192,
          Ideal.div
            (Ideal.exp (score x1 x0 x2 x3 x4 x5 x6 x7 i j - rowMax x1 x0 x2 x3 x4 x5 x6 x7 i))
            (∑ j' : Fin 8192,
              Ideal.exp (score x1 x0 x2 x3 x4 x5 x6 x7 i j' - rowMax x1 x0 x2 x3 x4 x5 x6 x7 i))
          * projH x0 x2 x3 j d := by
  rw [val_main_v36_apply]
  refine Finset.sum_congr rfl (fun k _ => ?_)
  have el : lidx_main_v36 (ix2 i d) k = ix2 i k :=
    funext fun a => Fin.ext (by match a with | ⟨0, _⟩ => rfl | ⟨1, _⟩ => rfl)
  have er : ridx_main_v36 (ix2 i d) k = ix2 k d :=
    funext fun a => Fin.ext (by match a with | ⟨0, _⟩ => rfl | ⟨1, _⟩ => rfl)
  rw [el, er, v35_eq, v4_eq]

/-- With real entries the row sum of the exponentials is not zero. -/
theorem rowSum_ne_zero (hX : IsReal x0) (hW : IsReal x2) (hb : IsReal x3) (hwe1 : IsReal x4)
    (hbe1 : IsReal x5) (hwe2 : IsReal x6) (hbe2 : IsReal x7) (i : Fin 8192) :
    ∑ j' : Fin 8192,
      Ideal.exp (score x1 x0 x2 x3 x4 x5 x6 x7 i j' - rowMax x1 x0 x2 x3 x4 x5 x6 x7 i) ≠ 0 := by
  rw [rowMax_eq_coe x1 hX hW hb hwe1 hbe1 hwe2 hbe2]
  have h : (fun j' : Fin 8192 =>
      Ideal.exp (score x1 x0 x2 x3 x4 x5 x6 x7 i j'
        - ((rowMaxR x1 x0 x2 x3 x4 x5 x6 x7 i : ℝ) : EReal)))
      = fun j' : Fin 8192 =>
      Ideal.exp (((scoreR x1 x0 x2 x3 x4 x5 x6 x7 i j' : ℝ) : EReal)
        - ((rowMaxR x1 x0 x2 x3 x4 x5 x6 x7 i : ℝ) : EReal)) :=
    funext fun j' => by rw [score_eq_coe x1 hX hW hb hwe1 hbe1 hwe2 hbe2]
  rw [h]
  exact OnlineSoftmax.softmax_den_ne_zero Ideal.exp Ideal.exp_coe Finset.univ
    Finset.univ_nonempty (fun j' => scoreR x1 x0 x2 x3 x4 x5 x6 x7 i j')
    (rowMaxR x1 x0 x2 x3 x4 x5 x6 x7 i)

/-- With real entries the reference's result at `(i, d)` is the softmax form over the
    specification: `∑ j, (exp (score i j - M i) * (∑ j', exp (score i j' - M i))⁻¹) * h j d`. -/
theorem v36_eq (hX : IsReal x0) (hW : IsReal x2) (hb : IsReal x3) (hwe1 : IsReal x4)
    (hbe1 : IsReal x5) (hwe2 : IsReal x6) (hbe2 : IsReal x7) (i : Fin 8192) (d : Fin 256) :
    val_main_v36 (F := Ideal) x0 x1 x2 x3 x4 x5 x6 x7 (ix2 i d)
      = ∑ j : Fin 8192,
          (Ideal.exp (score x1 x0 x2 x3 x4 x5 x6 x7 i j - rowMax x1 x0 x2 x3 x4 x5 x6 x7 i)
            * (∑ j' : Fin 8192,
                Ideal.exp
                  (score x1 x0 x2 x3 x4 x5 x6 x7 i j' - rowMax x1 x0 x2 x3 x4 x5 x6 x7 i))⁻¹)
          * projH x0 x2 x3 j d := by
  rw [v36_eq_div]
  refine Finset.sum_congr rfl (fun j _ => ?_)
  rw [Ideal.div, if_neg (rowSum_ne_zero x0 x1 x2 x3 x4 x5 x6 x7 hX hW hb hwe1 hbe1 hwe2 hbe2 i)]

end AttnRef
-- ==== Proof.LibOnlineSoftmaxFlat.lean ====
import proofs.«166967_j31688268710357_2_alg».proof.Proof.LibOnlineSoftmax
import Mathlib.Logic.Equiv.Fin.Basic
import Mathlib.Algebra.BigOperators.Group.Finset.Sigma

/-!
# The online softmax over a flat row

A row of `(n + 1) * J` keys, indexed by `Fin ((n + 1) * J)`, is cut into `n + 1` blocks of `J`
consecutive keys: key `j` of block `k` is position `J * k + j`. This file re-indexes sums and the
maximum over the flat row by blocks, and states the law of the online softmax for a flat row.
-/

noncomputable section

namespace OnlineSoftmax

open scoped BigOperators

/-- Key `j` of block `k < K` lies in the row: `J * k + j < K * J`. -/
theorem flat_lt {K J k : ℕ} (hk : k < K) (j : Fin J) : J * k + j.val < K * J := by
  have h1 : J * (k + 1) ≤ J * K := Nat.mul_le_mul_left J hk
  have h2 := j.isLt
  rw [Nat.mul_succ] at h1
  rw [Nat.mul_comm K J]
  omega

/-- A sum over `K * J` consecutive positions is the sum over the blocks `k < K` of the sums over
    the block's keys, for any family `g` that agrees with `f` at position `J * k + j`. -/
theorem sum_fin_mul_eq_sum_range {M : Type*} [AddCommMonoid M] (K J : ℕ) (f : Fin (K * J) → M)
    (g : ℕ → Fin J → M)
    (hg : ∀ (k : ℕ) (hk : k < K) (j : Fin J), g k j = f ⟨J * k + j.val, flat_lt hk j⟩) :
    ∑ x, f x = ∑ k ∈ Finset.range K, ∑ j, g k j := by
  rw [← Fin.sum_univ_eq_sum_range (fun k => ∑ j, g k j) K,
    ← Equiv.sum_comp finProdFinEquiv f, Fintype.sum_prod_type]
  refine Finset.sum_congr rfl (fun k _ => Finset.sum_congr rfl (fun j _ => ?_))
  rw [hg k.val k.isLt j]
  congr 1
  apply Fin.ext
  show j.val + J * k.val = J * k.val + j.val
  omega

/-- The maximum over a flat row of `(n + 1) * J` reals is the running maximum after block `n` of
    the row cut into blocks. -/
theorem sup'_flat_eq_runMax {n J : ℕ} [Nonempty (Fin J)] (t : Fin ((n + 1) * J) → ℝ)
    (s : ℕ → Fin J → ℝ)
    (hs : ∀ (k : ℕ) (hk : k < n + 1) (j : Fin J), s k j = t ⟨J * k + j.val, flat_lt hk j⟩)
    (hne : (Finset.univ : Finset (Fin ((n + 1) * J))).Nonempty) :
    Finset.univ.sup' hne t = runMax s n := by
  apply eq_runMax
  · intro k' hk' j
    rw [hs k' (Nat.lt_succ_of_le hk') j]
    exact Finset.le_sup' t (Finset.mem_univ _)
  · obtain ⟨x, -, hx⟩ := Finset.exists_mem_eq_sup' hne t
    have hJ : 0 < J := Fin.pos (Classical.arbitrary (Fin J))
    have hk : x.val / J < n + 1 := (Nat.div_lt_iff_lt_mul hJ).mpr x.isLt
    refine ⟨x.val / J, Nat.lt_succ_iff.mp hk, ⟨x.val % J, Nat.mod_lt _ hJ⟩, ?_⟩
    rw [hx, hs _ hk]
    congr 1
    apply Fin.ext
    show x.val = J * (x.val / J) + x.val % J
    exact (Nat.div_add_mod _ _).symm

/-- The law of the online softmax for a flat row: the softmax-weighted sum of the values over
    the whole row, written with the extended reals' own operations around the row's maximum, is
    the final quotient of the online recurrence run over the row's blocks from `(⊥, 0, 0)`. -/
theorem flat_softmax_eq_erun (E : EReal → EReal)
    (hE : ∀ x : ℝ, E (x : EReal) = ((Real.exp x : ℝ) : EReal)) {n J : ℕ} [Nonempty (Fin J)]
    (t w : Fin ((n + 1) * J) → ℝ) (s v : ℕ → Fin J → ℝ)
    (hs : ∀ (k : ℕ) (hk : k < n + 1) (j : Fin J), s k j = t ⟨J * k + j.val, flat_lt hk j⟩)
    (hv : ∀ (k : ℕ) (hk : k < n + 1) (j : Fin J), v k j = w ⟨J * k + j.val, flat_lt hk j⟩)
    (hne : (Finset.univ : Finset (Fin ((n + 1) * J))).Nonempty) :
    ∑ x, (E ((t x : EReal) - ((Finset.univ.sup' hne t : ℝ) : EReal))
        * (∑ x', E ((t x' : EReal) - ((Finset.univ.sup' hne t : ℝ) : EReal)))⁻¹) * (w x : EReal)
      = (erun E s v n).2.2 * ((erun E s v n).2.1)⁻¹ := by
  rw [erun_eq E hE s v n]
  show _ = ((runNum s v n : ℝ) : EReal) * ((runDen s n : ℝ) : EReal)⁻¹
  rw [coe_runNum_mul_inv_eq_softmax E hE s v n, sup'_flat_eq_runMax t s hs hne]
  rw [sum_fin_mul_eq_sum_range (n + 1) J
    (fun x' => E ((t x' : EReal) - ((runMax s n : ℝ) : EReal)))
    (fun k' j' => E ((s k' j' : EReal) - ((runMax s n : ℝ) : EReal)))
    (fun k hk j => by rw [hs k hk j])]
  exact sum_fin_mul_eq_sum_range (n + 1) J _
    (fun k j => (E ((s k j : EReal) - ((runMax s n : ℝ) : EReal))
      * (∑ k' ∈ Finset.range (n + 1), ∑ j',
          E ((s k' j' : EReal) - ((runMax s n : ℝ) : EReal)))⁻¹) * (v k j : EReal))
    (fun k hk j => by rw [hs k hk j, hv k hk j])

end OnlineSoftmax
-- ==== Proof.Ref.RefOnline.lean ====
import proofs.«166967_j31688268710357_2_alg».proof.Proof.Ref.RefValue
import proofs.«166967_j31688268710357_2_alg».proof.Proof.LibOnlineSoftmaxFlat

/-!
# The reference's result in the online form

With real entries, the reference's result at `(i, d)` — the softmax of row `i` of the scores
applied to column `d` of the projected features — is the final quotient of the online softmax
recurrence run over the row cut into eight blocks of 1024 keys, from the state `(⊥, 0, 0)`.
-/

noncomputable section

namespace AttnRef

open scoped BigOperators
open Cert.ReferenceIdeal Cert.ReferenceIdeal.Gen Cert.ReferenceIdeal.Read Idealize.ShloMosaic Idealize.ShloMosaic.ValueIdx AttnSpec

variable (x0 : (⟨S8192x256, .f32⟩ : BufTy).Contents (Elt Ideal))
  (x1 : (⟨S8192x8192, .i32⟩ : BufTy).Contents (Elt Ideal))
  (x2 : (⟨S256x256, .f32⟩ : BufTy).Contents (Elt Ideal))
  (x3 : (⟨S256, .f32⟩ : BufTy).Contents (Elt Ideal))
  (x4 : (⟨S256x1, .f32⟩ : BufTy).Contents (Elt Ideal))
  (x5 : (⟨S1, .f32⟩ : BufTy).Contents (Elt Ideal))
  (x6 : (⟨S256x1, .f32⟩ : BufTy).Contents (Elt Ideal))
  (x7 : (⟨S1, .f32⟩ : BufTy).Contents (Elt Ideal))

/-- With real entries the softmax form of the specification at `(i, d)` is the final quotient of
    the online recurrence over the eight blocks of row `i`. -/
theorem softmax_eq_online (hX : IsReal x0) (hW : IsReal x2) (hb : IsReal x3) (hwe1 : IsReal x4)
    (hbe1 : IsReal x5) (hwe2 : IsReal x6) (hbe2 : IsReal x7) (i : Fin 8192) (d : Fin 256) :
    ∑ j : Fin 8192,
        (Ideal.exp (score x1 x0 x2 x3 x4 x5 x6 x7 i j - rowMax x1 x0 x2 x3 x4 x5 x6 x7 i)
          * (∑ j' : Fin 8192,
              Ideal.exp
                (score x1 x0 x2 x3 x4 x5 x6 x7 i j' - rowMax x1 x0 x2 x3 x4 x5 x6 x7 i))⁻¹)
        * projH x0 x2 x3 j d
      = (OnlineSoftmax.erun Ideal.exp (sR x1 x0 x2 x3 x4 x5 x6 x7 i) (vR x0 x2 x3 d) 7).2.2
        * ((OnlineSoftmax.erun Ideal.exp (sR x1 x0 x2 x3 x4 x5 x6 x7 i) (vR x0 x2 x3 d) 7).2.1)⁻¹ := by
  have hs : ∀ j : Fin 8192, score x1 x0 x2 x3 x4 x5 x6 x7 i j
      = ((scoreR x1 x0 x2 x3 x4 x5 x6 x7 i j : ℝ) : EReal) :=
    fun j => score_eq_coe x1 hX hW hb hwe1 hbe1 hwe2 hbe2 i j
  have hp : ∀ j : Fin 8192, projH x0 x2 x3 j d = ((projHR x0 x2 x3 j d : ℝ) : EReal) :=
    fun j => projH_eq_coe hX hW hb j d
  simp only [hs, hp, rowMax_eq_coe x1 hX hW hb hwe1 hbe1 hwe2 hbe2 i]
  exact OnlineSoftmax.flat_softmax_eq_erun Ideal.exp Ideal.exp_coe (n := 7) (J := 1024)
    (fun j : Fin 8192 => scoreR x1 x0 x2 x3 x4 x5 x6 x7 i j)
    (fun j : Fin 8192 => projHR x0 x2 x3 j d)
    (sR x1 x0 x2 x3 x4 x5 x6 x7 i) (vR x0 x2 x3 d)
    (fun k hk j => sR_of_lt x1 x0 x2 x3 x4 x5 x6 x7 i hk j)
    (fun k hk j => vR_of_lt x0 x2 x3 d hk j)
    Finset.univ_nonempty

/-- With real entries the reference's result at `(i, d)` is the final quotient of the online
    recurrence over the eight blocks of row `i`. -/
theorem v36_eq_online (hX : IsReal x0) (hW : IsReal x2) (hb : IsReal x3) (hwe1 : IsReal x4)
    (hbe1 : IsReal x5) (hwe2 : IsReal x6) (hbe2 : IsReal x7) (i : Fin 8192) (d : Fin 256) :
    val_main_v36 (F := Ideal) x0 x1 x2 x3 x4 x5 x6 x7 (ix2 i d)
      = (OnlineSoftmax.erun Ideal.exp (sR x1 x0 x2 x3 x4 x5 x6 x7 i) (vR x0 x2 x3 d) 7).2.2
        * ((OnlineSoftmax.erun Ideal.exp (sR x1 x0 x2 x3 x4 x5 x6 x7 i) (vR x0 x2 x3 d) 7).2.1)⁻¹ := by
  rw [v36_eq x0 x1 x2 x3 x4 x5 x6 x7 hX hW hb hwe1 hbe1 hwe2 hbe2,
    softmax_eq_online x0 x1 x2 x3 x4 x5 x6 x7 hX hW hb hwe1 hbe1 hwe2 hbe2]

end AttnRef
-- ==== Proof.Ref.Finite.lean ====
import proofs.«166967_j31688268710357_2_alg».proof.Proof.Gen.Pre_finite_inputs
import proofs.«166967_j31688268710357_2_alg».proof.Proof.Ref.Spec
import Idealize.ShloMosaic.Lib.ReduceAll

/-!
# Finite inputs are arrays of reals

The precondition says, of each float array, that every entry has absolute value below `+∞`, the
conjunction of the seven statements being true. In the extended reals `|x| < ⊤` excludes `⊤` and
`⊥`, so every entry is the coercion of a real.
-/

noncomputable section

namespace AttnRef

open Idealize.ShloMosaic Idealize.ShloMosaic.ValueIdx AttnSpec

/-- The scalar shape has one index. -/
instance subsingleton_scalar_idx : Subsingleton (⟨0, ![]⟩ : Shape).Idx :=
  ⟨fun a b => funext fun d => d.elim0⟩

/-- The word of plus infinity denotes `⊤`. -/
theorem ofBits_pos_inf : Ideal.ofBits .f32 0x7F800000#32 = ⊤ := by
  simp [Ideal.ofBits, Ideal.ieee]

/-- An extended real whose absolute value `max x (-x)` compares below `+∞` is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [ofBits_pos_inf] at h'
  have hlt : max x (-x) < ⊤ := by
    by_contra hn
    simp [hn] at h'
  induction x using EReal.rec with
  | bot => simp at hlt
  | coe r => exact ⟨r, rfl⟩
  | top => simp at hlt

/-- A float array all of whose entries have absolute value below `+∞` — the reduction by `and`
    of the comparisons, from `1`, into the scalar shape is `1` — is an array of reals. -/
theorem isReal_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf a)
          (broadcastInDim s (![] : Fin 0 → Fin s.rank) hb
            (constant (F := Ideal) (⟨0, ![]⟩ : Shape) .f32 0x7F800000#32)))
        (constantI (⟨0, ![]⟩ : Shape) 1 1#1) hr hu ix0 = 1#1) :
    IsReal a := by
  intro i
  have hi := Host.reduce_andi_all _ _ hr hu ix0 e i
  exact real_of_abs_lt_inf (a i) hi

/-- The precondition, true of the eight argument arrays, makes each of the seven float arrays an
    array of reals (the integer adjacency array is not constrained). -/
theorem isReal_of_pre
    (a0 : FVec Ideal Cert.Pre_finite_inputs.S8192x256 .f32)
    (a1 : IVec Cert.Pre_finite_inputs.S8192x8192 32)
    (a2 : FVec Ideal Cert.Pre_finite_inputs.S256x256 .f32)
    (a3 : FVec Ideal Cert.Pre_finite_inputs.S256 .f32)
    (a4 : FVec Ideal Cert.Pre_finite_inputs.S256x1 .f32)
    (a5 : FVec Ideal Cert.Pre_finite_inputs.S1 .f32)
    (a6 : FVec Ideal Cert.Pre_finite_inputs.S256x1 .f32)
    (a7 : FVec Ideal Cert.Pre_finite_inputs.S1 .f32)
    (h : Cert.Pre_finite_inputs.fn (F := Ideal) a0 a1 a2 a3 a4 a5 a6 a7 = fun _ => 1#1) :
    IsReal a0 ∧ IsReal a2 ∧ IsReal a3 ∧ IsReal a4 ∧ IsReal a5 ∧ IsReal a6 ∧ IsReal a7 := by
  have h0 := congrFun h ix0
  dsimp only [Cert.Pre_finite_inputs.fn, Cert.Pre_finite_inputs.fn_part1, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨isReal_of_all a0 _ _ _ e0, isReal_of_all a2 _ _ _ e2, isReal_of_all a3 _ _ _ e3,
    isReal_of_all a4 _ _ _ e4, isReal_of_all a5 _ _ _ e5, isReal_of_all a6 _ _ _ e6,
    isReal_of_all a7 _ _ _ e7⟩

end AttnRef
-- ==== Proof.lean ====
/-
  A graph-attention layer computed two ways, equal on finite inputs over the extended reals.

  Both programs take node features X, an adjacency matrix, a projection (W, b) and two scoring vectors (we1, be1), (we2, be2).
  With h = X Wᵀ + b, e1 = h we1 + be1 and e2 = h we2 + be2, the score of query i against key j is the leaky rectifier of
  e1(i) + e2(j) where the adjacency is positive and a large negative constant elsewhere; the result is the row-wise softmax
  of the scores times h.

  The reference computes each row's softmax at once: subtract the row's maximum, exponentiate, divide by the row's sum, then
  multiply by h. The kernel computes h, e1 and e2ᵀ in a first pass over 8 row tiles, and in a second pass walks, for each of
  8 query tiles, the 8 key tiles, keeping per row a running maximum m, a running denominator l and a running numerator a:
  at each key tile m' = max(m, tile maximum), l' = exp(m − m') l + Σ exp(s − m'), a' = exp(m − m') a + Σ exp(s − m') h,
  starting from (−∞, 0, 0), and stores a / l after the last key tile.

  The two agree because exp(m − m') exp(s − m) = exp(s − m'): after each key tile, l and a are the sums over the keys seen
  so far of exp(s − m) and exp(s − m) h with m the maximum so far, so at the end a / l = Σ (exp(s − M) / L) h with M the row
  maximum and L the row's sum of exp(s − M) ≥ 1. This uses that the scores and the entries of h are real numbers, which holds
  because every float input is finite; the first step from (−∞, 0, 0) is exact because exp(−∞) = 0 multiplies a zero.

  Frames: each program runs to the end, faults nowhere and leaves its argument arrays as launched — for the kernel (read
  word by word and at the exact instance) because the program is two kernel regions in sequence whose write-backs touch only
  their own output arrays; for the reference by its straight-line run.
-/
import proofs.«166967_j31688268710357_2_alg».proof.Defs
import proofs.«166967_j31688268710357_2_alg».proof.Proof.Gen.Kernel
import proofs.«166967_j31688268710357_2_alg».proof.Proof.Gen.KernelIdeal
import proofs.«166967_j31688268710357_2_alg».proof.Proof.Gen.ReferenceIdeal
import proofs.«166967_j31688268710357_2_alg».proof.Proof.Gen.Pre_finite_inputs
import proofs.«166967_j31688268710357_2_alg».proof.Proof.Gen.ReferenceIdeal.Run
import proofs.«166967_j31688268710357_2_alg».proof.Proof.Gen.ReferenceIdeal.Read
import proofs.«166967_j31688268710357_2_alg».proof.Proof.K.Run
import proofs.«166967_j31688268710357_2_alg».proof.Proof.KI.Run
import proofs.«166967_j31688268710357_2_alg».proof.Proof.KI.PrepValue
import proofs.«166967_j31688268710357_2_alg».proof.Proof.KI.AttnValue
import proofs.«166967_j31688268710357_2_alg».proof.Proof.Ref.RefOnline
import proofs.«166967_j31688268710357_2_alg».proof.Proof.Ref.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel, read word by word, runs and leaves its arguments as launched. -/
theorem frame_kernel : Cert.frame_Kernel := fun m ρ _ => Cert.Kernel.Hand.frame (F := Bits) m ρ

/-- The kernel at the exact instance runs and leaves its arguments as launched. -/
theorem frame_kernelIdeal : Cert.frame_KernelIdeal := fun m ρ _ => Cert.KernelIdeal.Hand.frame (F := Ideal) m ρ

/-- The reference runs and leaves its arguments as launched: its straight-line run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the exact instance. -/
theorem preserves : Cert.preserves_Kernel_KernelIdeal := trivial

/-- Both programs end with the same result array: at row i, column d, the online recurrence's final numerator over its
    final denominator, for the row's scores and column d of h. -/
theorem algebraic : Cert.algebraic_KernelIdeal_ReferenceIdeal := by
  intro m ρ m' ρ' hpre hagree
  refine ⟨fun c idx => Cert.KernelIdeal.Hand.attnResult
        (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        ⟨(idx 0).val, (idx 0).isLt⟩ ⟨(idx 1).val, (idx 1).isLt⟩, ?_, ?_⟩
  · refine (θ_run Cert.KernelIdeal.defs _ _).mono (fun r h c => ⟨(h c).1.trans ?_, (h c).2⟩)
      (Cert.KernelIdeal.Hand.runValue (F := Ideal) m ρ)
    obtain ⟨h0, h2, h3, h4, h5, h6, h7⟩ := AttnRef.isReal_of_pre _ _ _ _ _ _ _ _ (hpre c)
    exact Cert.KernelIdeal.Hand.attn_value (V := Cert.KernelIdeal.Hand.midV m) (c := c)
      ⟨fun i j => congrFun (Cert.KernelIdeal.Hand.midAt_of_ne m c Cert.KernelIdeal.main_arg1 (by decide)) (ix2 i j),
        fun n d => (congrFun (Cert.KernelIdeal.Hand.midAt_arr m c 7) (ix2 n d)).trans
          (Cert.KernelIdeal.Hand.prepH_value (Cert.KernelIdeal.Hand.startV m) c n d),
        fun n => (congrFun (Cert.KernelIdeal.Hand.midAt_arr m c 8) (ix2 n (0 : Fin 1))).trans
          (Cert.KernelIdeal.Hand.prepE1_value (Cert.KernelIdeal.Hand.startV m) c n),
        fun n => (congrFun (Cert.KernelIdeal.Hand.midAt_arr m c 9) (ix2 (0 : Fin 1) n)).trans
          (Cert.KernelIdeal.Hand.prepE2_value (Cert.KernelIdeal.Hand.startV m) c n),
        h0, h2, h3, h4, h5, h6, h7⟩
  · refine (θ_run Cert.ReferenceIdeal.defs _ _).mono (fun r h c => ⟨(h c).1.trans ?_, (h c).2⟩)
      (Cert.ReferenceIdeal.Value.run (F := Ideal) m' ρ')
    obtain ⟨h0, h2, h3, h4, h5, h6, h7⟩ := AttnRef.isReal_of_pre _ _ _ _ _ _ _ _ (hpre c)
    rw [Cert.ReferenceIdeal.Read.val_main_v36_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    funext idx
    exact (congrArg (Cert.ReferenceIdeal.Read.val_main_v36 (F := Ideal) _ _ _ _ _ _ _ _) (eq_ix2 idx)).trans
      (AttnRef.v36_eq_online _ _ _ _ _ _ _ _ h0 h2 h3 h4 h5 h6 h7 (idx 0) (idx 1))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
